-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x512, .bf16⟩
  | .hbm, ⟨24, _⟩ => ⟨S8192x512, .bf16⟩
  | .hbm, ⟨25, _⟩ => ⟨S8192x1, .i32⟩
  | .hbm, ⟨26, _⟩ => ⟨S1x8192, .i32⟩
  | .hbm, ⟨27, _⟩ => ⟨S8192x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1, .i32⟩
  | .local _ .vmem, ⟨7, _⟩ => ⟨S1024x1, .i32⟩
  | .local _ .vmem, ⟨8, _⟩ => ⟨S1x512, .i32⟩
  | .local _ .vmem, ⟨9, _⟩ => ⟨S1x512, .i32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_cst_1 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_cst_2 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_call0_v20 : Ref sig .tc := ⟨.hbm, 27, rfl⟩
abbrev main_call0_cst_3 : Ref sig .tc := ⟨.hbm, 28, rfl⟩
abbrev main_call0_v21 : Ref sig .tc := ⟨.hbm, 29, rfl⟩
abbrev main_call0_cst_4 : Ref sig .tc := ⟨.hbm, 30, rfl⟩
abbrev main_call0_v22 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v94 : BitVec 1 := Scalar.cmpi .eq arg1 c15_i32
  let v95 : BitVec 32 := Scalar.extui v94
  let c0_i32_50 : BitVec 32 := 0#32
  let v96 : BitVec 1 := Scalar.cmpi .ne v95 c0_i32_50
  v96

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S8192x1 : S8192.ShapeCasts S8192x1
  shapeCasts_S8192_S1x8192 : S8192.ShapeCasts S1x8192
  reducesTo_S8192x1_S_d0_1 : S8192x1.ReducesTo [0, 1] S_
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S1024x512_d1_w32 : S1024x512.Iotas .tc 32 [1]
  iota_S1024x512_d0_w32 : S1024x512.Iotas .tc 32 [0]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .bf16 = 32 ∨ (Rect.block (s := S8192x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .i32 = 32 ∨ (Rect.block (s := S8192x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .i32 = 32 ∨ (Rect.block (s := S1x8192) S1x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_call0_v16) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v16) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v17) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v18) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v19) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v20) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S8191 : Shape := ⟨1, ![8191]⟩
abbrev S1x8191 : Shape := ⟨2, ![1, 8191]⟩
abbrev S8192x8191 : Shape := ⟨2, ![8192, 8191]⟩
abbrev S512x8192 : Shape := ⟨2, ![512, 8192]⟩
abbrev S8192x8192 : Shape := ⟨2, ![8192, 8192]⟩
abbrev S8192x8191x1 : Shape := ⟨3, ![8192, 8191, 1]⟩
abbrev S1 : Shape := ⟨1, ![1]⟩
abbrev S1x1x1 : Shape := ⟨3, ![1, 1, 1]⟩
abbrev S1x8192 : Shape := ⟨2, ![1, 8192]⟩

abbrev nBuf : Space → Nat
  | .hbm => 124
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8191, .i32⟩
  | .hbm, ⟨24, _⟩ => ⟨S1x8191, .i32⟩
  | .hbm, ⟨25, _⟩ => ⟨S8192, .i32⟩
  | .hbm, ⟨26, _⟩ => ⟨S8192x1, .i32⟩
  | .hbm, ⟨27, _⟩ => ⟨S8192x8191, .i32⟩
  | .hbm, ⟨28, _⟩ => ⟨S8192x8191, .i32⟩
  | .hbm, ⟨29, _⟩ => ⟨S8192x8191, .i1⟩
  | .hbm, ⟨30, _⟩ => ⟨S8192x8191, .i32⟩
  | .hbm, ⟨31, _⟩ => ⟨S8192x8191, .i32⟩
  | .hbm, ⟨32, _⟩ => ⟨S8192x8191, .i32⟩
  | .hbm, ⟨33, _⟩ => ⟨S512x8192, .f32⟩
  | .hbm, ⟨34, _⟩ => ⟨S8192x8192, .f32⟩
  | .hbm, ⟨35, _⟩ => ⟨S_, .i32⟩
  | .hbm, ⟨36, _⟩ => ⟨S8192x8191, .i32⟩
  | .hbm, ⟨37, _⟩ => ⟨S8192x8191, .i1⟩
  | .hbm, ⟨38, _⟩ => ⟨S_, .i32⟩
  | .hbm, ⟨39, _⟩ => ⟨S8192x8191, .i32⟩
  | .hbm, ⟨40, _⟩ => ⟨S8192x8191, .i32⟩
  | .hbm, ⟨41, _⟩ => ⟨S8192x8191, .i32⟩
  | .hbm, ⟨42, _⟩ => ⟨S8192x8191x1, .i32⟩
  | .hbm, ⟨43, _⟩ => ⟨S1, .i32⟩
  | .hbm, ⟨44, _⟩ => ⟨S_, .i32⟩
  | .hbm, ⟨45, _⟩ => ⟨S8192x8191x1, .i32⟩
  | .hbm, ⟨46, _⟩ => ⟨S8192x8191x1, .i1⟩
  | .hbm, ⟨47, _⟩ => ⟨S1x1x1, .i32⟩
  | .hbm, ⟨48, _⟩ => ⟨S8192x8191x1, .i32⟩
  | .hbm, ⟨49, _⟩ => ⟨S8192x8191x1, .i1⟩
  | .hbm, ⟨50, _⟩ => ⟨S8192x8191x1, .i1⟩
  | .hbm, ⟨51, _⟩ => ⟨S_, .i1⟩
  | .hbm, ⟨52, _⟩ => ⟨S8192x8191, .i1⟩
  | .hbm, ⟨53, _⟩ => ⟨S8192x8191, .f32⟩
  | .hbm, ⟨54, _⟩ => ⟨S_, .f32⟩
  | .hbm, ⟨55, _⟩ => ⟨S8192x8191, .f32⟩
  | .hbm, ⟨56, _⟩ => ⟨S8192x8191, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x8191, .f32⟩
  | .hbm, ⟨61, _⟩ => ⟨S8192x8191, .f32⟩
  | .hbm, ⟨62, _⟩ => ⟨S_, .f32⟩
  | .hbm, ⟨63, _⟩ => ⟨S8192x8191, .f32⟩
  | .hbm, ⟨64, _⟩ => ⟨S8192x8191, .f32⟩
  | .hbm, ⟨65, _⟩ => ⟨S8192x8191, .f32⟩
  | .hbm, ⟨66, _⟩ => ⟨S8192x1, .i32⟩
  | .hbm, ⟨67, _⟩ => ⟨S1x8192, .i32⟩
  | .hbm, ⟨68, _⟩ => ⟨S8192x8192, .i32⟩
  | .hbm, ⟨69, _⟩ => ⟨S8192x8192, .i32⟩
  | .hbm, ⟨70, _⟩ => ⟨S8192x8192, .i1⟩
  | .hbm, ⟨71, _⟩ => ⟨S8192x8192, .f32⟩
  | .hbm, ⟨72, _⟩ => ⟨S_, .i32⟩
  | .hbm, ⟨73, _⟩ => ⟨S8192x8191, .i32⟩
  | .hbm, ⟨74, _⟩ => ⟨S8192x8191, .i1⟩
  | .hbm, ⟨75, _⟩ => ⟨S_, .i32⟩
  | .hbm, ⟨76, _⟩ => ⟨S8192x8191, .i32⟩
  | .hbm, ⟨77, _⟩ => ⟨S8192x8191, .i32⟩
  | .hbm, ⟨78, _⟩ => ⟨S8192x8191, .i32⟩
  | .hbm, ⟨79, _⟩ => ⟨S8192x8191x1, .i32⟩
  | .hbm, ⟨80, _⟩ => ⟨S1, .i32⟩
  | .hbm, ⟨81, _⟩ => ⟨S_, .i32⟩
  | .hbm, ⟨82, _⟩ => ⟨S8192x8191x1, .i32⟩
  | .hbm, ⟨83, _⟩ => ⟨S8192x8191x1, .i1⟩
  | .hbm, ⟨84, _⟩ => ⟨S1x1x1, .i32⟩
  | .hbm, ⟨85, _⟩ => ⟨S8192x8191x1, .i32⟩
  | .hbm, ⟨86, _⟩ => ⟨S8192x8191x1, .i1⟩
  | .hbm, ⟨87, _⟩ => ⟨S8192x8191x1, .i1⟩
  | .hbm, ⟨88, _⟩ => ⟨S_, .i1⟩
  | .hbm, ⟨89, _⟩ => ⟨S8192x8191, .i1⟩
  | .hbm, ⟨90, _⟩ => ⟨S8192x8191, .f32⟩
  | .hbm, ⟨91, _⟩ => ⟨S_, .f32⟩
  | .hbm, ⟨92, _⟩ => ⟨S8192x8191, .f32⟩
  | .hbm, ⟨93, _⟩ => ⟨S8192x8191, .f32⟩
  | .hbm, ⟨94, _⟩ => ⟨S512x8192, .f32⟩
  | .hbm, ⟨95, _⟩ => ⟨S8192x8192, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S8192x8192, .f32⟩
  | .hbm, ⟨100, _⟩ => ⟨S8192x8192, .f32⟩
  | .hbm, ⟨101, _⟩ => ⟨S_, .f32⟩
  | .hbm, ⟨102, _⟩ => ⟨S8192x8192, .f32⟩
  | .hbm, ⟨103, _⟩ => ⟨S8192x8192, .f32⟩
  | .hbm, ⟨104, _⟩ => ⟨S8192x8192, .f32⟩
  | .hbm, ⟨105, _⟩ => ⟨S8192x8192, .f32⟩
  | .hbm, ⟨106, _⟩ => ⟨S_, .f32⟩
  | .hbm, ⟨107, _⟩ => ⟨S8192, .f32⟩
  | .hbm, ⟨108, _⟩ => ⟨S8192x8191, .f32⟩
  | .hbm, ⟨109, _⟩ => ⟨S_, .f32⟩
  | .hbm, ⟨110, _⟩ => ⟨S8192, .f32⟩
  | .hbm, ⟨111, _⟩ => ⟨S8192, .f32⟩
  | .hbm, ⟨112, _⟩ => ⟨S_, .f32⟩
  | .hbm, ⟨113, _⟩ => ⟨S8192, .f32⟩
  | .hbm, ⟨114, _⟩ => ⟨S_, .f32⟩
  | .hbm, ⟨115, _⟩ => ⟨S8192, .f32⟩
  | .hbm, ⟨116, _⟩ => ⟨S8192, .f32⟩
  | .hbm, ⟨117, _⟩ => ⟨S8192, .f32⟩
  | .hbm, ⟨118, _⟩ => ⟨S8192, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_cst : Ref sig .tc := ⟨.hbm, 54, rfl⟩
abbrev main_call0_v14 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call1_c : Ref sig .tc := ⟨.hbm, 72, rfl⟩
abbrev main_call1_v0 : Ref sig .tc := ⟨.hbm, 73, rfl⟩
abbrev main_call1_v1 : Ref sig .tc := ⟨.hbm, 74, rfl⟩
abbrev main_call1_c_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_c_1 : Ref sig .tc := ⟨.hbm, 80, rfl⟩
abbrev main_call1_c_2 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_3 : Ref sig .tc := ⟨.hbm, 88, rfl⟩
abbrev main_call1_v12 : Ref sig .tc := ⟨.hbm, 89, rfl⟩
abbrev main_call1_v13 : Ref sig .tc := ⟨.hbm, 90, rfl⟩
abbrev main_call1_cst : Ref sig .tc := ⟨.hbm, 91, rfl⟩
abbrev main_call1_v14 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_cst_5 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_6 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_7 : Ref sig .tc := ⟨.hbm, 106, rfl⟩
abbrev main_v53 : Ref sig .tc := ⟨.hbm, 107, rfl⟩
abbrev main_v54 : Ref sig .tc := ⟨.hbm, 108, rfl⟩
abbrev main_cst_8 : Ref sig .tc := ⟨.hbm, 109, rfl⟩
abbrev main_v55 : Ref sig .tc := ⟨.hbm, 110, rfl⟩
abbrev main_v56 : Ref sig .tc := ⟨.hbm, 111, rfl⟩
abbrev main_cst_9 : Ref sig .tc := ⟨.hbm, 112, rfl⟩
abbrev main_v57 : Ref sig .tc := ⟨.hbm, 113, rfl⟩
abbrev main_cst_10 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_11 : Ref sig .tc := ⟨.hbm, 119, rfl⟩
abbrev main_v62 : Ref sig .tc := ⟨.hbm, 120, rfl⟩
abbrev main_cst_12 : Ref sig .tc := ⟨.hbm, 121, rfl⟩
abbrev main_v63 : Ref sig .tc := ⟨.hbm, 122, rfl⟩
abbrev main_v64 : Ref sig .tc := ⟨.hbm, 123, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S8191_S1x8191_1 : S8191.BroadcastsInDim S1x8191 (![1] : Fin 1 → Fin S1x8191.rank)
  bcast_S1x8191_S8192x8191_0_1 : S1x8191.BroadcastsInDim S8192x8191 (![0, 1] : Fin 2 → Fin S8192x8191.rank)
  bcast_S8192x1_S8192x8191_0_1 : S8192x1.BroadcastsInDim S8192x8191 (![0, 1] : Fin 2 → Fin S8192x8191.rank)
  natLt_1_32 : 1 < 32
  transposes_S8192x512_S512x8192_1_0 : S8192x512.Transposes [1, 0] S512x8192
  bcast_S_S8192x8191 : S_.BroadcastsInDim S8192x8191 (![] : Fin 0 → Fin S8192x8191.rank)
  shapeCasts_S8192x8191_S8192x8191x1 : S8192x8191.ShapeCasts S8192x8191x1
  bcast_S_S8192x8191x1 : S_.BroadcastsInDim S8192x8191x1 (![] : Fin 0 → Fin S8192x8191x1.rank)
  bcast_S1_S1x1x1_2 : S1.BroadcastsInDim S1x1x1 (![2] : Fin 1 → Fin S1x1x1.rank)
  bcast_S1x1x1_S8192x8191x1_0_1_2 : S1x1x1.BroadcastsInDim S8192x8191x1 (![0, 1, 2] : Fin 3 → Fin S8192x8191x1.rank)
  reducesTo_S8192x8191x1_S8192x8191_d2 : S8192x8191x1.ReducesTo [2] S8192x8191
  reducesTo_S8192x8191_S8192_d1 : S8192x8191.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192x8192 : S_.BroadcastsInDim S8192x8192 (![] : Fin 0 → Fin S8192x8192.rank)
  reducesTo_S8192_S_d0 : S8192.ReducesTo [0] S_
  dot_S8192x512_S512x8192_S8192x8192_1_0_0_1_n_n_wf : DotDims.WF S8192x512 S512x8192 S8192x8192 [1] [0] [0] [1] [] []
  gather_S8192x8192_S8192x8191x1_S8192x8191_n_1_0_0_1_2_11_wf : GatherDims.WF S8192x8192 S8192x8191x1 S8192x8191 [] [1] [0] [1] [0] 2 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S8192x8191x1_S8192x8191_n_1_0_0_1_2_11 : GatherDims S8192x8192 S8192x8191x1 S8192x8191 where
  offsetDims := []
  collapsedSliceDims := [1]
  operandBatchingDims := [0]
  startIndicesBatchingDims := [0]
  startIndexMap := [1]
  indexVectorDim := 2
  sliceSizes := ![1, 1]
  wf := gather_S8192x8192_S8192x8191x1_S8192x8191_n_1_0_0_1_2_11_wf

class Facts : Prop extends Facts₀ where

variable [Facts]
-- ==== Proof.KbRuns.lean ====
/-
  The kernel body of the streaming contrastive-loss kernel, run once per control case.

  The body keeps, per query row, six running quantities in scratch: for the data-data scores a running maximum, a
  running sum of exponentials and a running sum of the exponentials at equal labels, and the same three for the
  data-label scores. At the first key block of a row block (`condFirst`) it resets them, at every key block it folds the
  block in, and at the last key block (`condLast`) it stores the logarithm of the quotient of the two combined sums.
  Three control cases meet the grid: the first key block, a middle one, the last one. For each, the body's Hoare triple
  on whole staging memrefs, the pieces each scratch buffer (and, in the last case, the output block) ends with being
  the witness the symbolic run finds.
-/
import proofs.«129704_j5781025981007_2_alg».proof.Proof.Gen.Kernel.Skeleton
import proofs.«129704_j5781025981007_2_alg».proof.Proof.Gen.Kernel.Launch
import proofs.«129704_j5781025981007_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the key-block coordinate -/

/-- The key block is the first of its row block (coordinate 1 is zero): the running quantities are reset. -/
abbrev condFirst (i : grid0.Coords) : Prop := (Scalar.cmpi .ne (Scalar.extui (Scalar.cmpi .eq (BitVec.ofNat 32 (i 1).val) 0#32)) 0#32) = 1#1
/-- Over the grid: the points ≡ 0 (mod 16). -/
theorem condFirst_iff : ∀ t : Fin cfg0.N, condFirst (grid0.coords t) ↔ t.val % 16 = 0 :=
  (by decide +kernel : ∀ t : Fin grid0.N, condFirst (grid0.coords t) ↔ t.val % 16 = 0)

/-- The key block is the last of its row block (coordinate 1 is fifteen): the output block is stored. -/
abbrev condLast (i : grid0.Coords) : Prop := k0_cond2 i = 1#1
/-- Over the grid: the points ≡ 15 (mod 16). -/
theorem condLast_iff : ∀ t : Fin cfg0.N, condLast (grid0.coords t) ↔ t.val % 16 = 15 :=
  (by decide +kernel : ∀ t : Fin grid0.N, condLast (grid0.coords t) ↔ t.val % 16 = 15)

/-! ## The six scratch buffers, as whole memrefs -/

abbrev scr0 : Memref sig .tc .vmem S1024x1 .f32 := Memref.whole cc0_scratch0
abbrev scr1 : Memref sig .tc .vmem S1024x1 .f32 := Memref.whole cc0_scratch1
abbrev scr2 : Memref sig .tc .vmem S1024x1 .f32 := Memref.whole cc0_scratch2
abbrev scr3 : Memref sig .tc .vmem S1024x1 .f32 := Memref.whole cc0_scratch3
abbrev scr4 : Memref sig .tc .vmem S1024x1 .f32 := Memref.whole cc0_scratch4
abbrev scr5 : Memref sig .tc .vmem S1024x1 .f32 := Memref.whole cc0_scratch5

/-! ## The body, case by case -/

set_option maxHeartbeats 4000000 in
/-- FIRST key block (reset, then fold the block in; nothing stored to the output): from the five input blocks at their
    contents, the output buffer at anything it held (handed back untouched) and the scratch buffers at anything, the
    body runs to its end leaving in each scratch buffer the pieces `LS·` (the reset value under the folded one). -/
noncomputable def runFirst (c : Dev nD) (i : grid0.Coords) (a2 : Memref sig .tc .vmem S1024x512 .bf16) (h2 : a2.IsWhole) (a3 : Memref sig .tc .vmem S512x512 .bf16) (h3 : a3.IsWhole) (a4 : Memref sig .tc .vmem S512x512 .bf16) (h4 : a4.IsWhole) (a5 : Memref sig .tc .vmem S1024x1 .i32) (h5 : a5.IsWhole) (a6 : Memref sig .tc .vmem S1x512 .i32) (h6 : a6.IsWhole) (a7 : Memref sig .tc .vmem S1024x1 .f32) (h7 : a7.IsWhole) (hc0 : condFirst i) (hc1 : ¬condLast i)
    (x0 : Vec F S1024x512 .bf16) (x1 : Vec F S512x512 .bf16) (x2 : Vec F S512x512 .bf16) (x3 : Vec F S1024x1 .i32) (x4 : Vec F S1x512 .i32) :
    Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi5 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xi5
            ∗ (∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xi5
                ∗ (∃ f, scr0.view.loc (c : Thread nD τ) ↦[scr0.view.set]{fullShare} scr0.view.writes (Elt F) f LS0) ∗ (∃ f, scr1.view.loc (c : Thread nD τ) ↦[scr1.view.set]{fullShare} scr1.view.writes (Elt F) f LS1) ∗ (∃ f, scr2.view.loc (c : Thread nD τ) ↦[scr2.view.set]{fullShare} scr2.view.writes (Elt F) f LS2) ∗ (∃ f, scr3.view.loc (c : Thread nD τ) ↦[scr3.view.set]{fullShare} scr3.view.writes (Elt F) f LS3) ∗ (∃ f, scr4.view.loc (c : Thread nD τ) ↦[scr4.view.set]{fullShare} scr4.view.writes (Elt F) f LS4) ∗ (∃ f, scr5.view.loc (c : Thread nD τ) ↦[scr5.view.set]{fullShare} scr5.view.writes (Elt F) f LS5)) -∗ K ⟨⟩))
          ⊢ wp frame (wpE (defs₀ (F := F)) Variants.none c none) E (cc0__kernel i a2 h2 a3 h3 a4 h4 a5 h5 a6 h6 a7 h7 scr0 (Memref.isWhole_whole _) scr1 (Memref.isWhole_whole _) scr2 (Memref.isWhole_whole _) scr3 (Memref.isWhole_whole _) scr4 (Memref.isWhole_whole _) scr5 (Memref.isWhole_whole _)) K } := by
  refine ⟨?_, ?_, ?_, ?_, ?_, ?_, fun xi5 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

set_option maxHeartbeats 4000000 in
/-- A MIDDLE key block (fold the block in): the scratch buffers come in at what the block before left (`xs·`). -/
noncomputable def runMiddle (c : Dev nD) (i : grid0.Coords) (a2 : Memref sig .tc .vmem S1024x512 .bf16) (h2 : a2.IsWhole) (a3 : Memref sig .tc .vmem S512x512 .bf16) (h3 : a3.IsWhole) (a4 : Memref sig .tc .vmem S512x512 .bf16) (h4 : a4.IsWhole) (a5 : Memref sig .tc .vmem S1024x1 .i32) (h5 : a5.IsWhole) (a6 : Memref sig .tc .vmem S1x512 .i32) (h6 : a6.IsWhole) (a7 : Memref sig .tc .vmem S1024x1 .f32) (h7 : a7.IsWhole) (hc0 : ¬condFirst i) (hc1 : ¬condLast i)
    (x0 : Vec F S1024x512 .bf16) (x1 : Vec F S512x512 .bf16) (x2 : Vec F S512x512 .bf16) (x3 : Vec F S1024x1 .i32) (x4 : Vec F S1x512 .i32) (xs0 xs1 xs2 xs3 xs4 xs5 : Vec F S1024x1 .f32) :
    Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi5 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xi5
            ∗ owns (c : Thread nD τ) scr0 fullShare xs0 ∗ owns (c : Thread nD τ) scr1 fullShare xs1 ∗ owns (c : Thread nD τ) scr2 fullShare xs2 ∗ owns (c : Thread nD τ) scr3 fullShare xs3 ∗ owns (c : Thread nD τ) scr4 fullShare xs4 ∗ owns (c : Thread nD τ) scr5 fullShare xs5
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xi5
                ∗ (∃ f, scr0.view.loc (c : Thread nD τ) ↦[scr0.view.set]{fullShare} scr0.view.writes (Elt F) f LS0) ∗ (∃ f, scr1.view.loc (c : Thread nD τ) ↦[scr1.view.set]{fullShare} scr1.view.writes (Elt F) f LS1) ∗ (∃ f, scr2.view.loc (c : Thread nD τ) ↦[scr2.view.set]{fullShare} scr2.view.writes (Elt F) f LS2) ∗ (∃ f, scr3.view.loc (c : Thread nD τ) ↦[scr3.view.set]{fullShare} scr3.view.writes (Elt F) f LS3) ∗ (∃ f, scr4.view.loc (c : Thread nD τ) ↦[scr4.view.set]{fullShare} scr4.view.writes (Elt F) f LS4) ∗ (∃ f, scr5.view.loc (c : Thread nD τ) ↦[scr5.view.set]{fullShare} scr5.view.writes (Elt F) f LS5)) -∗ K ⟨⟩))
          ⊢ wp frame (wpE (defs₀ (F := F)) Variants.none c none) E (cc0__kernel i a2 h2 a3 h3 a4 h4 a5 h5 a6 h6 a7 h7 scr0 (Memref.isWhole_whole _) scr1 (Memref.isWhole_whole _) scr2 (Memref.isWhole_whole _) scr3 (Memref.isWhole_whole _) scr4 (Memref.isWhole_whole _) scr5 (Memref.isWhole_whole _)) K } := by
  refine ⟨?_, ?_, ?_, ?_, ?_, ?_, fun xi5 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    obtain rfl := (Memref.isWhole_whole cc0_scratch0).eq_unread hfs0; obtain rfl := (Memref.isWhole_whole cc0_scratch1).eq_unread hfs1; obtain rfl := (Memref.isWhole_whole cc0_scratch2).eq_unread hfs2; obtain rfl := (Memref.isWhole_whole cc0_scratch3).eq_unread hfs3; obtain rfl := (Memref.isWhole_whole cc0_scratch4).eq_unread hfs4; obtain rfl := (Memref.isWhole_whole cc0_scratch5).eq_unread hfs5
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

set_option maxHeartbeats 4000000 in
/-- The LAST key block (fold the block in, then store the row's logarithm): the output buffer ends with the pieces `L5`. -/
noncomputable def runLast (c : Dev nD) (i : grid0.Coords) (a2 : Memref sig .tc .vmem S1024x512 .bf16) (h2 : a2.IsWhole) (a3 : Memref sig .tc .vmem S512x512 .bf16) (h3 : a3.IsWhole) (a4 : Memref sig .tc .vmem S512x512 .bf16) (h4 : a4.IsWhole) (a5 : Memref sig .tc .vmem S1024x1 .i32) (h5 : a5.IsWhole) (a6 : Memref sig .tc .vmem S1x512 .i32) (h6 : a6.IsWhole) (a7 : Memref sig .tc .vmem S1024x1 .f32) (h7 : a7.IsWhole) (hc0 : ¬condFirst i) (hc1 : condLast i)
    (x0 : Vec F S1024x512 .bf16) (x1 : Vec F S512x512 .bf16) (x2 : Vec F S512x512 .bf16) (x3 : Vec F S1024x1 .i32) (x4 : Vec F S1x512 .i32) (xs0 xs1 xs2 xs3 xs4 xs5 : Vec F S1024x1 .f32) :
    Σ' (L5 : List (View.Piece (Elt F) S1024x1 .f32)), Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d)
            ∗ owns (c : Thread nD τ) scr0 fullShare xs0 ∗ owns (c : Thread nD τ) scr1 fullShare xs1 ∗ owns (c : Thread nD τ) scr2 fullShare xs2 ∗ owns (c : Thread nD τ) scr3 fullShare xs3 ∗ owns (c : Thread nD τ) scr4 fullShare xs4 ∗ owns (c : Thread nD τ) scr5 fullShare xs5
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5)
                ∗ (∃ f, scr0.view.loc (c : Thread nD τ) ↦[scr0.view.set]{fullShare} scr0.view.writes (Elt F) f LS0) ∗ (∃ f, scr1.view.loc (c : Thread nD τ) ↦[scr1.view.set]{fullShare} scr1.view.writes (Elt F) f LS1) ∗ (∃ f, scr2.view.loc (c : Thread nD τ) ↦[scr2.view.set]{fullShare} scr2.view.writes (Elt F) f LS2) ∗ (∃ f, scr3.view.loc (c : Thread nD τ) ↦[scr3.view.set]{fullShare} scr3.view.writes (Elt F) f LS3) ∗ (∃ f, scr4.view.loc (c : Thread nD τ) ↦[scr4.view.set]{fullShare} scr4.view.writes (Elt F) f LS4) ∗ (∃ f, scr5.view.loc (c : Thread nD τ) ↦[scr5.view.set]{fullShare} scr5.view.writes (Elt F) f LS5)) -∗ K ⟨⟩))
          ⊢ wp frame (wpE (defs₀ (F := F)) Variants.none c none) E (cc0__kernel i a2 h2 a3 h3 a4 h4 a5 h5 a6 h6 a7 h7 scr0 (Memref.isWhole_whole _) scr1 (Memref.isWhole_whole _) scr2 (Memref.isWhole_whole _) scr3 (Memref.isWhole_whole _) scr4 (Memref.isWhole_whole _) scr5 (Memref.isWhole_whole _)) K } := by
  refine ⟨?_, ?_, ?_, ?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := h2.eq_unread hf0; obtain rfl := h3.eq_unread hf1; obtain rfl := h4.eq_unread hf2; obtain rfl := h5.eq_unread hf3; obtain rfl := h6.eq_unread hf4
    obtain rfl := (Memref.isWhole_whole cc0_scratch0).eq_unread hfs0; obtain rfl := (Memref.isWhole_whole cc0_scratch1).eq_unread hfs1; obtain rfl := (Memref.isWhole_whole cc0_scratch2).eq_unread hfs2; obtain rfl := (Memref.isWhole_whole cc0_scratch3).eq_unread hfs3; obtain rfl := (Memref.isWhole_whole cc0_scratch4).eq_unread hfs4; obtain rfl := (Memref.isWhole_whole cc0_scratch5).eq_unread hfs5
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Flash

end
-- ==== Proof.KbFrame.lean ====
/-
  The streaming kernel's proof data: what the six running quantities hold after each grid point, what the output
  block holds after the last key block of a row block, and the body obligation at every point.

  The grid is 8 row blocks by 16 key blocks, the key block innermost: point t is key block t mod 16 of row block
  t div 16. The six scratch buffers are carried from one point to the next inside a row block and reset at its first
  key block, so their contents after point t are a recursion on t (`stateAt`): the first case's pieces at t ≡ 0, the
  middle or last case's over what point t - 1 left otherwise. The output block is stored at t ≡ 15 only.
-/
import proofs.«129704_j5781025981007_2_alg».proof.Proof.KbRuns
import Idealize.ShloMosaic.Lib.Ring

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: after the host operations that normalise the two
    embedding arrays, narrow them and reshape the labels. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)

/-! ## Where the output window is idle -/

theorem live_in (w : Fin cfg0.W) (hw : w.val < 5) : ∀ t : Fin cfg0.N, cfg0.idle w (grid0.coords t) = false := by
  intro t
  match w, hw with
  | ⟨0, _⟩, _ => rfl
  | ⟨1, _⟩, _ => rfl
  | ⟨2, _⟩, _ => rfl
  | ⟨3, _⟩, _ => rfl
  | ⟨4, _⟩, _ => rfl
theorem idle_out : ∀ t : Fin cfg0.N, ¬condLast (grid0.coords t) → cfg0.idle 5 (grid0.coords t) = true := by decide +kernel
theorem noFlush_out : ∀ t : Fin cfg0.N, ¬condLast (grid0.coords t) → (cfg0.win 5).flush t = false := by decide +kernel
theorem live_out : ∀ t : Fin cfg0.N, condLast (grid0.coords t) → cfg0.idle 5 (grid0.coords t) = false := by decide +kernel

/-! ## What the body leaves, case by case -/

/-- A list of stores into a 1024-by-1 buffer, read back over contents nothing names. -/
abbrev rbV : View sig .tc .vmem S1024x1 .f32 := (Memref.whole cc0_scratch0 : Memref sig .tc .vmem S1024x1 .f32).view
abbrev readBack (L : List (View.Piece (Elt F) S1024x1 .f32)) : Vec F S1024x1 .f32 := rbV.read (Elt F) (rbV.writes (Elt F) rbV.junk L)

/-- The six running quantities of a row block: for the data-data scores the running maximum, sum of exponentials and
    sum of exponentials at equal labels (`s0 s1 s2`), and the same for the data-label scores (`s3 s4 s5`). -/
structure Carried (F : FTy → Type) where
  s0 : Vec F S1024x1 .f32
  s1 : Vec F S1024x1 .f32
  s2 : Vec F S1024x1 .f32
  s3 : Vec F S1024x1 .f32
  s4 : Vec F S1024x1 .f32
  s5 : Vec F S1024x1 .f32

/-- After a first key block. -/
def afterFirstAt (c : Dev nD) (t : Fin cfg0.N) (h0 : t.val % 16 = 0) : Carried F :=
  ⟨readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).1,
   readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.1,
   readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.1,
   readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.1,
   readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.1,
   readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.2.1⟩
/-- After a middle key block, over what the block before left. -/
def afterMiddleAt (c : Dev nD) (t : Fin cfg0.N) (h0 : ¬t.val % 16 = 0) (h1 : ¬t.val % 16 = 15) (prev : Carried F) : Carried F :=
  ⟨readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).1,
   readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.1,
   readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.1,
   readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.1,
   readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.1,
   readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.2.1⟩
/-- After a last key block. -/
def afterLastAt (c : Dev nD) (t : Fin cfg0.N) (h0 : ¬t.val % 16 = 0) (h1 : t.val % 16 = 15) (prev : Carried F) : Carried F :=
  ⟨readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.1,
   readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.1,
   readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.1,
   readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.1,
   readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.1,
   readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.2.1⟩
/-- The output block a last key block stores. -/
def outLastAt (c : Dev nD) (t : Fin cfg0.N) (h0 : ¬t.val % 16 = 0) (h1 : t.val % 16 = 15) (prev : Carried F) : Vec F S1024x1 .f32 :=
  readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).1

theorem coverFirst_0 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).1 S1024x1.size (by sl_kernel_rfl) y
theorem coverFirst_1 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.1 S1024x1.size (by sl_kernel_rfl) y
theorem coverFirst_2 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.1 S1024x1.size (by sl_kernel_rfl) y
theorem coverFirst_3 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.1 S1024x1.size (by sl_kernel_rfl) y
theorem coverFirst_4 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.1 S1024x1.size (by sl_kernel_rfl) y
theorem coverFirst_5 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.2.1 S1024x1.size (by sl_kernel_rfl) y
theorem coverMiddle_0 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).1 S1024x1.size (by sl_kernel_rfl) y
theorem coverMiddle_1 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.1 S1024x1.size (by sl_kernel_rfl) y
theorem coverMiddle_2 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.1 S1024x1.size (by sl_kernel_rfl) y
theorem coverMiddle_3 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.1 S1024x1.size (by sl_kernel_rfl) y
theorem coverMiddle_4 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.1 S1024x1.size (by sl_kernel_rfl) y
theorem coverMiddle_5 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.2.1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.2.1 S1024x1.size (by sl_kernel_rfl) y
theorem coverLast_0 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.1 S1024x1.size (by sl_kernel_rfl) y
theorem coverLast_1 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.1 S1024x1.size (by sl_kernel_rfl) y
theorem coverLast_2 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.1 S1024x1.size (by sl_kernel_rfl) y
theorem coverLast_3 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.1 S1024x1.size (by sl_kernel_rfl) y
theorem coverLast_4 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.1 S1024x1.size (by sl_kernel_rfl) y
theorem coverLast_5 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.2.1 S1024x1.size (by sl_kernel_rfl) y
theorem coverLast_out (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).1 S1024x1.size (by sl_kernel_rfl) y

/-! ## Point by point -/

/-- The running quantities after point `n`. -/
def stateAt (c : Dev nD) : (n : ℕ) → n < cfg0.N → Carried F
  | 0, hn => afterFirstAt m c ⟨0, hn⟩ (Nat.zero_mod _)
  | n + 1, hn =>
    if h0 : (n + 1) % 16 = 0 then afterFirstAt m c ⟨n + 1, hn⟩ h0
    else if h1 : (n + 1) % 16 = 15 then afterLastAt m c ⟨n + 1, hn⟩ h0 h1 (stateAt c n (Nat.lt_of_succ_lt hn))
    else afterMiddleAt m c ⟨n + 1, hn⟩ h0 h1 (stateAt c n (Nat.lt_of_succ_lt hn))

theorem stateAt_first (c : Dev nD) (t : Fin cfg0.N) (h0 : t.val % 16 = 0) : stateAt m c t.val t.isLt = afterFirstAt m c t h0 := by
  obtain ⟨n, hn⟩ := t
  cases n with
  | zero => rfl
  | succ n => exact (dif_pos h0).trans rfl
theorem stateAt_middle (c : Dev nD) (t : Fin cfg0.N) (h0 : ¬t.val % 16 = 0) (h1 : ¬t.val % 16 = 15) :
    stateAt m c t.val t.isLt = afterMiddleAt m c t h0 h1 (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem stateAt_last (c : Dev nD) (t : Fin cfg0.N) (h0 : ¬t.val % 16 = 0) (h1 : t.val % 16 = 15) :
    stateAt m c t.val t.isLt = afterLastAt m c t h0 h1 (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output window's staging buffer after point `n`: the stored block at a last key block; elsewhere the window is
    idle and nothing reads this value. -/
def outAt (c : Dev nD) (n : ℕ) (hn : n < cfg0.N) : Vec F S1024x1 .f32 :=
  if h1 : n % 16 = 15 then
    outLastAt m c ⟨n, hn⟩ (show ¬(⟨n, hn⟩ : Fin cfg0.N).val % 16 = 0 from by show ¬n % 16 = 0; omega) h1 (stateAt m c (n - 1) (Nat.lt_of_le_of_lt (Nat.sub_le _ _) hn))
  else readBack []

theorem outAt_last (c : Dev nD) (t : Fin cfg0.N) (h0 : ¬t.val % 16 = 0) (h1 : t.val % 16 = 15) :
    outAt m c t.val t.isLt = outLastAt m c t h0 h1 (stateAt m c (t.val - 1) (Nat.lt_of_le_of_lt (Nat.sub_le _ _) t.isLt)) :=
  dif_pos h1

/-- The region invariant before position `n`: before the first point the scratch buffers hold anything; afterwards what
    the point before left; beside them the generator register at some state. -/
def PhiS (c : Dev nD) : (n : ℕ) → n ≤ cfg0.N → sProp 𝕄
  | 0, _ => Pipeline.ΦA spec0 c
  | n + 1, hn => iprop(iprop(owns (c : Thread nD τ) scr0 fullShare (stateAt m c n hn).s0 ∗ owns (c : Thread nD τ) scr1 fullShare (stateAt m c n hn).s1 ∗ owns (c : Thread nD τ) scr2 fullShare (stateAt m c n hn).s2 ∗ owns (c : Thread nD τ) scr3 fullShare (stateAt m c n hn).s3 ∗ owns (c : Thread nD τ) scr4 fullShare (stateAt m c n hn).s4 ∗ owns (c : Thread nD τ) scr5 fullShare (stateAt m c n hn).s5) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scr0 fullShare (stateAt m c n hn).s0 ∗ owns (c : Thread nD τ) scr1 fullShare (stateAt m c n hn).s1 ∗ owns (c : Thread nD τ) scr2 fullShare (stateAt m c n hn).s2 ∗ owns (c : Thread nD τ) scr3 fullShare (stateAt m c n hn).s3 ∗ owns (c : Thread nD τ) scr4 fullShare (stateAt m c n hn).s4 ∗ owns (c : Thread nD τ) scr5 fullShare (stateAt m c n hn).s5) ∗ (∃ r, prngReg c r)) := rfl
theorem PhiS_pos (c : Dev nD) (n : ℕ) (h : n ≤ cfg0.N) (hz : n ≠ 0) :
    PhiS m c n h = iprop(iprop(owns (c : Thread nD τ) scr0 fullShare (stateAt m c (n - 1) (by omega)).s0 ∗ owns (c : Thread nD τ) scr1 fullShare (stateAt m c (n - 1) (by omega)).s1 ∗ owns (c : Thread nD τ) scr2 fullShare (stateAt m c (n - 1) (by omega)).s2 ∗ owns (c : Thread nD τ) scr3 fullShare (stateAt m c (n - 1) (by omega)).s3 ∗ owns (c : Thread nD τ) scr4 fullShare (stateAt m c (n - 1) (by omega)).s4 ∗ owns (c : Thread nD τ) scr5 fullShare (stateAt m c (n - 1) (by omega)).s5) ∗ (∃ r, prngReg c r)) := by
  cases n with
  | zero => exact absurd rfl hz
  | succ n => rfl

/-- The scoped rest of the region is the six scratch buffers. -/
theorem PhiA_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-! ## The proof data -/

/-- The two windows that stage the narrowed data array hold it at half shares; the others hold theirs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t.val t.isLt := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · have hnl : ¬condLast (grid0.coords t) := fun h => absurd ((condLast_iff t).mp h) (by omega)
    rw [show (dats m 0 c).leavesExact 0 t = owns (c : Thread nD τ) (ms0 t) fullShare ((dats m 0 c).after 0 t) from by
      unfold Dat.leavesExact; rw [live_in 0 (by decide) t], after_0]
    rw [show (dats m 0 c).leavesExact 1 t = owns (c : Thread nD τ) (ms1 t) fullShare ((dats m 0 c).after 1 t) from by
      unfold Dat.leavesExact; rw [live_in 1 (by decide) t], after_1]
    rw [show (dats m 0 c).leavesExact 2 t = owns (c : Thread nD τ) (ms2 t) fullShare ((dats m 0 c).after 2 t) from by
      unfold Dat.leavesExact; rw [live_in 2 (by decide) t], after_2]
    rw [show (dats m 0 c).leavesExact 3 t = owns (c : Thread nD τ) (ms3 t) fullShare ((dats m 0 c).after 3 t) from by
      unfold Dat.leavesExact; rw [live_in 3 (by decide) t], after_3]
    rw [show (dats m 0 c).leavesExact 4 t = owns (c : Thread nD τ) (ms4 t) fullShare ((dats m 0 c).after 4 t) from by
      unfold Dat.leavesExact; rw [live_in 4 (by decide) t], after_4]
    rw [Dat.leavesExact_idle (dats m 0 c) 5 t (idle_out t hnl) (noFlush_out t hnl)]
    rw [stateAt_first m c t h0]
    unfold afterFirstAt; (try dsimp only)
    have hpre : (dats m 0 c).Φ t.castSucc ⊢ iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
      by_cases hz : t.val = 0
      · rw [PhiS_castSucc m c t, PhiS_zero m c _ _ hz, PhiA_eq]; try exact .rfl
      · rw [PhiS_castSucc m c t, PhiS_pos m c _ _ hz]
        iintro ⟨⟨HS0, HS1, HS2, HS3, HS4, HS5⟩, Hg⟩
        isplitr [Hg]
        · isplitl [HS0]; · iexists _; iexact HS0
          isplitl [HS1]; · iexists _; iexact HS1
          isplitl [HS2]; · iexists _; iexact HS2
          isplitl [HS3]; · iexists _; iexact HS3
          isplitl [HS4]; · iexists _; iexact HS4
          iexists _; iexact HS5
        · iexact Hg
    iintro ⟨HΦ, Ho, ⟨%d0, H0⟩, ⟨%d1, H1⟩, ⟨%d2, H2⟩, ⟨%d3, H3⟩, ⟨%d4, H4⟩, ⟨%d5, H5⟩⟩
    ihave HΦ' := hpre $$ HΦ
    icases HΦ' with ⟨⟨HS0, HS1, HS2, HS3, HS4, HS5⟩, Hg⟩
    iapply ((runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, ⟨%e0, HS0⟩, ⟨%e1, HS1⟩, ⟨%e2, HS2⟩, ⟨%e3, HS3⟩, ⟨%e4, HS4⟩, ⟨%e5, HS5⟩⟩
    isplitl [HS0 HS1 HS2 HS3 HS4 HS5 Hg]
    · isplitl [HS0 HS1 HS2 HS3 HS4 HS5]
      · isplitl [HS0]
        · unfold owns; iexists _; isplitr
          swap; · iexact HS0
          ipureintro; exact View.read_writes_of_cover _ _ _ _ _ (coverFirst_0 m c t h0)
        isplitl [HS1]
        · unfold owns; iexists _; isplitr
          swap; · iexact HS1
          ipureintro; exact View.read_writes_of_cover _ _ _ _ _ (coverFirst_1 m c t h0)
        isplitl [HS2]
        · unfold owns; iexists _; isplitr
          swap; · iexact HS2
          ipureintro; exact View.read_writes_of_cover _ _ _ _ _ (coverFirst_2 m c t h0)
        isplitl [HS3]
        · unfold owns; iexists _; isplitr
          swap; · iexact HS3
          ipureintro; exact View.read_writes_of_cover _ _ _ _ _ (coverFirst_3 m c t h0)
        isplitl [HS4]
        · unfold owns; iexists _; isplitr
          swap; · iexact HS4
          ipureintro; exact View.read_writes_of_cover _ _ _ _ _ (coverFirst_4 m c t h0)
        unfold owns; iexists _; isplitr
        swap; · iexact HS5
        ipureintro; exact View.read_writes_of_cover _ _ _ _ _ (coverFirst_5 m c t h0)
      · iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val % 16 = 15
    ·
      have hz : t.val ≠ 0 := fun e => h0 (by rw [e])
      rw [show (dats m 0 c).leavesExact 0 t = owns (c : Thread nD τ) (ms0 t) fullShare ((dats m 0 c).after 0 t) from by
        unfold Dat.leavesExact; rw [live_in 0 (by decide) t], after_0]
      rw [show (dats m 0 c).leavesExact 1 t = owns (c : Thread nD τ) (ms1 t) fullShare ((dats m 0 c).after 1 t) from by
        unfold Dat.leavesExact; rw [live_in 1 (by decide) t], after_1]
      rw [show (dats m 0 c).leavesExact 2 t = owns (c : Thread nD τ) (ms2 t) fullShare ((dats m 0 c).after 2 t) from by
        unfold Dat.leavesExact; rw [live_in 2 (by decide) t], after_2]
      rw [show (dats m 0 c).leavesExact 3 t = owns (c : Thread nD τ) (ms3 t) fullShare ((dats m 0 c).after 3 t) from by
        unfold Dat.leavesExact; rw [live_in 3 (by decide) t], after_3]
      rw [show (dats m 0 c).leavesExact 4 t = owns (c : Thread nD τ) (ms4 t) fullShare ((dats m 0 c).after 4 t) from by
        unfold Dat.leavesExact; rw [live_in 4 (by decide) t], after_4]
      rw [show (dats m 0 c).leavesExact 5 t = owns (c : Thread nD τ) (ms5 t) fullShare ((dats m 0 c).after 5 t) from by
        unfold Dat.leavesExact; rw [live_out t ((condLast_iff t).mpr h1)], after_5, outAt_last m c t h0 h1]
      rw [stateAt_last m c t h0 h1]
      unfold afterLastAt outLastAt; (try dsimp only)
      rw [PhiS_castSucc m c t, PhiS_pos m c _ _ hz]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
      iapply ((runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) (stateAt m c (t.val - 1) (Nat.lt_of_le_of_lt (Nat.sub_le _ _) t.isLt)).s0 (stateAt m c (t.val - 1) (Nat.lt_of_le_of_lt (Nat.sub_le _ _) t.isLt)).s1 (stateAt m c (t.val - 1) (Nat.lt_of_le_of_lt (Nat.sub_le _ _) t.isLt)).s2 (stateAt m c (t.val - 1) (Nat.lt_of_le_of_lt (Nat.sub_le _ _) t.isLt)).s3 (stateAt m c (t.val - 1) (Nat.lt_of_le_of_lt (Nat.sub_le _ _) t.isLt)).s4 (stateAt m c (t.val - 1) (Nat.lt_of_le_of_lt (Nat.sub_le _ _) t.isLt)).s5).2.2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, ⟨%e5o, H5⟩, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitl [HS0 HS1 HS2 HS3 HS4 HS5]
        · isplitl [HS0]
          · unfold owns; iexists _; isplitr
            swap; · iexact HS0
            ipureintro; exact View.read_writes_of_cover _ _ _ _ _ (coverLast_0 m c t h0 h1 _)
          isplitl [HS1]
          · unfold owns; iexists _; isplitr
            swap; · iexact HS1
            ipureintro; exact View.read_writes_of_cover _ _ _ _ _ (coverLast_1 m c t h0 h1 _)
          isplitl [HS2]
          · unfold owns; iexists _; isplitr
            swap; · iexact HS2
            ipureintro; exact View.read_writes_of_cover _ _ _ _ _ (coverLast_2 m c t h0 h1 _)
          isplitl [HS3]
          · unfold owns; iexists _; isplitr
            swap; · iexact HS3
            ipureintro; exact View.read_writes_of_cover _ _ _ _ _ (coverLast_3 m c t h0 h1 _)
          isplitl [HS4]
          · unfold owns; iexists _; isplitr
            swap; · iexact HS4
            ipureintro; exact View.read_writes_of_cover _ _ _ _ _ (coverLast_4 m c t h0 h1 _)
          unfold owns; iexists _; isplitr
          swap; · iexact HS5
          ipureintro; exact View.read_writes_of_cover _ _ _ _ _ (coverLast_5 m c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast_out m c t h0 h1 _)

    ·
      have hnl : ¬condLast (grid0.coords t) := fun h => h1 ((condLast_iff t).mp h)
      have hz : t.val ≠ 0 := fun e => h0 (by rw [e])
      rw [show (dats m 0 c).leavesExact 0 t = owns (c : Thread nD τ) (ms0 t) fullShare ((dats m 0 c).after 0 t) from by
        unfold Dat.leavesExact; rw [live_in 0 (by decide) t], after_0]
      rw [show (dats m 0 c).leavesExact 1 t = owns (c : Thread nD τ) (ms1 t) fullShare ((dats m 0 c).after 1 t) from by
        unfold Dat.leavesExact; rw [live_in 1 (by decide) t], after_1]
      rw [show (dats m 0 c).leavesExact 2 t = owns (c : Thread nD τ) (ms2 t) fullShare ((dats m 0 c).after 2 t) from by
        unfold Dat.leavesExact; rw [live_in 2 (by decide) t], after_2]
      rw [show (dats m 0 c).leavesExact 3 t = owns (c : Thread nD τ) (ms3 t) fullShare ((dats m 0 c).after 3 t) from by
        unfold Dat.leavesExact; rw [live_in 3 (by decide) t], after_3]
      rw [show (dats m 0 c).leavesExact 4 t = owns (c : Thread nD τ) (ms4 t) fullShare ((dats m 0 c).after 4 t) from by
        unfold Dat.leavesExact; rw [live_in 4 (by decide) t], after_4]
      rw [Dat.leavesExact_idle (dats m 0 c) 5 t (idle_out t hnl) (noFlush_out t hnl)]
      rw [stateAt_middle m c t h0 h1]
      unfold afterMiddleAt; (try dsimp only)
      rw [PhiS_castSucc m c t, PhiS_pos m c _ _ hz]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
      iapply ((runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) (stateAt m c (t.val - 1) (Nat.lt_of_le_of_lt (Nat.sub_le _ _) t.isLt)).s0 (stateAt m c (t.val - 1) (Nat.lt_of_le_of_lt (Nat.sub_le _ _) t.isLt)).s1 (stateAt m c (t.val - 1) (Nat.lt_of_le_of_lt (Nat.sub_le _ _) t.isLt)).s2 (stateAt m c (t.val - 1) (Nat.lt_of_le_of_lt (Nat.sub_le _ _) t.isLt)).s3 (stateAt m c (t.val - 1) (Nat.lt_of_le_of_lt (Nat.sub_le _ _) t.isLt)).s4 (stateAt m c (t.val - 1) (Nat.lt_of_le_of_lt (Nat.sub_le _ _) t.isLt)).s5).2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitl [HS0 HS1 HS2 HS3 HS4 HS5]
        · isplitl [HS0]
          · unfold owns; iexists _; isplitr
            swap; · iexact HS0
            ipureintro; exact View.read_writes_of_cover _ _ _ _ _ (coverMiddle_0 m c t h0 h1 _)
          isplitl [HS1]
          · unfold owns; iexists _; isplitr
            swap; · iexact HS1
            ipureintro; exact View.read_writes_of_cover _ _ _ _ _ (coverMiddle_1 m c t h0 h1 _)
          isplitl [HS2]
          · unfold owns; iexists _; isplitr
            swap; · iexact HS2
            ipureintro; exact View.read_writes_of_cover _ _ _ _ _ (coverMiddle_2 m c t h0 h1 _)
          isplitl [HS3]
          · unfold owns; iexists _; isplitr
            swap; · iexact HS3
            ipureintro; exact View.read_writes_of_cover _ _ _ _ _ (coverMiddle_3 m c t h0 h1 _)
          isplitl [HS4]
          · unfold owns; iexists _; isplitr
            swap; · iexact HS4
            ipureintro; exact View.read_writes_of_cover _ _ _ _ _ (coverMiddle_4 m c t h0 h1 _)
          unfold owns; iexists _; isplitr
          swap; · iexact HS5
          ipureintro; exact View.read_writes_of_cover _ _ _ _ _ (coverMiddle_5 m c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at contents nothing names. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1, HS2, HS3, HS4, HS5⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  · iexact Hg

end Cert.Kernel.Flash

end
-- ==== Proof.KbLaunch.lean ====
/-
  The launch of the streaming kernel: @main is host operations (normalise, narrow, reshape), the kernel region over
  an 8-by-16 grid, and host operations again (the mean of the per-row logarithms, negated).

  Two of the kernel's windows stage ONE array — the narrowed data embeddings serve as query block and as key block —, so
  the region holds that array at two half shares, one per window, split from the whole buffer at entry and joined
  again at exit; every other array is held whole. The host operations after the region read the output array and
  write fresh buffers only.
-/
import proofs.«129704_j5781025981007_2_alg».proof.Proof.KbFrame

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One array behind two windows: splitting and joining its share -/

set_option maxHeartbeats 4000000 in
/-- The five distinct buffers behind the six windows, each whole, make the windows' arrays: the shared one split in halves. -/
theorem arrays_of_bufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare) (hq4 : dat.q 4 = fullShare)
    (W : (b : Ref sig .tc) → Buf (Elt F) ((c.tc : Thread nD τ).loc b)) :
    (Pipeline.arrBufs spec0 c W : sProp 𝕄) ⊢ dat.arrays (fun w => W (Pipeline.arrRef spec0 w)) := by
  unfold Pipeline.arrBufs Dat.arrays
  rw [bigSep_W0]
  rw [BI.bigSep_eq_bigSepL_of_eq [main_call0_v16, main_call0_v17, main_call0_v18, main_call0_v19, main_call0_v20] (by decide) (by decide)]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_neg (by decide), hq2]
  have s3 : dat.share 3 = fullShare := by unfold Dat.share; rw [if_neg (by decide), hq3]
  have s4 : dat.share 4 = fullShare := by unfold Dat.share; rw [if_neg (by decide), hq4]
  have s5 : dat.share 5 = fullShare := by unfold Dat.share; rw [if_pos (by decide)]
  rw [s0, s1, s2, s3, s4, s5]
  show (bigSepL [main_call0_v16, main_call0_v17, main_call0_v18, main_call0_v19, main_call0_v20] fun b => (c.tc : Thread nD τ).loc b ↦{fullShare} W b)
    ⊢ iprop(((Memref.whole main_call0_v16 : Memref sig .tc _ _ _).view.loc (c.tc : Thread nD τ) ↦[(Memref.whole main_call0_v16 : Memref sig .tc _ _ _).view.set]{fullShare.left} W main_call0_v16)
      ∗ ((Memref.whole main_call0_v16 : Memref sig .tc _ _ _).view.loc (c.tc : Thread nD τ) ↦[(Memref.whole main_call0_v16 : Memref sig .tc _ _ _).view.set]{fullShare.right} W main_call0_v16)
      ∗ ((Memref.whole main_call0_v17 : Memref sig .tc _ _ _).view.loc (c.tc : Thread nD τ) ↦[(Memref.whole main_call0_v17 : Memref sig .tc _ _ _).view.set]{fullShare} W main_call0_v17)
      ∗ ((Memref.whole main_call0_v18 : Memref sig .tc _ _ _).view.loc (c.tc : Thread nD τ) ↦[(Memref.whole main_call0_v18 : Memref sig .tc _ _ _).view.set]{fullShare} W main_call0_v18)
      ∗ ((Memref.whole main_call0_v19 : Memref sig .tc _ _ _).view.loc (c.tc : Thread nD τ) ↦[(Memref.whole main_call0_v19 : Memref sig .tc _ _ _).view.set]{fullShare} W main_call0_v19)
      ∗ ((Memref.whole main_call0_v20 : Memref sig .tc _ _ _).view.loc (c.tc : Thread nD τ) ↦[(Memref.whole main_call0_v20 : Memref sig .tc _ _ _).view.set]{fullShare} W main_call0_v20))
  simp only [Memref.view_whole, View.set_whole]
  show iprop(((c.tc : Thread nD τ).loc main_call0_v16 ↦{fullShare} W main_call0_v16) ∗ ((c.tc : Thread nD τ).loc main_call0_v17 ↦{fullShare} W main_call0_v17)
      ∗ ((c.tc : Thread nD τ).loc main_call0_v18 ↦{fullShare} W main_call0_v18) ∗ ((c.tc : Thread nD τ).loc main_call0_v19 ↦{fullShare} W main_call0_v19)
      ∗ ((c.tc : Thread nD τ).loc main_call0_v20 ↦{fullShare} W main_call0_v20)) ⊢ _
  iintro ⟨H16, H17, H18, H19, H20⟩
  ihave H := (pointsTo_share (PosShare.mem_left_op_right fullShare)).1 $$ H16
  icases H with ⟨Ha, Hb⟩
  isplitl [Ha]; · iexact Ha
  isplitl [Hb]; · iexact Hb
  isplitl [H17]; · iexact H17
  isplitl [H18]; · iexact H18
  isplitl [H19]; · iexact H19
  iexact H20

set_option maxHeartbeats 4000000 in
/-- And back: the two halves, at the same contents, join. -/
theorem bufs_of_arrays (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare) (hq4 : dat.q 4 = fullShare)
    (W : (b : Ref sig .tc) → Buf (Elt F) ((c.tc : Thread nD τ).loc b)) :
    dat.arrays (fun w => W (Pipeline.arrRef spec0 w)) ⊢ (Pipeline.arrBufs spec0 c W : sProp 𝕄) := by
  unfold Pipeline.arrBufs Dat.arrays
  rw [bigSep_W0]
  rw [BI.bigSep_eq_bigSepL_of_eq [main_call0_v16, main_call0_v17, main_call0_v18, main_call0_v19, main_call0_v20] (by decide) (by decide)]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_neg (by decide), hq2]
  have s3 : dat.share 3 = fullShare := by unfold Dat.share; rw [if_neg (by decide), hq3]
  have s4 : dat.share 4 = fullShare := by unfold Dat.share; rw [if_neg (by decide), hq4]
  have s5 : dat.share 5 = fullShare := by unfold Dat.share; rw [if_pos (by decide)]
  rw [s0, s1, s2, s3, s4, s5]
  show iprop(((Memref.whole main_call0_v16 : Memref sig .tc _ _ _).view.loc (c.tc : Thread nD τ) ↦[(Memref.whole main_call0_v16 : Memref sig .tc _ _ _).view.set]{fullShare.left} W main_call0_v16)
      ∗ ((Memref.whole main_call0_v16 : Memref sig .tc _ _ _).view.loc (c.tc : Thread nD τ) ↦[(Memref.whole main_call0_v16 : Memref sig .tc _ _ _).view.set]{fullShare.right} W main_call0_v16)
      ∗ ((Memref.whole main_call0_v17 : Memref sig .tc _ _ _).view.loc (c.tc : Thread nD τ) ↦[(Memref.whole main_call0_v17 : Memref sig .tc _ _ _).view.set]{fullShare} W main_call0_v17)
      ∗ ((Memref.whole main_call0_v18 : Memref sig .tc _ _ _).view.loc (c.tc : Thread nD τ) ↦[(Memref.whole main_call0_v18 : Memref sig .tc _ _ _).view.set]{fullShare} W main_call0_v18)
      ∗ ((Memref.whole main_call0_v19 : Memref sig .tc _ _ _).view.loc (c.tc : Thread nD τ) ↦[(Memref.whole main_call0_v19 : Memref sig .tc _ _ _).view.set]{fullShare} W main_call0_v19)
      ∗ ((Memref.whole main_call0_v20 : Memref sig .tc _ _ _).view.loc (c.tc : Thread nD τ) ↦[(Memref.whole main_call0_v20 : Memref sig .tc _ _ _).view.set]{fullShare} W main_call0_v20))
    ⊢ (bigSepL [main_call0_v16, main_call0_v17, main_call0_v18, main_call0_v19, main_call0_v20] fun b => (c.tc : Thread nD τ).loc b ↦{fullShare} W b)
  simp only [Memref.view_whole, View.set_whole]
  show _ ⊢ iprop(((c.tc : Thread nD τ).loc main_call0_v16 ↦{fullShare} W main_call0_v16) ∗ ((c.tc : Thread nD τ).loc main_call0_v17 ↦{fullShare} W main_call0_v17)
      ∗ ((c.tc : Thread nD τ).loc main_call0_v18 ↦{fullShare} W main_call0_v18) ∗ ((c.tc : Thread nD τ).loc main_call0_v19 ↦{fullShare} W main_call0_v19)
      ∗ ((c.tc : Thread nD τ).loc main_call0_v20 ↦{fullShare} W main_call0_v20))
  iintro ⟨Ha, Hb, H17, H18, H19, H20⟩
  ihave H16 := (pointsTo_share (PosShare.mem_left_op_right fullShare)).2 $$ [Ha Hb]
  · isplitl [Ha]; · iexact Ha
    iexact Hb
  isplitl [H16]; · iexact H16
  isplitl [H17]; · iexact H17
  isplitl [H18]; · iexact H18
  isplitl [H19]; · iexact H19
  iexact H20

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The buffers when the region is left, and after the last host operations -/

/-- The output array after the last write-back. -/
def outArr (c : Dev nD) : Buf (Elt F) ((c : Thread nD τ).loc main_call0_v20) := (dats m 0 c).arrAt 5 cfg0.N

/-- Core `c`'s buffers when the region is left: the output array at `outArr`, every other buffer as the region found it. -/
def Wexit (c : Dev nD) : Valuation τ sig (Elt F) := fun b =>
  if h : b = Proc.devRef .tc main_call0_v20 then h ▸ outArr m c else V0 m c b

/-- and after the host operations that follow. -/
def Wend (c : Dev nD) : Valuation τ sig (Elt F) := StableHlo.after (List.flatten [hostOps1]) (Wexit m c)
abbrev Vend (c : Dev nD) (b : Ref sig .tc) : Buf (Elt F) ((c : Thread nD τ).loc b) := Wend m c (Proc.devRef .tc b)

theorem Wexit_out (c : Dev nD) : Wexit m c (Proc.devRef .tc main_call0_v20) = outArr m c := by
  unfold Wexit; rw [dif_pos rfl]
theorem Wexit_of_ne (c : Dev nD) (b : Ref sig .tc) (hb : b ≠ main_call0_v20) : Wexit m c (Proc.devRef .tc b) = V m c b := by
  unfold Wexit; rw [dif_neg (StableHlo.devRef_ne_of_ne hb)]

/-- The exit contents read at a reference. -/
abbrev Wx (c : Dev nD) (b : Ref sig .tc) : Buf (Elt F) ((c : Thread nD τ).loc b) := Wexit m c (Proc.devRef .tc b)

/-- Every window's array, when the region is left, is the exit contents at its reference: an input's as found, the
    output's at `outArr`. -/
theorem arrAt_exit (c : Dev nD) (w : Fin cfg0.W) : (dats m 0 c).arrAt w cfg0.N = Wx m c (Pipeline.arrRef spec0 w) := by
  match w with
  | ⟨0, _⟩ => exact ((dats m 0 c).arrAt_in 0 rfl _).trans ((A_eq m c 0).trans (Wexit_of_ne m c _ (by decide)).symm)
  | ⟨1, _⟩ => exact ((dats m 0 c).arrAt_in 1 rfl _).trans ((A_eq m c 1).trans (Wexit_of_ne m c _ (by decide)).symm)
  | ⟨2, _⟩ => exact ((dats m 0 c).arrAt_in 2 rfl _).trans ((A_eq m c 2).trans (Wexit_of_ne m c _ (by decide)).symm)
  | ⟨3, _⟩ => exact ((dats m 0 c).arrAt_in 3 rfl _).trans ((A_eq m c 3).trans (Wexit_of_ne m c _ (by decide)).symm)
  | ⟨4, _⟩ => exact ((dats m 0 c).arrAt_in 4 rfl _).trans ((A_eq m c 4).trans (Wexit_of_ne m c _ (by decide)).symm)
  | ⟨5, _⟩ => exact (Wexit_out m c).symm

/-- The host operations after the region write no array of the pipeline. -/
theorem tail_keeps (c : Dev nD) (w : Fin cfg0.W) :
    Wend m c (Proc.devRef .tc (Pipeline.arrRef spec0 w)) = Wexit m c (Proc.devRef .tc (Pipeline.arrRef spec0 w)) := by
  unfold Wend
  refine StableHlo.after_of_forall_not_mem (b := Proc.devRef .tc (Pipeline.arrRef spec0 w)) _ _ fun op hop => ?_
  simp only [List.flatten_cons, List.flatten_nil, List.append_nil, hostOps1, List.mem_cons, List.mem_nil_iff, _root_.or_false] at hop
  rcases hop with rfl | rfl | rfl | rfl | rfl
  all_goals fin_cases w <;> simp only [StableHlo.nullary_writes, StableHlo.unary_writes, StableHlo.binary_writes, Finset.mem_singleton] <;> exact StableHlo.devRef_ne_of_ne (by decide)

set_option maxHeartbeats 4000000 in
/-- THE HOST OPERATIONS AFTER THE REGION: from the region's exit — the arrays at their final contents, the bypassing
    buffers as the region found them — they run to the arrays unchanged and the bypassing buffers at `Vend`. -/
theorem tail_run (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c (Vend m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hexit : (fun w => (dats m 0 c).arrAt w cfg0.N) = fun w => Wx m c (Pipeline.arrRef spec0 w) := funext (arrAt_exit m c)
  have hend : (fun w => (dats m 0 c).arrAt w cfg0.N) = fun w => Vend m c (Pipeline.arrRef spec0 w) :=
    funext fun w => (arrAt_exit m c w).trans (tail_keeps m c w).symm
  have hA : iprop((dats m 0 c).arrays ((dats m 0 c).arrAt · cfg0.N)
        ∗ Pipeline.unscopedRestP (Ix := Unit) (Name := ℕ) (U := UR sig nD τ) (Lvl := ℕ) Pipeline.Prefetch.none spec0 c (V m c))
      ⊢ (StableHlo.held (c.tc : Thread nD τ) (Pipeline.ucRefs τ sig) (Wexit m c) : sProp 𝕄) := by
    rw [← Pipeline.unscopedBufs_held (Ix := Unit) (Name := ℕ) (U := UR sig nD τ) (Lvl := ℕ) c (Wexit m c),
      Pipeline.unscopedBufs_split₀ cfgs 0 winFacts₀0.arr_unscoped c (Wx m c), Pipeline.unscopedRestP_none]
    refine sep_mono ?_ (Entails.of_eq ?_)
    · rw [show ((dats m 0 c).arrAt · cfg0.N) = fun w => Wx m c (Pipeline.arrRef spec0 w) from hexit]
      exact bufs_of_arrays c (dats m 0 c) rfl rfl rfl rfl rfl (Wx m c)
    · unfold Pipeline.unscopedRest
      exact bigSep_congr fun b hb =>
        congrArg (fun f : Buf (Elt F) ((c.tc : Thread nD τ).loc b) => ((c.tc : Thread nD τ).loc b ↦{fullShare} f : sProp 𝕄))
          (Wexit_of_ne m c b fun e => (Finset.mem_sdiff.mp hb).2 (Finset.mem_image.mpr ⟨5, Finset.mem_univ _, e ▸ rfl⟩)).symm
  have hC : (StableHlo.held (c.tc : Thread nD τ) (Pipeline.ucRefs τ sig) (Wend m c) : sProp 𝕄)
      ⊢ iprop((dats m 0 c).arrays ((dats m 0 c).arrAt · cfg0.N)
        ∗ Pipeline.unscopedRestP (Ix := Unit) (Name := ℕ) (U := UR sig nD τ) (Lvl := ℕ) Pipeline.Prefetch.none spec0 c (Vend m c)) := by
    rw [← Pipeline.unscopedBufs_held (Ix := Unit) (Name := ℕ) (U := UR sig nD τ) (Lvl := ℕ) c (Wend m c),
      Pipeline.unscopedBufs_split₀ cfgs 0 winFacts₀0.arr_unscoped c (Vend m c), Pipeline.unscopedRestP_none]
    refine sep_mono ?_ .rfl
    rw [show ((dats m 0 c).arrAt · cfg0.N) = fun w => Vend m c (Pipeline.arrRef spec0 w) from hend]
    exact arrays_of_bufs c (dats m 0 c) rfl rfl rfl rfl rfl (Vend m c)
  rw [← List.append_nil ([StableHlo.seq hostOps1] : List _)]
  iintro ⟨Hk, Hb, Ha, Hz⟩
  ihave Hh := hA $$ [Ha Hz]
  · isplitl [Ha]; · iexact Ha
    iexact Hz
  iapply (Pipeline.wp_seqs_then (fun q => (cfgs q).toPCfg (Val := Elt F)) defs₀ Variants.none c (Pipeline.ucRefs τ sig) [] [hostOps1]
    (fun ops ho op h => by
      simp only [List.mem_cons, List.mem_nil_iff, _root_.or_false] at ho; subst ho
      exact Pipeline.sub_ucRefs op ((List.forall_iff_forall_mem.mp hostOps1_sub) op h))
    (fun ops ho op h => by
      simp only [List.mem_cons, List.mem_nil_iff, _root_.or_false] at ho; subst ho
      exact (List.forall_iff_forall_mem.mp hostOps1_fresh) op h) (Wexit m c)) $$ [Hb Hh]
  · isplitl [Hb]; · iexact Hb
    iexact Hh
  iintro ⟨-, Hh⟩
  rw [Pipeline.chain_nil, wp_pure]
  imodintro
  iapply Hk
  iapply hC
  iexact Hh

-- the launch theorem's implicit arguments are found by unifying its conclusion with this one, which takes unfolding plain
-- definitions in a metavariable's type
set_option backward.isDefEq.respectTransparency.types false in
set_option maxHeartbeats 4000000 in
/-- THE RUN: at the compiled mesh, for any values, from any memory with zero counters, every weakly fair execution of
    @main terminates, every array of the pipeline ends at what the proof data compute and every other unscoped
    buffer at what the last host operations leave (`Vend`). -/
theorem run_main : θ_run defs (onTc (τ := τ) (main (F := F))) (s₀ m ρ) (fun r => ∀ c : Dev nD,
    (∀ w, r.2.mem ((spec0 w).arr.view.loc (c.tc : Thread nD τ)) = (dats m 0 c).arrAt w cfg0.N)
    ∧ ∀ b ∈ Pipeline.restRefsP sig Pipeline.Prefetch.none spec0, r.2.mem ((c.tc : Thread nD τ).loc b) = Vend m c b) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs c (dats m 0 c) rfl rfl rfl rfl rfl (V m c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail_run m c Q')
    (QY := fun c s => ∀ b ∈ Pipeline.restRefsP sig Pipeline.Prefetch.none spec0, s.mem ((c.tc : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m c) s')
      isplitl [HU] <;> iassumption)
    (hQ := fun s h c => ⟨(h c).1, (h c).2.2⟩)

/-- info: 'Cert.Kernel.Flash.run_main' depends on axioms: [propext, Classical.choice, Quot.sound] -/
#guard_msgs in #print axioms run_main

end Cert.Kernel.Flash

end
-- ==== Proof.KbArgs.lean ====
/-
  The frame of the streaming kernel's program: no host operation, before or after the region, writes an argument
  array, and the region stages none of them, so each ends as it was launched.
-/
import proofs.«129704_j5781025981007_2_alg».proof.Proof.KbLaunch

set_option maxRecDepth 16384

noncomputable section

namespace Cert.Kernel.Flash

open Cert.Kernel Cert.Kernel.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

theorem Vend_arg0 (c : Dev nD) : Vend m c main_arg0 = m ((c.tc : Thread nD τ).loc main_arg0) := by
  show Wend m c (Proc.devRef .tc main_arg0) = _
  unfold Wend
  simp only [List.flatten_cons, List.flatten_nil, List.append_nil]
  dsimp only [hostOps1]
  after_results
  rw [Wexit_of_ne m c main_arg0 (by decide)]
  dsimp only [V, V0]; simp only [List.flatten_cons, List.flatten_nil, List.append_nil]; dsimp only [hostOps0]; after_results
theorem Vend_arg1 (c : Dev nD) : Vend m c main_arg1 = m ((c.tc : Thread nD τ).loc main_arg1) := by
  show Wend m c (Proc.devRef .tc main_arg1) = _
  unfold Wend
  simp only [List.flatten_cons, List.flatten_nil, List.append_nil]
  dsimp only [hostOps1]
  after_results
  rw [Wexit_of_ne m c main_arg1 (by decide)]
  dsimp only [V, V0]; simp only [List.flatten_cons, List.flatten_nil, List.append_nil]; dsimp only [hostOps0]; after_results
theorem Vend_arg2 (c : Dev nD) : Vend m c main_arg2 = m ((c.tc : Thread nD τ).loc main_arg2) := by
  show Wend m c (Proc.devRef .tc main_arg2) = _
  unfold Wend
  simp only [List.flatten_cons, List.flatten_nil, List.append_nil]
  dsimp only [hostOps1]
  after_results
  rw [Wexit_of_ne m c main_arg2 (by decide)]
  dsimp only [V, V0]; simp only [List.flatten_cons, List.flatten_nil, List.append_nil]; dsimp only [hostOps0]; after_results

/-- THE FRAME: every weakly fair execution terminates, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_arg0 (by decide)).trans (Vend_arg0 m c), ((h c).2 main_arg1 (by decide)).trans (Vend_arg1 m c),
      ((h c).2 main_arg2 (by decide)).trans (Vend_arg2 m c)⟩) (run_main m ρ)

end Cert.Kernel.Flash

end
-- ==== Proof.KiRuns.lean ====
/-
  The kernel body of the streaming contrastive-loss kernel, run once per control case.

  The body keeps, per query row, six running quantities in scratch: for the data-data scores a running maximum, a
  running sum of exponentials and a running sum of the exponentials at equal labels, and the same three for the
  data-label scores. At the first key block of a row block (`condFirst`) it resets them, at every key block it folds the
  block in, and at the last key block (`condLast`) it stores the logarithm of the quotient of the two combined sums.
  Three control cases meet the grid: the first key block, a middle one, the last one. For each, the body's Hoare triple
  on whole staging memrefs, the pieces each scratch buffer (and, in the last case, the output block) ends with being
  the witness the symbolic run finds.
-/
import proofs.«129704_j5781025981007_2_alg».proof.Proof.Gen.KernelIdeal.Skeleton
import proofs.«129704_j5781025981007_2_alg».proof.Proof.Gen.KernelIdeal.Launch
import proofs.«129704_j5781025981007_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions on the key-block coordinate -/

/-- The key block is the first of its row block (coordinate 1 is zero): the running quantities are reset. -/
abbrev condFirst (i : grid0.Coords) : Prop := (Scalar.cmpi .ne (Scalar.extui (Scalar.cmpi .eq (BitVec.ofNat 32 (i 1).val) 0#32)) 0#32) = 1#1
/-- Over the grid: the points ≡ 0 (mod 16). -/
theorem condFirst_iff : ∀ t : Fin cfg0.N, condFirst (grid0.coords t) ↔ t.val % 16 = 0 :=
  (by decide +kernel : ∀ t : Fin grid0.N, condFirst (grid0.coords t) ↔ t.val % 16 = 0)

/-- The key block is the last of its row block (coordinate 1 is fifteen): the output block is stored. -/
abbrev condLast (i : grid0.Coords) : Prop := k0_cond2 i = 1#1
/-- Over the grid: the points ≡ 15 (mod 16). -/
theorem condLast_iff : ∀ t : Fin cfg0.N, condLast (grid0.coords t) ↔ t.val % 16 = 15 :=
  (by decide +kernel : ∀ t : Fin grid0.N, condLast (grid0.coords t) ↔ t.val % 16 = 15)

/-! ## The six scratch buffers, as whole memrefs -/

abbrev scr0 : Memref sig .tc .vmem S1024x1 .f32 := Memref.whole cc0_scratch0
abbrev scr1 : Memref sig .tc .vmem S1024x1 .f32 := Memref.whole cc0_scratch1
abbrev scr2 : Memref sig .tc .vmem S1024x1 .f32 := Memref.whole cc0_scratch2
abbrev scr3 : Memref sig .tc .vmem S1024x1 .f32 := Memref.whole cc0_scratch3
abbrev scr4 : Memref sig .tc .vmem S1024x1 .f32 := Memref.whole cc0_scratch4
abbrev scr5 : Memref sig .tc .vmem S1024x1 .f32 := Memref.whole cc0_scratch5

/-! ## The body, case by case -/

set_option maxHeartbeats 4000000 in
/-- FIRST key block (reset, then fold the block in; nothing stored to the output): from the five input blocks at their
    contents, the output buffer at anything it held (handed back untouched) and the scratch buffers at anything, the
    body runs to its end leaving in each scratch buffer the pieces `LS·` (the reset value under the folded one). -/
noncomputable def runFirst (c : Dev nD) (i : grid0.Coords) (a2 : Memref sig .tc .vmem S1024x512 .bf16) (h2 : a2.IsWhole) (a3 : Memref sig .tc .vmem S512x512 .bf16) (h3 : a3.IsWhole) (a4 : Memref sig .tc .vmem S512x512 .bf16) (h4 : a4.IsWhole) (a5 : Memref sig .tc .vmem S1024x1 .i32) (h5 : a5.IsWhole) (a6 : Memref sig .tc .vmem S1x512 .i32) (h6 : a6.IsWhole) (a7 : Memref sig .tc .vmem S1024x1 .f32) (h7 : a7.IsWhole) (hc0 : condFirst i) (hc1 : ¬condLast i)
    (x0 : Vec F S1024x512 .bf16) (x1 : Vec F S512x512 .bf16) (x2 : Vec F S512x512 .bf16) (x3 : Vec F S1024x1 .i32) (x4 : Vec F S1x512 .i32) :
    Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi5 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xi5
            ∗ (∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xi5
                ∗ (∃ f, scr0.view.loc (c : Thread nD τ) ↦[scr0.view.set]{fullShare} scr0.view.writes (Elt F) f LS0) ∗ (∃ f, scr1.view.loc (c : Thread nD τ) ↦[scr1.view.set]{fullShare} scr1.view.writes (Elt F) f LS1) ∗ (∃ f, scr2.view.loc (c : Thread nD τ) ↦[scr2.view.set]{fullShare} scr2.view.writes (Elt F) f LS2) ∗ (∃ f, scr3.view.loc (c : Thread nD τ) ↦[scr3.view.set]{fullShare} scr3.view.writes (Elt F) f LS3) ∗ (∃ f, scr4.view.loc (c : Thread nD τ) ↦[scr4.view.set]{fullShare} scr4.view.writes (Elt F) f LS4) ∗ (∃ f, scr5.view.loc (c : Thread nD τ) ↦[scr5.view.set]{fullShare} scr5.view.writes (Elt F) f LS5)) -∗ K ⟨⟩))
          ⊢ wp frame (wpE (defs₀ (F := F)) Variants.none c none) E (cc0__kernel i a2 h2 a3 h3 a4 h4 a5 h5 a6 h6 a7 h7 scr0 (Memref.isWhole_whole _) scr1 (Memref.isWhole_whole _) scr2 (Memref.isWhole_whole _) scr3 (Memref.isWhole_whole _) scr4 (Memref.isWhole_whole _) scr5 (Memref.isWhole_whole _)) K } := by
  refine ⟨?_, ?_, ?_, ?_, ?_, ?_, fun xi5 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

set_option maxHeartbeats 4000000 in
/-- A MIDDLE key block (fold the block in): the scratch buffers come in at what the block before left (`xs·`). -/
noncomputable def runMiddle (c : Dev nD) (i : grid0.Coords) (a2 : Memref sig .tc .vmem S1024x512 .bf16) (h2 : a2.IsWhole) (a3 : Memref sig .tc .vmem S512x512 .bf16) (h3 : a3.IsWhole) (a4 : Memref sig .tc .vmem S512x512 .bf16) (h4 : a4.IsWhole) (a5 : Memref sig .tc .vmem S1024x1 .i32) (h5 : a5.IsWhole) (a6 : Memref sig .tc .vmem S1x512 .i32) (h6 : a6.IsWhole) (a7 : Memref sig .tc .vmem S1024x1 .f32) (h7 : a7.IsWhole) (hc0 : ¬condFirst i) (hc1 : ¬condLast i)
    (x0 : Vec F S1024x512 .bf16) (x1 : Vec F S512x512 .bf16) (x2 : Vec F S512x512 .bf16) (x3 : Vec F S1024x1 .i32) (x4 : Vec F S1x512 .i32) (xs0 xs1 xs2 xs3 xs4 xs5 : Vec F S1024x1 .f32) :
    Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi5 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xi5
            ∗ owns (c : Thread nD τ) scr0 fullShare xs0 ∗ owns (c : Thread nD τ) scr1 fullShare xs1 ∗ owns (c : Thread nD τ) scr2 fullShare xs2 ∗ owns (c : Thread nD τ) scr3 fullShare xs3 ∗ owns (c : Thread nD τ) scr4 fullShare xs4 ∗ owns (c : Thread nD τ) scr5 fullShare xs5
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xi5
                ∗ (∃ f, scr0.view.loc (c : Thread nD τ) ↦[scr0.view.set]{fullShare} scr0.view.writes (Elt F) f LS0) ∗ (∃ f, scr1.view.loc (c : Thread nD τ) ↦[scr1.view.set]{fullShare} scr1.view.writes (Elt F) f LS1) ∗ (∃ f, scr2.view.loc (c : Thread nD τ) ↦[scr2.view.set]{fullShare} scr2.view.writes (Elt F) f LS2) ∗ (∃ f, scr3.view.loc (c : Thread nD τ) ↦[scr3.view.set]{fullShare} scr3.view.writes (Elt F) f LS3) ∗ (∃ f, scr4.view.loc (c : Thread nD τ) ↦[scr4.view.set]{fullShare} scr4.view.writes (Elt F) f LS4) ∗ (∃ f, scr5.view.loc (c : Thread nD τ) ↦[scr5.view.set]{fullShare} scr5.view.writes (Elt F) f LS5)) -∗ K ⟨⟩))
          ⊢ wp frame (wpE (defs₀ (F := F)) Variants.none c none) E (cc0__kernel i a2 h2 a3 h3 a4 h4 a5 h5 a6 h6 a7 h7 scr0 (Memref.isWhole_whole _) scr1 (Memref.isWhole_whole _) scr2 (Memref.isWhole_whole _) scr3 (Memref.isWhole_whole _) scr4 (Memref.isWhole_whole _) scr5 (Memref.isWhole_whole _)) K } := by
  refine ⟨?_, ?_, ?_, ?_, ?_, ?_, fun xi5 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    obtain rfl := (Memref.isWhole_whole cc0_scratch0).eq_unread hfs0; obtain rfl := (Memref.isWhole_whole cc0_scratch1).eq_unread hfs1; obtain rfl := (Memref.isWhole_whole cc0_scratch2).eq_unread hfs2; obtain rfl := (Memref.isWhole_whole cc0_scratch3).eq_unread hfs3; obtain rfl := (Memref.isWhole_whole cc0_scratch4).eq_unread hfs4; obtain rfl := (Memref.isWhole_whole cc0_scratch5).eq_unread hfs5
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

set_option maxHeartbeats 4000000 in
/-- The LAST key block (fold the block in, then store the row's logarithm): the output buffer ends with the pieces `L5`. -/
noncomputable def runLast (c : Dev nD) (i : grid0.Coords) (a2 : Memref sig .tc .vmem S1024x512 .bf16) (h2 : a2.IsWhole) (a3 : Memref sig .tc .vmem S512x512 .bf16) (h3 : a3.IsWhole) (a4 : Memref sig .tc .vmem S512x512 .bf16) (h4 : a4.IsWhole) (a5 : Memref sig .tc .vmem S1024x1 .i32) (h5 : a5.IsWhole) (a6 : Memref sig .tc .vmem S1x512 .i32) (h6 : a6.IsWhole) (a7 : Memref sig .tc .vmem S1024x1 .f32) (h7 : a7.IsWhole) (hc0 : ¬condFirst i) (hc1 : condLast i)
    (x0 : Vec F S1024x512 .bf16) (x1 : Vec F S512x512 .bf16) (x2 : Vec F S512x512 .bf16) (x3 : Vec F S1024x1 .i32) (x4 : Vec F S1x512 .i32) (xs0 xs1 xs2 xs3 xs4 xs5 : Vec F S1024x1 .f32) :
    Σ' (L5 : List (View.Piece (Elt F) S1024x1 .f32)), Σ' (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d)
            ∗ owns (c : Thread nD τ) scr0 fullShare xs0 ∗ owns (c : Thread nD τ) scr1 fullShare xs1 ∗ owns (c : Thread nD τ) scr2 fullShare xs2 ∗ owns (c : Thread nD τ) scr3 fullShare xs3 ∗ owns (c : Thread nD τ) scr4 fullShare xs4 ∗ owns (c : Thread nD τ) scr5 fullShare xs5
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5)
                ∗ (∃ f, scr0.view.loc (c : Thread nD τ) ↦[scr0.view.set]{fullShare} scr0.view.writes (Elt F) f LS0) ∗ (∃ f, scr1.view.loc (c : Thread nD τ) ↦[scr1.view.set]{fullShare} scr1.view.writes (Elt F) f LS1) ∗ (∃ f, scr2.view.loc (c : Thread nD τ) ↦[scr2.view.set]{fullShare} scr2.view.writes (Elt F) f LS2) ∗ (∃ f, scr3.view.loc (c : Thread nD τ) ↦[scr3.view.set]{fullShare} scr3.view.writes (Elt F) f LS3) ∗ (∃ f, scr4.view.loc (c : Thread nD τ) ↦[scr4.view.set]{fullShare} scr4.view.writes (Elt F) f LS4) ∗ (∃ f, scr5.view.loc (c : Thread nD τ) ↦[scr5.view.set]{fullShare} scr5.view.writes (Elt F) f LS5)) -∗ K ⟨⟩))
          ⊢ wp frame (wpE (defs₀ (F := F)) Variants.none c none) E (cc0__kernel i a2 h2 a3 h3 a4 h4 a5 h5 a6 h6 a7 h7 scr0 (Memref.isWhole_whole _) scr1 (Memref.isWhole_whole _) scr2 (Memref.isWhole_whole _) scr3 (Memref.isWhole_whole _) scr4 (Memref.isWhole_whole _) scr5 (Memref.isWhole_whole _)) K } := by
  refine ⟨?_, ?_, ?_, ?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := h2.eq_unread hf0; obtain rfl := h3.eq_unread hf1; obtain rfl := h4.eq_unread hf2; obtain rfl := h5.eq_unread hf3; obtain rfl := h6.eq_unread hf4
    obtain rfl := (Memref.isWhole_whole cc0_scratch0).eq_unread hfs0; obtain rfl := (Memref.isWhole_whole cc0_scratch1).eq_unread hfs1; obtain rfl := (Memref.isWhole_whole cc0_scratch2).eq_unread hfs2; obtain rfl := (Memref.isWhole_whole cc0_scratch3).eq_unread hfs3; obtain rfl := (Memref.isWhole_whole cc0_scratch4).eq_unread hfs4; obtain rfl := (Memref.isWhole_whole cc0_scratch5).eq_unread hfs5
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Flash

end
-- ==== Proof.KiFrame.lean ====
/-
  The streaming kernel's proof data: what the six running quantities hold after each grid point, what the output
  block holds after the last key block of a row block, and the body obligation at every point.

  The grid is 8 row blocks by 16 key blocks, the key block innermost: point t is key block t mod 16 of row block
  t div 16. The six scratch buffers are carried from one point to the next inside a row block and reset at its first
  key block, so their contents after point t are a recursion on t (`stateAt`): the first case's pieces at t ≡ 0, the
  middle or last case's over what point t - 1 left otherwise. The output block is stored at t ≡ 15 only.
-/
import proofs.«129704_j5781025981007_2_alg».proof.Proof.KiRuns
import Idealize.ShloMosaic.Lib.Ring

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: after the host operations that normalise the two
    embedding arrays, narrow them and reshape the labels. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)

/-! ## Where the output window is idle -/

theorem live_in (w : Fin cfg0.W) (hw : w.val < 5) : ∀ t : Fin cfg0.N, cfg0.idle w (grid0.coords t) = false := by
  intro t
  match w, hw with
  | ⟨0, _⟩, _ => rfl
  | ⟨1, _⟩, _ => rfl
  | ⟨2, _⟩, _ => rfl
  | ⟨3, _⟩, _ => rfl
  | ⟨4, _⟩, _ => rfl
theorem idle_out : ∀ t : Fin cfg0.N, ¬condLast (grid0.coords t) → cfg0.idle 5 (grid0.coords t) = true := by decide +kernel
theorem noFlush_out : ∀ t : Fin cfg0.N, ¬condLast (grid0.coords t) → (cfg0.win 5).flush t = false := by decide +kernel
theorem live_out : ∀ t : Fin cfg0.N, condLast (grid0.coords t) → cfg0.idle 5 (grid0.coords t) = false := by decide +kernel

/-! ## What the body leaves, case by case -/

/-- A list of stores into a 1024-by-1 buffer, read back over contents nothing names. -/
abbrev rbV : View sig .tc .vmem S1024x1 .f32 := (Memref.whole cc0_scratch0 : Memref sig .tc .vmem S1024x1 .f32).view
abbrev readBack (L : List (View.Piece (Elt F) S1024x1 .f32)) : Vec F S1024x1 .f32 := rbV.read (Elt F) (rbV.writes (Elt F) rbV.junk L)

/-- The six running quantities of a row block: for the data-data scores the running maximum, sum of exponentials and
    sum of exponentials at equal labels (`s0 s1 s2`), and the same for the data-label scores (`s3 s4 s5`). -/
structure Carried (F : FTy → Type) where
  s0 : Vec F S1024x1 .f32
  s1 : Vec F S1024x1 .f32
  s2 : Vec F S1024x1 .f32
  s3 : Vec F S1024x1 .f32
  s4 : Vec F S1024x1 .f32
  s5 : Vec F S1024x1 .f32

/-- After a first key block. -/
def afterFirstAt (c : Dev nD) (t : Fin cfg0.N) (h0 : t.val % 16 = 0) : Carried F :=
  ⟨readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).1,
   readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.1,
   readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.1,
   readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.1,
   readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.1,
   readBack (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.2.1⟩
/-- After a middle key block, over what the block before left. -/
def afterMiddleAt (c : Dev nD) (t : Fin cfg0.N) (h0 : ¬t.val % 16 = 0) (h1 : ¬t.val % 16 = 15) (prev : Carried F) : Carried F :=
  ⟨readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).1,
   readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.1,
   readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.1,
   readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.1,
   readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.1,
   readBack (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.2.1⟩
/-- After a last key block. -/
def afterLastAt (c : Dev nD) (t : Fin cfg0.N) (h0 : ¬t.val % 16 = 0) (h1 : t.val % 16 = 15) (prev : Carried F) : Carried F :=
  ⟨readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.1,
   readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.1,
   readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.1,
   readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.1,
   readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.1,
   readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.2.1⟩
/-- The output block a last key block stores. -/
def outLastAt (c : Dev nD) (t : Fin cfg0.N) (h0 : ¬t.val % 16 = 0) (h1 : t.val % 16 = 15) (prev : Carried F) : Vec F S1024x1 .f32 :=
  readBack (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).1

theorem coverFirst_0 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).1 S1024x1.size (by sl_kernel_rfl) y
theorem coverFirst_1 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.1 S1024x1.size (by sl_kernel_rfl) y
theorem coverFirst_2 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.1 S1024x1.size (by sl_kernel_rfl) y
theorem coverFirst_3 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.1 S1024x1.size (by sl_kernel_rfl) y
theorem coverFirst_4 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.1 S1024x1.size (by sl_kernel_rfl) y
theorem coverFirst_5 (c : Dev nD) (t : Fin cfg0.N) (h0 : t.val % 16 = 0) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.2.1 S1024x1.size (by sl_kernel_rfl) y
theorem coverMiddle_0 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).1 S1024x1.size (by sl_kernel_rfl) y
theorem coverMiddle_1 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.1 S1024x1.size (by sl_kernel_rfl) y
theorem coverMiddle_2 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.1 S1024x1.size (by sl_kernel_rfl) y
theorem coverMiddle_3 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.1 S1024x1.size (by sl_kernel_rfl) y
theorem coverMiddle_4 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.1 S1024x1.size (by sl_kernel_rfl) y
theorem coverMiddle_5 (c : Dev nD) (t : Fin cfg0.N) (h0 : ¬t.val % 16 = 0) (h1 : ¬t.val % 16 = 15) (prev : Carried F) (y : S1024x1.Idx) :
    ∃ pc ∈ (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.2.1, y ∈ pc.1.set :=
  View.cover_of_tiledL (runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) prev.s0 prev.s1 prev.s2 prev.s3 prev.s4 prev.s5).2.2.2.2.2.1 S1024x1.size (by sl_kernel_rfl) y
theorem coverLast_0 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.1 S1024x1.size (by sl_kernel_rfl) y
theorem coverLast_1 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.1 S1024x1.size (by sl_kernel_rfl) y
theorem coverLast_2 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.1 S1024x1.size (by sl_kernel_rfl) y
theorem coverLast_3 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.1 S1024x1.size (by sl_kernel_rfl) y
theorem coverLast_4 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.1 S1024x1.size (by sl_kernel_rfl) y
theorem coverLast_5 (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).2.2.2.2.2.2.1 S1024x1.size (by sl_kernel_rfl) y
theorem coverLast_out (c : Dev nD) (t : Fin cfg0.N) (h0 : ¬t.val % 16 = 0) (h1 : t.val % 16 = 15) (prev : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) prev.s0 prev.s1 prev.s2 prev.s3 prev.s4 prev.s5).1 S1024x1.size (by sl_kernel_rfl) y

/-! ## Point by point -/

/-- The running quantities after point `n`. -/
def stateAt (c : Dev nD) : (n : ℕ) → n < cfg0.N → Carried F
  | 0, hn => afterFirstAt m c ⟨0, hn⟩ (Nat.zero_mod _)
  | n + 1, hn =>
    if h0 : (n + 1) % 16 = 0 then afterFirstAt m c ⟨n + 1, hn⟩ h0
    else if h1 : (n + 1) % 16 = 15 then afterLastAt m c ⟨n + 1, hn⟩ h0 h1 (stateAt c n (Nat.lt_of_succ_lt hn))
    else afterMiddleAt m c ⟨n + 1, hn⟩ h0 h1 (stateAt c n (Nat.lt_of_succ_lt hn))

theorem stateAt_first (c : Dev nD) (t : Fin cfg0.N) (h0 : t.val % 16 = 0) : stateAt m c t.val t.isLt = afterFirstAt m c t h0 := by
  obtain ⟨n, hn⟩ := t
  cases n with
  | zero => rfl
  | succ n => exact (dif_pos h0).trans rfl
theorem stateAt_middle (c : Dev nD) (t : Fin cfg0.N) (h0 : ¬t.val % 16 = 0) (h1 : ¬t.val % 16 = 15) :
    stateAt m c t.val t.isLt = afterMiddleAt m c t h0 h1 (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem stateAt_last (c : Dev nD) (t : Fin cfg0.N) (h0 : ¬t.val % 16 = 0) (h1 : t.val % 16 = 15) :
    stateAt m c t.val t.isLt = afterLastAt m c t h0 h1 (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output window's staging buffer after point `n`: the stored block at a last key block; elsewhere the window is
    idle and nothing reads this value. -/
def outAt (c : Dev nD) (n : ℕ) (hn : n < cfg0.N) : Vec F S1024x1 .f32 :=
  if h1 : n % 16 = 15 then
    outLastAt m c ⟨n, hn⟩ (show ¬(⟨n, hn⟩ : Fin cfg0.N).val % 16 = 0 from by show ¬n % 16 = 0; omega) h1 (stateAt m c (n - 1) (Nat.lt_of_le_of_lt (Nat.sub_le _ _) hn))
  else readBack []

theorem outAt_last (c : Dev nD) (t : Fin cfg0.N) (h0 : ¬t.val % 16 = 0) (h1 : t.val % 16 = 15) :
    outAt m c t.val t.isLt = outLastAt m c t h0 h1 (stateAt m c (t.val - 1) (Nat.lt_of_le_of_lt (Nat.sub_le _ _) t.isLt)) :=
  dif_pos h1

/-- The region invariant before position `n`: before the first point the scratch buffers hold anything; afterwards what
    the point before left; beside them the generator register at some state. -/
def PhiS (c : Dev nD) : (n : ℕ) → n ≤ cfg0.N → sProp 𝕄
  | 0, _ => Pipeline.ΦA spec0 c
  | n + 1, hn => iprop(iprop(owns (c : Thread nD τ) scr0 fullShare (stateAt m c n hn).s0 ∗ owns (c : Thread nD τ) scr1 fullShare (stateAt m c n hn).s1 ∗ owns (c : Thread nD τ) scr2 fullShare (stateAt m c n hn).s2 ∗ owns (c : Thread nD τ) scr3 fullShare (stateAt m c n hn).s3 ∗ owns (c : Thread nD τ) scr4 fullShare (stateAt m c n hn).s4 ∗ owns (c : Thread nD τ) scr5 fullShare (stateAt m c n hn).s5) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scr0 fullShare (stateAt m c n hn).s0 ∗ owns (c : Thread nD τ) scr1 fullShare (stateAt m c n hn).s1 ∗ owns (c : Thread nD τ) scr2 fullShare (stateAt m c n hn).s2 ∗ owns (c : Thread nD τ) scr3 fullShare (stateAt m c n hn).s3 ∗ owns (c : Thread nD τ) scr4 fullShare (stateAt m c n hn).s4 ∗ owns (c : Thread nD τ) scr5 fullShare (stateAt m c n hn).s5) ∗ (∃ r, prngReg c r)) := rfl
theorem PhiS_pos (c : Dev nD) (n : ℕ) (h : n ≤ cfg0.N) (hz : n ≠ 0) :
    PhiS m c n h = iprop(iprop(owns (c : Thread nD τ) scr0 fullShare (stateAt m c (n - 1) (by omega)).s0 ∗ owns (c : Thread nD τ) scr1 fullShare (stateAt m c (n - 1) (by omega)).s1 ∗ owns (c : Thread nD τ) scr2 fullShare (stateAt m c (n - 1) (by omega)).s2 ∗ owns (c : Thread nD τ) scr3 fullShare (stateAt m c (n - 1) (by omega)).s3 ∗ owns (c : Thread nD τ) scr4 fullShare (stateAt m c (n - 1) (by omega)).s4 ∗ owns (c : Thread nD τ) scr5 fullShare (stateAt m c (n - 1) (by omega)).s5) ∗ (∃ r, prngReg c r)) := by
  cases n with
  | zero => exact absurd rfl hz
  | succ n => rfl

/-- The scoped rest of the region is the six scratch buffers. -/
theorem PhiA_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-! ## The proof data -/

/-- The two windows that stage the narrowed data array hold it at half shares; the others hold theirs whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t.val t.isLt := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · have hnl : ¬condLast (grid0.coords t) := fun h => absurd ((condLast_iff t).mp h) (by omega)
    rw [show (dats m 0 c).leavesExact 0 t = owns (c : Thread nD τ) (ms0 t) fullShare ((dats m 0 c).after 0 t) from by
      unfold Dat.leavesExact; rw [live_in 0 (by decide) t], after_0]
    rw [show (dats m 0 c).leavesExact 1 t = owns (c : Thread nD τ) (ms1 t) fullShare ((dats m 0 c).after 1 t) from by
      unfold Dat.leavesExact; rw [live_in 1 (by decide) t], after_1]
    rw [show (dats m 0 c).leavesExact 2 t = owns (c : Thread nD τ) (ms2 t) fullShare ((dats m 0 c).after 2 t) from by
      unfold Dat.leavesExact; rw [live_in 2 (by decide) t], after_2]
    rw [show (dats m 0 c).leavesExact 3 t = owns (c : Thread nD τ) (ms3 t) fullShare ((dats m 0 c).after 3 t) from by
      unfold Dat.leavesExact; rw [live_in 3 (by decide) t], after_3]
    rw [show (dats m 0 c).leavesExact 4 t = owns (c : Thread nD τ) (ms4 t) fullShare ((dats m 0 c).after 4 t) from by
      unfold Dat.leavesExact; rw [live_in 4 (by decide) t], after_4]
    rw [Dat.leavesExact_idle (dats m 0 c) 5 t (idle_out t hnl) (noFlush_out t hnl)]
    rw [stateAt_first m c t h0]
    unfold afterFirstAt; (try dsimp only)
    have hpre : (dats m 0 c).Φ t.castSucc ⊢ iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
      by_cases hz : t.val = 0
      · rw [PhiS_castSucc m c t, PhiS_zero m c _ _ hz, PhiA_eq]; try exact .rfl
      · rw [PhiS_castSucc m c t, PhiS_pos m c _ _ hz]
        iintro ⟨⟨HS0, HS1, HS2, HS3, HS4, HS5⟩, Hg⟩
        isplitr [Hg]
        · isplitl [HS0]; · iexists _; iexact HS0
          isplitl [HS1]; · iexists _; iexact HS1
          isplitl [HS2]; · iexists _; iexact HS2
          isplitl [HS3]; · iexists _; iexact HS3
          isplitl [HS4]; · iexists _; iexact HS4
          iexists _; iexact HS5
        · iexact Hg
    iintro ⟨HΦ, Ho, ⟨%d0, H0⟩, ⟨%d1, H1⟩, ⟨%d2, H2⟩, ⟨%d3, H3⟩, ⟨%d4, H4⟩, ⟨%d5, H5⟩⟩
    ihave HΦ' := hpre $$ HΦ
    icases HΦ' with ⟨⟨HS0, HS1, HS2, HS3, HS4, HS5⟩, Hg⟩
    iapply ((runFirst c (grid0.coords t) (ms0 t) (hs0 t) (ms1 t) (hs1 t) (ms2 t) (hs2 t) (ms3 t) (hs3 t) (ms4 t) (hs4 t) (ms5 t) (hs5 t) ((condFirst_iff t).mpr h0) (fun h => absurd ((condLast_iff t).mp h) (by omega)) (iblk m c 0 t) (iblk m c 1 t) (iblk m c 2 t) (iblk m c 3 t) (iblk m c 4 t)).2.2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, ⟨%e0, HS0⟩, ⟨%e1, HS1⟩, ⟨%e2, HS2⟩, ⟨%e3, HS3⟩, ⟨%e4, HS4⟩, ⟨%e5, HS5⟩⟩
    isplitl [HS0 HS1 HS2 HS3 HS4 HS5 Hg]
    · isplitl [HS0 HS1 HS2 HS3 HS4 HS5]
      · isplitl [HS0]
        · unfold owns; iexists _; isplitr
          swap; · iexact HS0
          ipureintro; exact View.read_writes_of_cover _ _ _ _ _ (coverFirst_0 m c t h0)
        isplitl [HS1]
        · unfold owns; iexists _; isplitr
          swap; · iexact HS1
          ipureintro; exact View.read_writes_of_cover _ _ _ _ _ (coverFirst_1 m c t h0)
        isplitl [HS2]
        · unfold owns; iexists _; isplitr
          swap; · iexact HS2
          ipureintro; exact View.read_writes_of_cover _ _ _ _ _ (coverFirst_2 m c t h0)
        isplitl [HS3]
        · unfold owns; iexists _; isplitr
          swap; · iexact HS3
          ipureintro; exact View.read_writes_of_cover _ _ _ _ _ (coverFirst_3 m c t h0)
        isplitl [HS4]
        · unfold owns; iexists _; isplitr
          swap; · iexact HS4
          ipureintro; exact View.read_writes_of_cover _ _ _ _ _ (coverFirst_4 m c t h0)
        unfold owns; iexists _; isplitr
        swap; · iexact HS5
        ipureintro; exact View.read_writes_of_cover _ _ _ _ _ (coverFirst_5 m c t h0)
      · iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val % 16 = 15
    ·
      have hz : t.val ≠ 0 := fun e => h0 (by rw [e])
      rw [show (dats m 0 c).leavesExact 0 t = owns (c : Thread nD τ) (ms0 t) fullShare ((dats m 0 c).after 0 t) from by
        unfold Dat.leavesExact; rw [live_in 0 (by decide) t], after_0]
      rw [show (dats m 0 c).leavesExact 1 t = owns (c : Thread nD τ) (ms1 t) fullShare ((dats m 0 c).after 1 t) from by
        unfold Dat.leavesExact; rw [live_in 1 (by decide) t], after_1]
      rw [show (dats m 0 c).leavesExact 2 t = owns (c : Thread nD τ) (ms2 t) fullShare ((dats m 0 c).after 2 t) from by
        unfold Dat.leavesExact; rw [live_in 2 (by decide) t], after_2]
      rw [show (dats m 0 c).leavesExact 3 t = owns (c : Thread nD τ) (ms3 t) fullShare ((dats m 0 c).after 3 t) from by
        unfold Dat.leavesExact; rw [live_in 3 (by decide) t], after_3]
      rw [show (dats m 0 c).leavesExact 4 t = owns (c : Thread nD τ) (ms4 t) fullShare ((dats m 0 c).after 4 t) from by
        unfold Dat.leavesExact; rw [live_in 4 (by decide) t], after_4]
      rw [show (dats m 0 c).leavesExact 5 t = owns (c : Thread nD τ) (ms5 t) fullShare ((dats m 0 c).after 5 t) from by
        unfold Dat.leavesExact; rw [live_out t ((condLast_iff t).mpr h1)], after_5, outAt_last m c t h0 h1]
      rw [stateAt_last m c t h0 h1]
      unfold afterLastAt outLastAt; (try dsimp only)
      rw [PhiS_castSucc m c t, PhiS_pos m c _ _ hz]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
      iapply ((runLast c (grid0.coords t) (ms0 t) (hs0 t) (ms1 t) (hs1 t) (ms2 t) (hs2 t) (ms3 t) (hs3 t) (ms4 t) (hs4 t) (ms5 t) (hs5 t) (fun h => h0 ((condFirst_iff t).mp h)) ((condLast_iff t).mpr h1) (iblk m c 0 t) (iblk m c 1 t) (iblk m c 2 t) (iblk m c 3 t) (iblk m c 4 t) (stateAt m c (t.val - 1) (Nat.lt_of_le_of_lt (Nat.sub_le _ _) t.isLt)).s0 (stateAt m c (t.val - 1) (Nat.lt_of_le_of_lt (Nat.sub_le _ _) t.isLt)).s1 (stateAt m c (t.val - 1) (Nat.lt_of_le_of_lt (Nat.sub_le _ _) t.isLt)).s2 (stateAt m c (t.val - 1) (Nat.lt_of_le_of_lt (Nat.sub_le _ _) t.isLt)).s3 (stateAt m c (t.val - 1) (Nat.lt_of_le_of_lt (Nat.sub_le _ _) t.isLt)).s4 (stateAt m c (t.val - 1) (Nat.lt_of_le_of_lt (Nat.sub_le _ _) t.isLt)).s5).2.2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, ⟨%e5o, H5⟩, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitl [HS0 HS1 HS2 HS3 HS4 HS5]
        · isplitl [HS0]
          · unfold owns; iexists _; isplitr
            swap; · iexact HS0
            ipureintro; exact View.read_writes_of_cover _ _ _ _ _ (coverLast_0 m c t h0 h1 _)
          isplitl [HS1]
          · unfold owns; iexists _; isplitr
            swap; · iexact HS1
            ipureintro; exact View.read_writes_of_cover _ _ _ _ _ (coverLast_1 m c t h0 h1 _)
          isplitl [HS2]
          · unfold owns; iexists _; isplitr
            swap; · iexact HS2
            ipureintro; exact View.read_writes_of_cover _ _ _ _ _ (coverLast_2 m c t h0 h1 _)
          isplitl [HS3]
          · unfold owns; iexists _; isplitr
            swap; · iexact HS3
            ipureintro; exact View.read_writes_of_cover _ _ _ _ _ (coverLast_3 m c t h0 h1 _)
          isplitl [HS4]
          · unfold owns; iexists _; isplitr
            swap; · iexact HS4
            ipureintro; exact View.read_writes_of_cover _ _ _ _ _ (coverLast_4 m c t h0 h1 _)
          unfold owns; iexists _; isplitr
          swap; · iexact HS5
          ipureintro; exact View.read_writes_of_cover _ _ _ _ _ (coverLast_5 m c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast_out m c t h0 h1 _)

    ·
      have hnl : ¬condLast (grid0.coords t) := fun h => h1 ((condLast_iff t).mp h)
      have hz : t.val ≠ 0 := fun e => h0 (by rw [e])
      rw [show (dats m 0 c).leavesExact 0 t = owns (c : Thread nD τ) (ms0 t) fullShare ((dats m 0 c).after 0 t) from by
        unfold Dat.leavesExact; rw [live_in 0 (by decide) t], after_0]
      rw [show (dats m 0 c).leavesExact 1 t = owns (c : Thread nD τ) (ms1 t) fullShare ((dats m 0 c).after 1 t) from by
        unfold Dat.leavesExact; rw [live_in 1 (by decide) t], after_1]
      rw [show (dats m 0 c).leavesExact 2 t = owns (c : Thread nD τ) (ms2 t) fullShare ((dats m 0 c).after 2 t) from by
        unfold Dat.leavesExact; rw [live_in 2 (by decide) t], after_2]
      rw [show (dats m 0 c).leavesExact 3 t = owns (c : Thread nD τ) (ms3 t) fullShare ((dats m 0 c).after 3 t) from by
        unfold Dat.leavesExact; rw [live_in 3 (by decide) t], after_3]
      rw [show (dats m 0 c).leavesExact 4 t = owns (c : Thread nD τ) (ms4 t) fullShare ((dats m 0 c).after 4 t) from by
        unfold Dat.leavesExact; rw [live_in 4 (by decide) t], after_4]
      rw [Dat.leavesExact_idle (dats m 0 c) 5 t (idle_out t hnl) (noFlush_out t hnl)]
      rw [stateAt_middle m c t h0 h1]
      unfold afterMiddleAt; (try dsimp only)
      rw [PhiS_castSucc m c t, PhiS_pos m c _ _ hz]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
      iapply ((runMiddle c (grid0.coords t) (ms0 t) (hs0 t) (ms1 t) (hs1 t) (ms2 t) (hs2 t) (ms3 t) (hs3 t) (ms4 t) (hs4 t) (ms5 t) (hs5 t) (fun h => h0 ((condFirst_iff t).mp h)) (fun h => h1 ((condLast_iff t).mp h)) (iblk m c 0 t) (iblk m c 1 t) (iblk m c 2 t) (iblk m c 3 t) (iblk m c 4 t) (stateAt m c (t.val - 1) (Nat.lt_of_le_of_lt (Nat.sub_le _ _) t.isLt)).s0 (stateAt m c (t.val - 1) (Nat.lt_of_le_of_lt (Nat.sub_le _ _) t.isLt)).s1 (stateAt m c (t.val - 1) (Nat.lt_of_le_of_lt (Nat.sub_le _ _) t.isLt)).s2 (stateAt m c (t.val - 1) (Nat.lt_of_le_of_lt (Nat.sub_le _ _) t.isLt)).s3 (stateAt m c (t.val - 1) (Nat.lt_of_le_of_lt (Nat.sub_le _ _) t.isLt)).s4 (stateAt m c (t.val - 1) (Nat.lt_of_le_of_lt (Nat.sub_le _ _) t.isLt)).s5).2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg]
      · isplitl [HS0 HS1 HS2 HS3 HS4 HS5]
        · isplitl [HS0]
          · unfold owns; iexists _; isplitr
            swap; · iexact HS0
            ipureintro; exact View.read_writes_of_cover _ _ _ _ _ (coverMiddle_0 m c t h0 h1 _)
          isplitl [HS1]
          · unfold owns; iexists _; isplitr
            swap; · iexact HS1
            ipureintro; exact View.read_writes_of_cover _ _ _ _ _ (coverMiddle_1 m c t h0 h1 _)
          isplitl [HS2]
          · unfold owns; iexists _; isplitr
            swap; · iexact HS2
            ipureintro; exact View.read_writes_of_cover _ _ _ _ _ (coverMiddle_2 m c t h0 h1 _)
          isplitl [HS3]
          · unfold owns; iexists _; isplitr
            swap; · iexact HS3
            ipureintro; exact View.read_writes_of_cover _ _ _ _ _ (coverMiddle_3 m c t h0 h1 _)
          isplitl [HS4]
          · unfold owns; iexists _; isplitr
            swap; · iexact HS4
            ipureintro; exact View.read_writes_of_cover _ _ _ _ _ (coverMiddle_4 m c t h0 h1 _)
          unfold owns; iexists _; isplitr
          swap; · iexact HS5
          ipureintro; exact View.read_writes_of_cover _ _ _ _ _ (coverMiddle_5 m c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at contents nothing names. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1, HS2, HS3, HS4, HS5⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  · iexact Hg

end Cert.KernelIdeal.Flash

end
-- ==== Proof.KiPieces.lean ====
/-
  What each control case leaves in the six scratch buffers and in the output block, as the body's own arithmetic:
  each piece the symbolic run found is the corresponding payload of the skeleton, applied to the point's input blocks
  and to what the scratch buffers held before.
-/
import proofs.«129704_j5781025981007_2_alg».proof.Proof.KiFrame
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ)

omit [FloatOps F] [Named F] in
/-- The raw contents of a whole buffer that read `X` are `X`. -/
theorem unread_whole {Val : EltTy → Type} {κ : Kind} (b : Ref sig κ) (h : (Memref.whole b : Memref sig κ _ _ _).IsWhole) (X : b.ty.Contents Val) : h.unread X = X := by
  have := h.read_unread (Val := Val) X
  simpa only [Memref.view_whole, View.read_whole] using this

/-- The body's four derived arrays at point `t`: the masked, scaled data-data scores and their row maxima, the scaled
    data-label scores, and the equal-label mask. -/
abbrev scF (c : Dev nD) (t : Fin cfg0.N) : FVec F S1024x512 .f32 := k0_pay15 (grid0.coords t) (iblk m c 0 t) (iblk m c 1 t)
abbrev mxF (c : Dev nD) (t : Fin cfg0.N) : FVec F S1024x1 .f32 := k0_pay16 (grid0.coords t) (iblk m c 0 t) (iblk m c 1 t)
abbrev scE (c : Dev nD) (t : Fin cfg0.N) : FVec F S1024x512 .f32 := k0_pay13 (iblk m c 0 t) (iblk m c 2 t)
abbrev eqL (c : Dev nD) (t : Fin cfg0.N) : IVec S1024x512 1 := k0_pay14 (iblk m c 3 t) (iblk m c 4 t)

/-- One fold of a key block into the six running quantities. -/
def foldBlock (c : Dev nD) (t : Fin cfg0.N) (P : Carried F) : Carried F :=
  ⟨k0_pay22 (mxF m c t) P.s0,
   k0_pay20 (scF m c t) (mxF m c t) P.s0 P.s0 P.s1,
   k0_pay21 (eqL m c t) (scF m c t) (mxF m c t) P.s0 P.s0 P.s2,
   k0_pay4 (k0_pay23 (scE m c t) P.s3),
   k0_pay2 (k0_pay24 (scE m c t) P.s3 P.s3) (k0_pay25 (scE m c t) P.s3) P.s4,
   k0_pay3 (eqL m c t) (k0_pay24 (scE m c t) P.s3 P.s3) (k0_pay25 (scE m c t) P.s3) P.s5⟩

/-- The reset values. -/
def resetState : Carried F := ⟨k0_pay6, k0_pay7, k0_pay8, k0_pay9, k0_pay10, k0_pay11⟩

set_option maxHeartbeats 2000000 in
theorem afterFirst_s0 (c : Dev nD) (t : Fin cfg0.N) (h0 : t.val % 16 = 0) :
    (afterFirstAt m c t h0).s0 = (foldBlock m c t resetState).s0 := by
  unfold afterFirstAt foldBlock resetState readBack; dsimp only
  rw [View.read_writes_eq_canon _ _ _ (coverFirst_0 m c t h0)]
  unfold runFirst; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_cons_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

set_option maxHeartbeats 2000000 in
theorem afterFirst_s1 (c : Dev nD) (t : Fin cfg0.N) (h0 : t.val % 16 = 0) :
    (afterFirstAt m c t h0).s1 = (foldBlock m c t resetState).s1 := by
  unfold afterFirstAt foldBlock resetState readBack; dsimp only
  rw [View.read_writes_eq_canon _ _ _ (coverFirst_1 m c t h0)]
  unfold runFirst; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_cons_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

set_option maxHeartbeats 2000000 in
theorem afterFirst_s2 (c : Dev nD) (t : Fin cfg0.N) (h0 : t.val % 16 = 0) :
    (afterFirstAt m c t h0).s2 = (foldBlock m c t resetState).s2 := by
  unfold afterFirstAt foldBlock resetState readBack; dsimp only
  rw [View.read_writes_eq_canon _ _ _ (coverFirst_2 m c t h0)]
  unfold runFirst; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_cons_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

set_option maxHeartbeats 2000000 in
theorem afterFirst_s3 (c : Dev nD) (t : Fin cfg0.N) (h0 : t.val % 16 = 0) :
    (afterFirstAt m c t h0).s3 = (foldBlock m c t resetState).s3 := by
  unfold afterFirstAt foldBlock resetState readBack; dsimp only
  rw [View.read_writes_eq_canon _ _ _ (coverFirst_3 m c t h0)]
  unfold runFirst; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_cons_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

set_option maxHeartbeats 2000000 in
theorem afterFirst_s4 (c : Dev nD) (t : Fin cfg0.N) (h0 : t.val % 16 = 0) :
    (afterFirstAt m c t h0).s4 = (foldBlock m c t resetState).s4 := by
  unfold afterFirstAt foldBlock resetState readBack; dsimp only
  rw [View.read_writes_eq_canon _ _ _ (coverFirst_4 m c t h0)]
  unfold runFirst; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_cons_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

set_option maxHeartbeats 2000000 in
theorem afterFirst_s5 (c : Dev nD) (t : Fin cfg0.N) (h0 : t.val % 16 = 0) :
    (afterFirstAt m c t h0).s5 = (foldBlock m c t resetState).s5 := by
  unfold afterFirstAt foldBlock resetState readBack; dsimp only
  rw [View.read_writes_eq_canon _ _ _ (coverFirst_5 m c t h0)]
  unfold runFirst; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_cons_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterMiddle_s0 (c : Dev nD) (t : Fin cfg0.N) (h0 : ¬t.val % 16 = 0) (h1 : ¬t.val % 16 = 15) (prev : Carried F) :
    (afterMiddleAt m c t h0 h1 prev).s0 = (foldBlock m c t prev).s0 := by
  unfold afterMiddleAt foldBlock readBack; dsimp only
  rw [View.read_writes_eq_canon _ _ _ (coverMiddle_0 m c t h0 h1 prev)]
  unfold runMiddle; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterMiddle_s1 (c : Dev nD) (t : Fin cfg0.N) (h0 : ¬t.val % 16 = 0) (h1 : ¬t.val % 16 = 15) (prev : Carried F) :
    (afterMiddleAt m c t h0 h1 prev).s1 = (foldBlock m c t prev).s1 := by
  unfold afterMiddleAt foldBlock readBack; dsimp only
  rw [View.read_writes_eq_canon _ _ _ (coverMiddle_1 m c t h0 h1 prev)]
  unfold runMiddle; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterMiddle_s2 (c : Dev nD) (t : Fin cfg0.N) (h0 : ¬t.val % 16 = 0) (h1 : ¬t.val % 16 = 15) (prev : Carried F) :
    (afterMiddleAt m c t h0 h1 prev).s2 = (foldBlock m c t prev).s2 := by
  unfold afterMiddleAt foldBlock readBack; dsimp only
  rw [View.read_writes_eq_canon _ _ _ (coverMiddle_2 m c t h0 h1 prev)]
  unfold runMiddle; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterMiddle_s3 (c : Dev nD) (t : Fin cfg0.N) (h0 : ¬t.val % 16 = 0) (h1 : ¬t.val % 16 = 15) (prev : Carried F) :
    (afterMiddleAt m c t h0 h1 prev).s3 = (foldBlock m c t prev).s3 := by
  unfold afterMiddleAt foldBlock readBack; dsimp only
  rw [View.read_writes_eq_canon _ _ _ (coverMiddle_3 m c t h0 h1 prev)]
  unfold runMiddle; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterMiddle_s4 (c : Dev nD) (t : Fin cfg0.N) (h0 : ¬t.val % 16 = 0) (h1 : ¬t.val % 16 = 15) (prev : Carried F) :
    (afterMiddleAt m c t h0 h1 prev).s4 = (foldBlock m c t prev).s4 := by
  unfold afterMiddleAt foldBlock readBack; dsimp only
  rw [View.read_writes_eq_canon _ _ _ (coverMiddle_4 m c t h0 h1 prev)]
  unfold runMiddle; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterMiddle_s5 (c : Dev nD) (t : Fin cfg0.N) (h0 : ¬t.val % 16 = 0) (h1 : ¬t.val % 16 = 15) (prev : Carried F) :
    (afterMiddleAt m c t h0 h1 prev).s5 = (foldBlock m c t prev).s5 := by
  unfold afterMiddleAt foldBlock readBack; dsimp only
  rw [View.read_writes_eq_canon _ _ _ (coverMiddle_5 m c t h0 h1 prev)]
  unfold runMiddle; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterLast_s0 (c : Dev nD) (t : Fin cfg0.N) (h0 : ¬t.val % 16 = 0) (h1 : t.val % 16 = 15) (prev : Carried F) :
    (afterLastAt m c t h0 h1 prev).s0 = (foldBlock m c t prev).s0 := by
  unfold afterLastAt foldBlock readBack; dsimp only
  rw [View.read_writes_eq_canon _ _ _ (coverLast_0 m c t h0 h1 prev)]
  unfold runLast; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterLast_s1 (c : Dev nD) (t : Fin cfg0.N) (h0 : ¬t.val % 16 = 0) (h1 : t.val % 16 = 15) (prev : Carried F) :
    (afterLastAt m c t h0 h1 prev).s1 = (foldBlock m c t prev).s1 := by
  unfold afterLastAt foldBlock readBack; dsimp only
  rw [View.read_writes_eq_canon _ _ _ (coverLast_1 m c t h0 h1 prev)]
  unfold runLast; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterLast_s2 (c : Dev nD) (t : Fin cfg0.N) (h0 : ¬t.val % 16 = 0) (h1 : t.val % 16 = 15) (prev : Carried F) :
    (afterLastAt m c t h0 h1 prev).s2 = (foldBlock m c t prev).s2 := by
  unfold afterLastAt foldBlock readBack; dsimp only
  rw [View.read_writes_eq_canon _ _ _ (coverLast_2 m c t h0 h1 prev)]
  unfold runLast; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterLast_s3 (c : Dev nD) (t : Fin cfg0.N) (h0 : ¬t.val % 16 = 0) (h1 : t.val % 16 = 15) (prev : Carried F) :
    (afterLastAt m c t h0 h1 prev).s3 = (foldBlock m c t prev).s3 := by
  unfold afterLastAt foldBlock readBack; dsimp only
  rw [View.read_writes_eq_canon _ _ _ (coverLast_3 m c t h0 h1 prev)]
  unfold runLast; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterLast_s4 (c : Dev nD) (t : Fin cfg0.N) (h0 : ¬t.val % 16 = 0) (h1 : t.val % 16 = 15) (prev : Carried F) :
    (afterLastAt m c t h0 h1 prev).s4 = (foldBlock m c t prev).s4 := by
  unfold afterLastAt foldBlock readBack; dsimp only
  rw [View.read_writes_eq_canon _ _ _ (coverLast_4 m c t h0 h1 prev)]
  unfold runLast; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

theorem afterLast_s5 (c : Dev nD) (t : Fin cfg0.N) (h0 : ¬t.val % 16 = 0) (h1 : t.val % 16 = 15) (prev : Carried F) :
    (afterLastAt m c t h0 h1 prev).s5 = (foldBlock m c t prev).s5 := by
  unfold afterLastAt foldBlock readBack; dsimp only
  rw [View.read_writes_eq_canon _ _ _ (coverLast_5 m c t h0 h1 prev)]
  unfold runLast; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

set_option maxHeartbeats 4000000 in
theorem outLast_eq (c : Dev nD) (t : Fin cfg0.N) (h0 : ¬t.val % 16 = 0) (h1 : t.val % 16 = 15) (prev : Carried F) :
    outLastAt m c t h0 h1 prev
      = k0_pay5 (foldBlock m c t prev).s5 (foldBlock m c t prev).s2 (foldBlock m c t prev).s4 (foldBlock m c t prev).s1 := by
  unfold outLastAt foldBlock readBack; dsimp only
  rw [View.read_writes_eq_canon _ _ _ (coverLast_out m c t h0 h1 prev)]
  unfold runLast; dsimp only
  sl_unfold_words
  have hz : (![0, 0] : Fin 2 → Nat) = fun _ => 0 := funext fun a => by fin_cases a <;> rfl
  have hrc : ∀ (v : View sig .tc .vmem S1024x1 .f32) (w : S1024x1.Idx → Elt F .f32) (inb inb'),
      v.readCov [(⟨Rect.unit ![0, 0] S1024x1.size inb, w⟩ : View.Piece (Elt F) S1024x1 .f32)] (Rect.unit ![0, 0] S1024x1.size inb').toLoadRect = w :=
    fun v w inb inb' => View.readCov_unit_zero v hz inb w
  rw [View.canon_unit_zero hz]
  simp only [hrc, View.readAt_eq_ld, Memref.IsWhole.read_unread, View.read_whole, unread_whole, View.ld_unit_zero (S := S1024x1) hz, View.ld_unit_zero (S := S1024x512) hz, View.ld_unit_zero (S := S512x512) hz, View.ld_unit_zero (S := S1x512) hz]
  rfl

/-- The three cases as one fold. -/
theorem afterFirst_eq (c : Dev nD) (t : Fin cfg0.N) (h0 : t.val % 16 = 0) : afterFirstAt m c t h0 = foldBlock m c t resetState := by
  have e0 := afterFirst_s0 m c t h0; have e1 := afterFirst_s1 m c t h0; have e2 := afterFirst_s2 m c t h0
  have e3 := afterFirst_s3 m c t h0; have e4 := afterFirst_s4 m c t h0; have e5 := afterFirst_s5 m c t h0
  cases hA : afterFirstAt m c t h0; cases hB : foldBlock m c t (resetState (F := F))
  rw [hA, hB] at e0 e1 e2 e3 e4 e5; simp only at e0 e1 e2 e3 e4 e5
  rw [e0, e1, e2, e3, e4, e5]
theorem afterMiddle_eq (c : Dev nD) (t : Fin cfg0.N) (h0 : ¬t.val % 16 = 0) (h1 : ¬t.val % 16 = 15) (prev : Carried F) :
    afterMiddleAt m c t h0 h1 prev = foldBlock m c t prev := by
  have e0 := afterMiddle_s0 m c t h0 h1 prev; have e1 := afterMiddle_s1 m c t h0 h1 prev; have e2 := afterMiddle_s2 m c t h0 h1 prev
  have e3 := afterMiddle_s3 m c t h0 h1 prev; have e4 := afterMiddle_s4 m c t h0 h1 prev; have e5 := afterMiddle_s5 m c t h0 h1 prev
  cases hA : afterMiddleAt m c t h0 h1 prev; cases hB : foldBlock m c t prev
  rw [hA, hB] at e0 e1 e2 e3 e4 e5; simp only at e0 e1 e2 e3 e4 e5
  rw [e0, e1, e2, e3, e4, e5]
theorem afterLast_eq (c : Dev nD) (t : Fin cfg0.N) (h0 : ¬t.val % 16 = 0) (h1 : t.val % 16 = 15) (prev : Carried F) :
    afterLastAt m c t h0 h1 prev = foldBlock m c t prev := by
  have e0 := afterLast_s0 m c t h0 h1 prev; have e1 := afterLast_s1 m c t h0 h1 prev; have e2 := afterLast_s2 m c t h0 h1 prev
  have e3 := afterLast_s3 m c t h0 h1 prev; have e4 := afterLast_s4 m c t h0 h1 prev; have e5 := afterLast_s5 m c t h0 h1 prev
  cases hA : afterLastAt m c t h0 h1 prev; cases hB : foldBlock m c t prev
  rw [hA, hB] at e0 e1 e2 e3 e4 e5; simp only at e0 e1 e2 e3 e4 e5
  rw [e0, e1, e2, e3, e4, e5]

/-- The running quantities after each point: reset-and-fold at the first key block of a row block, a fold elsewhere. -/
theorem stateAt_fold (c : Dev nD) (t : Fin cfg0.N) :
    stateAt m c t.val t.isLt = foldBlock m c t (if t.val % 16 = 0 then resetState else stateAt m c (t.val - 1) (Nat.lt_of_le_of_lt (Nat.sub_le _ _) t.isLt)) := by
  by_cases h0 : t.val % 16 = 0
  · rw [stateAt_first m c t h0, afterFirst_eq, if_pos h0]
  · rw [if_neg h0]
    by_cases h1 : t.val % 16 = 15
    · rw [stateAt_last m c t h0 h1, afterLast_eq]
    · rw [stateAt_middle m c t h0 h1, afterMiddle_eq]

end Cert.KernelIdeal.Flash

end
-- ==== Proof.KiLaunch.lean ====
/-
  The launch of the streaming kernel: @main is host operations (normalise, narrow, reshape), the kernel region over
  an 8-by-16 grid, and host operations again (the mean of the per-row logarithms, negated).

  Two of the kernel's windows stage ONE array — the narrowed data embeddings serve as query block and as key block —, so
  the region holds that array at two half shares, one per window, split from the whole buffer at entry and joined
  again at exit; every other array is held whole. The host operations after the region read the output array and
  write fresh buffers only.
-/
import proofs.«129704_j5781025981007_2_alg».proof.Proof.KiFrame

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One array behind two windows: splitting and joining its share -/

set_option maxHeartbeats 4000000 in
/-- The five distinct buffers behind the six windows, each whole, make the windows' arrays: the shared one split in halves. -/
theorem arrays_of_bufs (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare) (hq4 : dat.q 4 = fullShare)
    (W : (b : Ref sig .tc) → Buf (Elt F) ((c.tc : Thread nD τ).loc b)) :
    (Pipeline.arrBufs spec0 c W : sProp 𝕄) ⊢ dat.arrays (fun w => W (Pipeline.arrRef spec0 w)) := by
  unfold Pipeline.arrBufs Dat.arrays
  rw [bigSep_W0]
  rw [BI.bigSep_eq_bigSepL_of_eq [main_call0_v16, main_call0_v17, main_call0_v18, main_call0_v19, main_call0_v20] (by decide) (by decide)]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_neg (by decide), hq2]
  have s3 : dat.share 3 = fullShare := by unfold Dat.share; rw [if_neg (by decide), hq3]
  have s4 : dat.share 4 = fullShare := by unfold Dat.share; rw [if_neg (by decide), hq4]
  have s5 : dat.share 5 = fullShare := by unfold Dat.share; rw [if_pos (by decide)]
  rw [s0, s1, s2, s3, s4, s5]
  show (bigSepL [main_call0_v16, main_call0_v17, main_call0_v18, main_call0_v19, main_call0_v20] fun b => (c.tc : Thread nD τ).loc b ↦{fullShare} W b)
    ⊢ iprop(((Memref.whole main_call0_v16 : Memref sig .tc _ _ _).view.loc (c.tc : Thread nD τ) ↦[(Memref.whole main_call0_v16 : Memref sig .tc _ _ _).view.set]{fullShare.left} W main_call0_v16)
      ∗ ((Memref.whole main_call0_v16 : Memref sig .tc _ _ _).view.loc (c.tc : Thread nD τ) ↦[(Memref.whole main_call0_v16 : Memref sig .tc _ _ _).view.set]{fullShare.right} W main_call0_v16)
      ∗ ((Memref.whole main_call0_v17 : Memref sig .tc _ _ _).view.loc (c.tc : Thread nD τ) ↦[(Memref.whole main_call0_v17 : Memref sig .tc _ _ _).view.set]{fullShare} W main_call0_v17)
      ∗ ((Memref.whole main_call0_v18 : Memref sig .tc _ _ _).view.loc (c.tc : Thread nD τ) ↦[(Memref.whole main_call0_v18 : Memref sig .tc _ _ _).view.set]{fullShare} W main_call0_v18)
      ∗ ((Memref.whole main_call0_v19 : Memref sig .tc _ _ _).view.loc (c.tc : Thread nD τ) ↦[(Memref.whole main_call0_v19 : Memref sig .tc _ _ _).view.set]{fullShare} W main_call0_v19)
      ∗ ((Memref.whole main_call0_v20 : Memref sig .tc _ _ _).view.loc (c.tc : Thread nD τ) ↦[(Memref.whole main_call0_v20 : Memref sig .tc _ _ _).view.set]{fullShare} W main_call0_v20))
  simp only [Memref.view_whole, View.set_whole]
  show iprop(((c.tc : Thread nD τ).loc main_call0_v16 ↦{fullShare} W main_call0_v16) ∗ ((c.tc : Thread nD τ).loc main_call0_v17 ↦{fullShare} W main_call0_v17)
      ∗ ((c.tc : Thread nD τ).loc main_call0_v18 ↦{fullShare} W main_call0_v18) ∗ ((c.tc : Thread nD τ).loc main_call0_v19 ↦{fullShare} W main_call0_v19)
      ∗ ((c.tc : Thread nD τ).loc main_call0_v20 ↦{fullShare} W main_call0_v20)) ⊢ _
  iintro ⟨H16, H17, H18, H19, H20⟩
  ihave H := (pointsTo_share (PosShare.mem_left_op_right fullShare)).1 $$ H16
  icases H with ⟨Ha, Hb⟩
  isplitl [Ha]; · iexact Ha
  isplitl [Hb]; · iexact Hb
  isplitl [H17]; · iexact H17
  isplitl [H18]; · iexact H18
  isplitl [H19]; · iexact H19
  iexact H20

set_option maxHeartbeats 4000000 in
/-- And back: the two halves, at the same contents, join. -/
theorem bufs_of_arrays (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare) (hq4 : dat.q 4 = fullShare)
    (W : (b : Ref sig .tc) → Buf (Elt F) ((c.tc : Thread nD τ).loc b)) :
    dat.arrays (fun w => W (Pipeline.arrRef spec0 w)) ⊢ (Pipeline.arrBufs spec0 c W : sProp 𝕄) := by
  unfold Pipeline.arrBufs Dat.arrays
  rw [bigSep_W0]
  rw [BI.bigSep_eq_bigSepL_of_eq [main_call0_v16, main_call0_v17, main_call0_v18, main_call0_v19, main_call0_v20] (by decide) (by decide)]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_neg (by decide), hq2]
  have s3 : dat.share 3 = fullShare := by unfold Dat.share; rw [if_neg (by decide), hq3]
  have s4 : dat.share 4 = fullShare := by unfold Dat.share; rw [if_neg (by decide), hq4]
  have s5 : dat.share 5 = fullShare := by unfold Dat.share; rw [if_pos (by decide)]
  rw [s0, s1, s2, s3, s4, s5]
  show iprop(((Memref.whole main_call0_v16 : Memref sig .tc _ _ _).view.loc (c.tc : Thread nD τ) ↦[(Memref.whole main_call0_v16 : Memref sig .tc _ _ _).view.set]{fullShare.left} W main_call0_v16)
      ∗ ((Memref.whole main_call0_v16 : Memref sig .tc _ _ _).view.loc (c.tc : Thread nD τ) ↦[(Memref.whole main_call0_v16 : Memref sig .tc _ _ _).view.set]{fullShare.right} W main_call0_v16)
      ∗ ((Memref.whole main_call0_v17 : Memref sig .tc _ _ _).view.loc (c.tc : Thread nD τ) ↦[(Memref.whole main_call0_v17 : Memref sig .tc _ _ _).view.set]{fullShare} W main_call0_v17)
      ∗ ((Memref.whole main_call0_v18 : Memref sig .tc _ _ _).view.loc (c.tc : Thread nD τ) ↦[(Memref.whole main_call0_v18 : Memref sig .tc _ _ _).view.set]{fullShare} W main_call0_v18)
      ∗ ((Memref.whole main_call0_v19 : Memref sig .tc _ _ _).view.loc (c.tc : Thread nD τ) ↦[(Memref.whole main_call0_v19 : Memref sig .tc _ _ _).view.set]{fullShare} W main_call0_v19)
      ∗ ((Memref.whole main_call0_v20 : Memref sig .tc _ _ _).view.loc (c.tc : Thread nD τ) ↦[(Memref.whole main_call0_v20 : Memref sig .tc _ _ _).view.set]{fullShare} W main_call0_v20))
    ⊢ (bigSepL [main_call0_v16, main_call0_v17, main_call0_v18, main_call0_v19, main_call0_v20] fun b => (c.tc : Thread nD τ).loc b ↦{fullShare} W b)
  simp only [Memref.view_whole, View.set_whole]
  show _ ⊢ iprop(((c.tc : Thread nD τ).loc main_call0_v16 ↦{fullShare} W main_call0_v16) ∗ ((c.tc : Thread nD τ).loc main_call0_v17 ↦{fullShare} W main_call0_v17)
      ∗ ((c.tc : Thread nD τ).loc main_call0_v18 ↦{fullShare} W main_call0_v18) ∗ ((c.tc : Thread nD τ).loc main_call0_v19 ↦{fullShare} W main_call0_v19)
      ∗ ((c.tc : Thread nD τ).loc main_call0_v20 ↦{fullShare} W main_call0_v20))
  iintro ⟨Ha, Hb, H17, H18, H19, H20⟩
  ihave H16 := (pointsTo_share (PosShare.mem_left_op_right fullShare)).2 $$ [Ha Hb]
  · isplitl [Ha]; · iexact Ha
    iexact Hb
  isplitl [H16]; · iexact H16
  isplitl [H17]; · iexact H17
  isplitl [H18]; · iexact H18
  isplitl [H19]; · iexact H19
  iexact H20

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The buffers when the region is left, and after the last host operations -/

/-- The output array after the last write-back. -/
def outArr (c : Dev nD) : Buf (Elt F) ((c : Thread nD τ).loc main_call0_v20) := (dats m 0 c).arrAt 5 cfg0.N

/-- Core `c`'s buffers when the region is left: the output array at `outArr`, every other buffer as the region found it. -/
def Wexit (c : Dev nD) : Valuation τ sig (Elt F) := fun b =>
  if h : b = Proc.devRef .tc main_call0_v20 then h ▸ outArr m c else V0 m c b

/-- and after the host operations that follow. -/
def Wend (c : Dev nD) : Valuation τ sig (Elt F) := StableHlo.after (List.flatten [hostOps1]) (Wexit m c)
abbrev Vend (c : Dev nD) (b : Ref sig .tc) : Buf (Elt F) ((c : Thread nD τ).loc b) := Wend m c (Proc.devRef .tc b)

theorem Wexit_out (c : Dev nD) : Wexit m c (Proc.devRef .tc main_call0_v20) = outArr m c := by
  unfold Wexit; rw [dif_pos rfl]
theorem Wexit_of_ne (c : Dev nD) (b : Ref sig .tc) (hb : b ≠ main_call0_v20) : Wexit m c (Proc.devRef .tc b) = V m c b := by
  unfold Wexit; rw [dif_neg (StableHlo.devRef_ne_of_ne hb)]

/-- The exit contents read at a reference. -/
abbrev Wx (c : Dev nD) (b : Ref sig .tc) : Buf (Elt F) ((c : Thread nD τ).loc b) := Wexit m c (Proc.devRef .tc b)

/-- Every window's array, when the region is left, is the exit contents at its reference: an input's as found, the
    output's at `outArr`. -/
theorem arrAt_exit (c : Dev nD) (w : Fin cfg0.W) : (dats m 0 c).arrAt w cfg0.N = Wx m c (Pipeline.arrRef spec0 w) := by
  match w with
  | ⟨0, _⟩ => exact ((dats m 0 c).arrAt_in 0 rfl _).trans ((A_eq m c 0).trans (Wexit_of_ne m c _ (by decide)).symm)
  | ⟨1, _⟩ => exact ((dats m 0 c).arrAt_in 1 rfl _).trans ((A_eq m c 1).trans (Wexit_of_ne m c _ (by decide)).symm)
  | ⟨2, _⟩ => exact ((dats m 0 c).arrAt_in 2 rfl _).trans ((A_eq m c 2).trans (Wexit_of_ne m c _ (by decide)).symm)
  | ⟨3, _⟩ => exact ((dats m 0 c).arrAt_in 3 rfl _).trans ((A_eq m c 3).trans (Wexit_of_ne m c _ (by decide)).symm)
  | ⟨4, _⟩ => exact ((dats m 0 c).arrAt_in 4 rfl _).trans ((A_eq m c 4).trans (Wexit_of_ne m c _ (by decide)).symm)
  | ⟨5, _⟩ => exact (Wexit_out m c).symm

/-- The host operations after the region write no array of the pipeline. -/
theorem tail_keeps (c : Dev nD) (w : Fin cfg0.W) :
    Wend m c (Proc.devRef .tc (Pipeline.arrRef spec0 w)) = Wexit m c (Proc.devRef .tc (Pipeline.arrRef spec0 w)) := by
  unfold Wend
  refine StableHlo.after_of_forall_not_mem (b := Proc.devRef .tc (Pipeline.arrRef spec0 w)) _ _ fun op hop => ?_
  simp only [List.flatten_cons, List.flatten_nil, List.append_nil, hostOps1, List.mem_cons, List.mem_nil_iff, _root_.or_false] at hop
  rcases hop with rfl | rfl | rfl | rfl | rfl
  all_goals fin_cases w <;> simp only [StableHlo.nullary_writes, StableHlo.unary_writes, StableHlo.binary_writes, Finset.mem_singleton] <;> exact StableHlo.devRef_ne_of_ne (by decide)

set_option maxHeartbeats 4000000 in
/-- THE HOST OPERATIONS AFTER THE REGION: from the region's exit — the arrays at their final contents, the bypassing
    buffers as the region found them — they run to the arrays unchanged and the bypassing buffers at `Vend`. -/
theorem tail_run (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c (Vend m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hexit : (fun w => (dats m 0 c).arrAt w cfg0.N) = fun w => Wx m c (Pipeline.arrRef spec0 w) := funext (arrAt_exit m c)
  have hend : (fun w => (dats m 0 c).arrAt w cfg0.N) = fun w => Vend m c (Pipeline.arrRef spec0 w) :=
    funext fun w => (arrAt_exit m c w).trans (tail_keeps m c w).symm
  have hA : iprop((dats m 0 c).arrays ((dats m 0 c).arrAt · cfg0.N)
        ∗ Pipeline.unscopedRestP (Ix := Unit) (Name := ℕ) (U := UR sig nD τ) (Lvl := ℕ) Pipeline.Prefetch.none spec0 c (V m c))
      ⊢ (StableHlo.held (c.tc : Thread nD τ) (Pipeline.ucRefs τ sig) (Wexit m c) : sProp 𝕄) := by
    rw [← Pipeline.unscopedBufs_held (Ix := Unit) (Name := ℕ) (U := UR sig nD τ) (Lvl := ℕ) c (Wexit m c),
      Pipeline.unscopedBufs_split₀ cfgs 0 winFacts₀0.arr_unscoped c (Wx m c), Pipeline.unscopedRestP_none]
    refine sep_mono ?_ (Entails.of_eq ?_)
    · rw [show ((dats m 0 c).arrAt · cfg0.N) = fun w => Wx m c (Pipeline.arrRef spec0 w) from hexit]
      exact bufs_of_arrays c (dats m 0 c) rfl rfl rfl rfl rfl (Wx m c)
    · unfold Pipeline.unscopedRest
      exact bigSep_congr fun b hb =>
        congrArg (fun f : Buf (Elt F) ((c.tc : Thread nD τ).loc b) => ((c.tc : Thread nD τ).loc b ↦{fullShare} f : sProp 𝕄))
          (Wexit_of_ne m c b fun e => (Finset.mem_sdiff.mp hb).2 (Finset.mem_image.mpr ⟨5, Finset.mem_univ _, e ▸ rfl⟩)).symm
  have hC : (StableHlo.held (c.tc : Thread nD τ) (Pipeline.ucRefs τ sig) (Wend m c) : sProp 𝕄)
      ⊢ iprop((dats m 0 c).arrays ((dats m 0 c).arrAt · cfg0.N)
        ∗ Pipeline.unscopedRestP (Ix := Unit) (Name := ℕ) (U := UR sig nD τ) (Lvl := ℕ) Pipeline.Prefetch.none spec0 c (Vend m c)) := by
    rw [← Pipeline.unscopedBufs_held (Ix := Unit) (Name := ℕ) (U := UR sig nD τ) (Lvl := ℕ) c (Wend m c),
      Pipeline.unscopedBufs_split₀ cfgs 0 winFacts₀0.arr_unscoped c (Vend m c), Pipeline.unscopedRestP_none]
    refine sep_mono ?_ .rfl
    rw [show ((dats m 0 c).arrAt · cfg0.N) = fun w => Vend m c (Pipeline.arrRef spec0 w) from hend]
    exact arrays_of_bufs c (dats m 0 c) rfl rfl rfl rfl rfl (Vend m c)
  rw [← List.append_nil ([StableHlo.seq hostOps1] : List _)]
  iintro ⟨Hk, Hb, Ha, Hz⟩
  ihave Hh := hA $$ [Ha Hz]
  · isplitl [Ha]; · iexact Ha
    iexact Hz
  iapply (Pipeline.wp_seqs_then (fun q => (cfgs q).toPCfg (Val := Elt F)) defs₀ Variants.none c (Pipeline.ucRefs τ sig) [] [hostOps1]
    (fun ops ho op h => by
      simp only [List.mem_cons, List.mem_nil_iff, _root_.or_false] at ho; subst ho
      exact Pipeline.sub_ucRefs op ((List.forall_iff_forall_mem.mp hostOps1_sub) op h))
    (fun ops ho op h => by
      simp only [List.mem_cons, List.mem_nil_iff, _root_.or_false] at ho; subst ho
      exact (List.forall_iff_forall_mem.mp hostOps1_fresh) op h) (Wexit m c)) $$ [Hb Hh]
  · isplitl [Hb]; · iexact Hb
    iexact Hh
  iintro ⟨-, Hh⟩
  rw [Pipeline.chain_nil, wp_pure]
  imodintro
  iapply Hk
  iapply hC
  iexact Hh

-- the launch theorem's implicit arguments are found by unifying its conclusion with this one, which takes unfolding plain
-- definitions in a metavariable's type
set_option backward.isDefEq.respectTransparency.types false in
set_option maxHeartbeats 4000000 in
/-- THE RUN: at the compiled mesh, for any values, from any memory with zero counters, every weakly fair execution of
    @main terminates, every array of the pipeline ends at what the proof data compute and every other unscoped
    buffer at what the last host operations leave (`Vend`). -/
theorem run_main : θ_run defs (onTc (τ := τ) (main (F := F))) (s₀ m ρ) (fun r => ∀ c : Dev nD,
    (∀ w, r.2.mem ((spec0 w).arr.view.loc (c.tc : Thread nD τ)) = (dats m 0 c).arrAt w cfg0.N)
    ∧ ∀ b ∈ Pipeline.restRefsP sig Pipeline.Prefetch.none spec0, r.2.mem ((c.tc : Thread nD τ).loc b) = Vend m c b) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs c (dats m 0 c) rfl rfl rfl rfl rfl (V m c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail_run m c Q')
    (QY := fun c s => ∀ b ∈ Pipeline.restRefsP sig Pipeline.Prefetch.none spec0, s.mem ((c.tc : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m c) s')
      isplitl [HU] <;> iassumption)
    (hQ := fun s h c => ⟨(h c).1, (h c).2.2⟩)

/-- info: 'Cert.KernelIdeal.Flash.run_main' depends on axioms: [propext, Classical.choice, Quot.sound] -/
#guard_msgs in #print axioms run_main

end Cert.KernelIdeal.Flash

end
-- ==== Proof.KiArgs.lean ====
/-
  The frame of the streaming kernel's program: no host operation, before or after the region, writes an argument
  array, and the region stages none of them, so each ends as it was launched.
-/
import proofs.«129704_j5781025981007_2_alg».proof.Proof.KiLaunch

set_option maxRecDepth 16384

noncomputable section

namespace Cert.KernelIdeal.Flash

open Cert.KernelIdeal Cert.KernelIdeal.Gen
open Idealize.ShloMosaic Idealize.ShloMosaic.TcCoe Idealize.ShloMosaic.StableHlo
open Idealize.SL Idealize.SL.Sem

variable {F : FTy → Type} [FloatOps F] [Named F]
variable (m : (ℓ : Loc nD τ sig) → Buf (Elt F) ℓ) (ρ : Dev nD → PrngReg)

theorem Vend_arg0 (c : Dev nD) : Vend m c main_arg0 = m ((c.tc : Thread nD τ).loc main_arg0) := by
  show Wend m c (Proc.devRef .tc main_arg0) = _
  unfold Wend
  simp only [List.flatten_cons, List.flatten_nil, List.append_nil]
  dsimp only [hostOps1]
  after_results
  rw [Wexit_of_ne m c main_arg0 (by decide)]
  dsimp only [V, V0]; simp only [List.flatten_cons, List.flatten_nil, List.append_nil]; dsimp only [hostOps0]; after_results
theorem Vend_arg1 (c : Dev nD) : Vend m c main_arg1 = m ((c.tc : Thread nD τ).loc main_arg1) := by
  show Wend m c (Proc.devRef .tc main_arg1) = _
  unfold Wend
  simp only [List.flatten_cons, List.flatten_nil, List.append_nil]
  dsimp only [hostOps1]
  after_results
  rw [Wexit_of_ne m c main_arg1 (by decide)]
  dsimp only [V, V0]; simp only [List.flatten_cons, List.flatten_nil, List.append_nil]; dsimp only [hostOps0]; after_results
theorem Vend_arg2 (c : Dev nD) : Vend m c main_arg2 = m ((c.tc : Thread nD τ).loc main_arg2) := by
  show Wend m c (Proc.devRef .tc main_arg2) = _
  unfold Wend
  simp only [List.flatten_cons, List.flatten_nil, List.append_nil]
  dsimp only [hostOps1]
  after_results
  rw [Wexit_of_ne m c main_arg2 (by decide)]
  dsimp only [V, V0]; simp only [List.flatten_cons, List.flatten_nil, List.append_nil]; dsimp only [hostOps0]; after_results

/-- THE FRAME: every weakly fair execution terminates, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_arg0 (by decide)).trans (Vend_arg0 m c), ((h c).2 main_arg1 (by decide)).trans (Vend_arg1 m c),
      ((h c).2 main_arg2 (by decide)).trans (Vend_arg2 m c)⟩) (run_main m ρ)

end Cert.KernelIdeal.Flash

end
-- ==== Proof.RefValue.lean ====
/-
The reference's result in closed form.

For two arrays x0, x1 of 8192 rows and 512 columns and 8192 labels x2 the reference computes, with every row first
divided by its Euclidean norm (clamped below by a tiny word):

  f i j = Σ_k a i k · a j k        (a the normalised x0)      the data-to-data products
  e i j = Σ_k a i k · b j k        (b the normalised x1)      the data-to-label products
  off i k  the k-th column other than i (the columns in order with i left out: `Fin.succAbove i k`)
  Mf i = max_k f i (off i k),   lf i k = exp ((f i (off i k) − Mf i) / T)
  Me i = max_j e i j,           le i j = exp ((e i j − Me i) / T)
  same i j = 1 if the labels of i and j agree, else 0
  num i = Σ_j same i j · le i j + Σ_k same i (off i k) · lf i k
  den i = Σ_j le i j + Σ_k lf i k
  result = −(Σ_i log (num i / den i)) / 8192

over the extended reals, each sum starting from the zero word and each literal kept as its word. This module states that
formula (`RefSpec`) and proves that the last stage of the reference, read at its one index, is it (`ref_value`): the
stages are read one operation at a time, outermost first; a take_along_axis is read by showing that its indices, the
off-diagonal columns, are in range, so that its gather reads the operand at (i, off i k) and its fill is never chosen.
-/
import proofs.«129704_j5781025981007_2_alg».proof.Proof.RefReadP
import Idealize.ShloMosaic.Lib.ValueIdx
import Idealize.ShloMosaic.PureOps.Ideal.Laws
import Idealize.ShloMosaic.PureOps.Reduce

noncomputable section

namespace Cert.RefValue

open Cert.ReferenceIdeal Cert.ReferenceIdeal.Gen Cert.ReferenceIdeal.ReadP Idealize.ShloMosaic Idealize.ShloMosaic.ValueIdx

/-! ## The formula -/

/-- The zero word every sum starts from. -/
abbrev Z : EReal := Ideal.ofBits .f32 0x00000000#32
/-- The temperature: the f32 word of 0.07. -/
abbrev T : EReal := Ideal.ofBits .f32 0x3D8F5C29#32

/-- A row's Euclidean norm, clamped below by the f32 word of 1e-8. -/
def rowNorm (x : S8192x512.Idx → EReal) (i : Fin 8192) : EReal :=
  max (Ideal.sqrt (Z + ∑ k : Fin 512, x (ix2 i k) * x (ix2 i k))) (Ideal.ofBits .f32 0x322BCC77#32)
/-- The array with each row divided by its clamped norm. -/
def unit (x : S8192x512.Idx → EReal) (i : Fin 8192) (k : Fin 512) : EReal := Ideal.div (x (ix2 i k)) (rowNorm x i)
/-- The products of the rows of two normalised arrays. -/
def dots (x y : S8192x512.Idx → EReal) (i j : Fin 8192) : EReal := ∑ k : Fin 512, unit x i k * unit y j k
/-- The k-th column other than i. -/
abbrev off (i : Fin 8192) (k : Fin 8191) : Fin 8192 := Fin.succAbove (n := 8191) i k
/-- 1 where two rows carry the same label, else 0. -/
def same (l : S8192.Idx → BitVec 32) (i j : Fin 8192) : EReal := if l (ix1 i) = l (ix1 j) then 1 else 0
/-- The largest data-to-data product of row i off the diagonal. -/
def Mf (x0 : S8192x512.Idx → EReal) (i : Fin 8192) : EReal :=
  (Finset.univ : Finset (Fin 8191)).fold max ⊥ (fun k => dots x0 x0 i (off i k))
/-- The shifted exponentials of row i's data-to-data products off the diagonal. -/
def lf (x0 : S8192x512.Idx → EReal) (i : Fin 8192) (k : Fin 8191) : EReal :=
  Ideal.exp (Ideal.div (dots x0 x0 i (off i k) - Mf x0 i) T)
/-- The largest data-to-label product of row i. -/
def Me (x0 x1 : S8192x512.Idx → EReal) (i : Fin 8192) : EReal :=
  (Finset.univ : Finset (Fin 8192)).fold max ⊥ (fun j => dots x0 x1 i j)
/-- The shifted exponentials of row i's data-to-label products. -/
def le (x0 x1 : S8192x512.Idx → EReal) (i j : Fin 8192) : EReal :=
  Ideal.exp (Ideal.div (dots x0 x1 i j - Me x0 x1 i) T)
/-- Row i's numerator: the exponentials at the columns with row i's label. -/
def num (x0 x1 : S8192x512.Idx → EReal) (x2 : S8192.Idx → BitVec 32) (i : Fin 8192) : EReal :=
  (Z + ∑ j : Fin 8192, same x2 i j * le x0 x1 i j) + (Z + ∑ k : Fin 8191, same x2 i (off i k) * lf x0 i k)
/-- Row i's denominator: all the exponentials. -/
def den (x0 x1 : S8192x512.Idx → EReal) (i : Fin 8192) : EReal :=
  (Z + ∑ j : Fin 8192, le x0 x1 i j) + (Z + ∑ k : Fin 8191, lf x0 i k)
/-- The reference's result: minus the mean of the logarithms of the rows' quotients. -/
def RefSpec (x0 x1 : S8192x512.Idx → EReal) (x2 : S8192.Idx → BitVec 32) : EReal :=
  -(Ideal.div (Z + ∑ i : Fin 8192, Ideal.log (Ideal.div (num x0 x1 x2 i) (den x0 x1 i))) (Ideal.ofBits .f32 0x46000000#32))

/-! ## Indices -/

/-- Two rank-2 indices with the same coordinates are equal. -/
theorem idx2_ext {n0 n1 : Nat} {u v : (⟨2, ![n0, n1]⟩ : Shape).Idx} (h0 : u 0 = v 0) (h1 : u 1 = v 1) : u = v := by
  funext a; match a with | ⟨0, _⟩ => exact h0 | ⟨1, _⟩ => exact h1

/-- A sum over the rank-1 indices is the sum over the coordinate. -/
theorem sum_idx1 {M : Type*} [AddCommMonoid M] {n : Nat} (f : (⟨1, ![n]⟩ : Shape).Idx → M) :
    ∑ j, f j = ∑ a : Fin n, f (ix1 a) :=
  Fintype.sum_equiv ⟨fun j => j 0, ix1, fun j => (eq_ix1 j).symm, fun _ => rfl⟩ f (fun a => f (ix1 a))
    (fun j => congrArg f (eq_ix1 j))

/-! ## The normalised rows -/

theorem v1_at (x0 : S8192x512.Idx → EReal) (j : S8192.Idx) :
    val_main_v1 (F := Ideal) x0 j = Z + ∑ k : Fin 512, x0 (ix2 (j 0) k) * x0 (ix2 (j 0) k) := by
  rw [val_main_v1_apply]
  refine congrArg₂ (· + ·) rfl (Finset.sum_congr rfl fun k _ => ?_)
  rw [val_main_v0_apply, show idx_main_v1 j k = ix2 (j 0) k from idx2_ext rfl rfl]
  rfl

theorem v5_at (x0 : S8192x512.Idx → EReal) (j : S8192x1.Idx) :
    val_main_v5 (F := Ideal) x0 j = rowNorm x0 (j 0) := by
  rw [val_main_v5_apply, val_main_v3_apply, val_main_v2_apply, v1_at, val_main_v4_apply, val_main_cst_0_apply]
  rfl

theorem v7_at (x0 : S8192x512.Idx → EReal) (j : S8192x512.Idx) :
    val_main_v7 (F := Ideal) x0 j = unit x0 (j 0) (j 1) := by
  rw [val_main_v7_apply, val_main_v6_apply, v5_at]
  exact congrArg (fun t => Ideal.div (x0 t) (rowNorm x0 (j 0))) (eq_ix2 j)

theorem v9_at (x1 : S8192x512.Idx → EReal) (j : S8192.Idx) :
    val_main_v9 (F := Ideal) x1 j = Z + ∑ k : Fin 512, x1 (ix2 (j 0) k) * x1 (ix2 (j 0) k) := by
  rw [val_main_v9_apply]
  refine congrArg₂ (· + ·) rfl (Finset.sum_congr rfl fun k _ => ?_)
  rw [val_main_v8_apply, show idx_main_v9 j k = ix2 (j 0) k from idx2_ext rfl rfl]
  rfl

theorem v13_at (x1 : S8192x512.Idx → EReal) (j : S8192x1.Idx) :
    val_main_v13 (F := Ideal) x1 j = rowNorm x1 (j 0) := by
  rw [val_main_v13_apply, val_main_v11_apply, val_main_v10_apply, v9_at, val_main_v12_apply, val_main_cst_2_apply]
  rfl

theorem v15_at (x1 : S8192x512.Idx → EReal) (j : S8192x512.Idx) :
    val_main_v15 (F := Ideal) x1 j = unit x1 (j 0) (j 1) := by
  rw [val_main_v15_apply, val_main_v14_apply, v13_at]
  exact congrArg (fun t => Ideal.div (x1 t) (rowNorm x1 (j 0))) (eq_ix2 j)

/-! ## The two families of products -/

theorem v27_at (x0 : S8192x512.Idx → EReal) (j : S8192x8192.Idx) :
    val_main_v27 (F := Ideal) x0 j = dots x0 x0 (j 0) (j 1) := by
  rw [val_main_v27_apply]
  refine Finset.sum_congr rfl fun k _ => ?_
  rw [val_main_v26_apply, v7_at, v7_at]
  rfl

theorem v44_at (x0 x1 : S8192x512.Idx → EReal) (j : S8192x8192.Idx) :
    val_main_v44 (F := Ideal) x0 x1 j = dots x0 x1 (j 0) (j 1) := by
  rw [val_main_v44_apply]
  refine Finset.sum_congr rfl fun k _ => ?_
  rw [val_main_v43_apply, v7_at, v15_at]
  rfl

/-- The label-equality mask. -/
theorem v41_at (x2 : S8192.Idx → BitVec 32) (j : S8192x8192.Idx) :
    val_main_v41 (F := Ideal) x2 j = same x2 (j 0) (j 1) := by
  rw [val_main_v41_apply, val_main_v40_apply, val_main_v38_apply, val_main_v36_apply, val_main_v39_apply, val_main_v37_apply]
  rw [show idx_main_v36 (idx_main_v38 j) = ix1 (j 0) from funext fun a => by match a with | ⟨0, _⟩ => rfl,
    show idx_main_v37 (idx_main_v39 j) = ix1 (j 1) from funext fun a => by match a with | ⟨0, _⟩ => rfl]
  show (((IntOp.cmpi .eq (x2 (ix1 (j 0))) (x2 (ix1 (j 1)))).toNat : ℝ) : EReal) = _
  unfold same IntOp.cmpi
  simp only []
  by_cases h : x2 (ix1 (j 0)) = x2 (ix1 (j 1))
  · rw [if_pos h, h]; simp
  · rw [if_neg h]; simp [h]

/-! ## Words -/

/-- The word every maximum starts from is −∞. -/
theorem ofBits_ninf : Ideal.ofBits .f32 0xFF800000#32 = (⊥ : EReal) := by simp [Ideal.ofBits, Ideal.ieee]

/-- The zero word is 0. -/
theorem Z_eq : Z = 0 := Ideal.ofBits_zero_f32

/-- The temperature word is the rational 9395241 / 2^27. -/
theorem T_eq : T = ((9395241 / 134217728 : ℝ) : EReal) := by
  simp [Ideal.ofBits, Ideal.ieee, -EReal.coe_mul]; norm_num

/-- The word that clamps the norms from below is a positive real (11258999 / 2^50). -/
theorem eps_pos : ∃ e : ℝ, 0 < e ∧ Ideal.ofBits .f32 0x322BCC77#32 = (e : EReal) :=
  ⟨11258999 / 1125899906842624, by norm_num, by simp [Ideal.ofBits, Ideal.ieee, -EReal.coe_mul]; norm_num⟩

theorem off_val (r : Fin 8192) (k : Fin 8191) : (off r k).val = if k.val < r.val then k.val else k.val + 1 := by
  unfold off Fin.succAbove
  by_cases h : k.val < r.val
  · rw [if_pos h, if_pos (by simpa [Fin.lt_def] using h)]; rfl
  · rw [if_neg h, if_neg (by simpa [Fin.lt_def] using h)]; rfl

/-- A small natural number's word, read signed, is the number. -/
theorem toInt_small (a : Nat) (ha : a < 2 ^ 31) : (BitVec.ofNat 32 a).toInt = (a : Int) := by
  rw [BitVec.toInt_eq_toNat_cond]; simp only [BitVec.toNat_ofNat]; rw [Nat.mod_eq_of_lt (by omega)]; rw [if_pos (by omega)]

theorem sle_small (a b : Nat) (ha : a < 2 ^ 31) (hb : b < 2 ^ 31) :
    (BitVec.ofNat 32 a).sle (BitVec.ofNat 32 b) = decide (a ≤ b) := by
  unfold BitVec.sle; rw [toInt_small a ha, toInt_small b hb]; simp

theorem slt_small (a b : Nat) (ha : a < 2 ^ 31) (hb : b < 2 ^ 31) :
    (BitVec.ofNat 32 a).slt (BitVec.ofNat 32 b) = decide (a < b) := by
  unfold BitVec.slt; rw [toInt_small a ha, toInt_small b hb]; simp

/-- The off-diagonal column as a word: k, moved up by one from the diagonal on. -/
theorem idx_word (i : Fin 8192) (k : Fin 8191) :
    IntOp.addi (BitVec.ofNat 32 k.val) ((IntOp.cmpi .sge (BitVec.ofNat 32 k.val) (BitVec.ofNat 32 i.val)).setWidth 32)
      = BitVec.ofNat 32 (off i k).val := by
  rw [off_val]
  unfold IntOp.addi IntOp.cmpi
  simp only []
  rw [sle_small i.val k.val (by omega) (by omega)]
  by_cases h : k.val < i.val
  · rw [if_pos h, decide_eq_false (by omega)]
    simp
  · rw [if_neg h, decide_eq_true (by omega)]
    apply BitVec.eq_of_toNat_eq
    simp [BitVec.toNat_add, BitVec.toNat_ofNat]

/-- A column index is not negative: take_along_axis leaves it as it is. -/
theorem norm_word (n : Nat) (hn : n < 8192) :
    Scalar.select (IntOp.cmpi .slt (BitVec.ofNat 32 n) 0#32) (IntOp.addi (BitVec.ofNat 32 n) 8192#32) (BitVec.ofNat 32 n) = BitVec.ofNat 32 n := by
  have h0 : (0#32 : BitVec 32) = BitVec.ofNat 32 0 := rfl
  unfold IntOp.cmpi
  simp only []
  rw [h0, slt_small n 0 (by omega) (by omega), decide_eq_false (by omega)]
  exact select_zero _ _

/-- A column index is in range: between 0 and 8191. -/
theorem inb_word (n : Nat) (hn : n < 8192) :
    IntOp.andi (IntOp.cmpi .sge (BitVec.ofNat 32 n) 0#32) (IntOp.cmpi .sle (BitVec.ofNat 32 n) 8191#32) = 1#1 := by
  have h0 : (0#32 : BitVec 32) = BitVec.ofNat 32 0 := rfl
  have h1 : (8191#32 : BitVec 32) = BitVec.ofNat 32 8191 := rfl
  unfold IntOp.cmpi IntOp.andi
  simp only []
  rw [h0, h1, sle_small 0 n (by omega) (by omega), sle_small n 8191 (by omega) (by omega), decide_eq_true (by omega), decide_eq_true (by omega)]
  decide

/-- Clamping a column index into [0, 8191] leaves it as it is. -/
theorem clamp_word (n : Nat) (hn : n < 8192) : min (BitVec.ofNat 32 n).toInt.toNat 8191 = n := by
  rw [toInt_small n (by omega)]; simp only [Int.toNat_natCast]; omega

/-! ## The off-diagonal index table -/

theorem v25_at (j : S8192x8191.Idx) : val_main_v25 (F := Ideal) j = BitVec.ofNat 32 (off (j 0) (j 1)).val := by
  simp only [val_main_v25_apply, val_main_v24_apply, val_main_v23_apply, val_main_v22_apply, val_main_v20_apply, val_main_v21_apply,
    val_main_v17_apply, val_main_v16_apply, val_main_v19_apply, val_main_v18_apply]
  exact idx_word (j 0) (j 1)

/-! ## take_along_axis: the indices as it normalises them, and the in-range test -/

theorem call0_v4_at (j : S8192x8191.Idx) : val_main_call0_v4 (F := Ideal) j = BitVec.ofNat 32 (off (j 0) (j 1)).val := by
  simp only [val_main_call0_v4_apply, val_main_call0_v1_apply, val_main_call0_v3_apply, val_main_call0_v0_apply, val_main_call0_c_apply,
    val_main_call0_v2_apply, val_main_call0_c_0_apply, v25_at]
  exact norm_word _ (off (j 0) (j 1)).isLt
theorem call1_v4_at (j : S8192x8191.Idx) : val_main_call1_v4 (F := Ideal) j = BitVec.ofNat 32 (off (j 0) (j 1)).val := by
  simp only [val_main_call1_v4_apply, val_main_call1_v1_apply, val_main_call1_v3_apply, val_main_call1_v0_apply, val_main_call1_c_apply,
    val_main_call1_v2_apply, val_main_call1_c_0_apply, v25_at]
  exact norm_word _ (off (j 0) (j 1)).isLt

/-- Recasting [8192, 8191] as [8192, 8191, 1] keeps the two leading coordinates. -/
theorem unit_axis_0 (j : S8192x8191x1.Idx) : (((j 0).val * 8191 + (j 1).val) * 1 + (j 2).val) / 8191 = (j 0).val := by
  have h1 : (j 1).val < 8191 := (j 1).isLt
  have h2 : (j 2).val < 1 := (j 2).isLt
  omega
theorem unit_axis_1 (j : S8192x8191x1.Idx) : (((j 0).val * 8191 + (j 1).val) * 1 + (j 2).val) % 8191 = (j 1).val := by
  have h1 : (j 1).val < 8191 := (j 1).isLt
  have h2 : (j 2).val < 1 := (j 2).isLt
  omega

theorem call0_v5_at (j : S8192x8191x1.Idx) : val_main_call0_v5 (F := Ideal) j = BitVec.ofNat 32 (off (j 0) (j 1)).val := by
  rw [val_main_call0_v5_apply, call0_v4_at,
    show idx_main_call0_v5 j 0 = j 0 from Fin.ext (unit_axis_0 j), show idx_main_call0_v5 j 1 = j 1 from Fin.ext (unit_axis_1 j)]
theorem call1_v5_at (j : S8192x8191x1.Idx) : val_main_call1_v5 (F := Ideal) j = BitVec.ofNat 32 (off (j 0) (j 1)).val := by
  rw [val_main_call1_v5_apply, call1_v4_at,
    show idx_main_call1_v5 j 0 = j 0 from Fin.ext (unit_axis_0 j), show idx_main_call1_v5 j 1 = j 1 from Fin.ext (unit_axis_1 j)]

theorem call0_v11_at (j : S8192x8191x1.Idx) : val_main_call0_v11 (F := Ideal) j = 1#1 := by
  simp only [val_main_call0_v11_apply, val_main_call0_v7_apply, val_main_call0_v10_apply, val_main_call0_v6_apply, val_main_call0_c_2_apply,
    val_main_call0_v9_apply, val_main_call0_v8_apply, val_main_call0_c_1_apply, call0_v5_at]
  exact inb_word _ (off (j 0) (j 1)).isLt
theorem call1_v11_at (j : S8192x8191x1.Idx) : val_main_call1_v11 (F := Ideal) j = 1#1 := by
  simp only [val_main_call1_v11_apply, val_main_call1_v7_apply, val_main_call1_v10_apply, val_main_call1_v6_apply, val_main_call1_c_2_apply,
    val_main_call1_v9_apply, val_main_call1_v8_apply, val_main_call1_c_1_apply, call1_v5_at]
  exact inb_word _ (off (j 0) (j 1)).isLt

/-- The conjunction over the trailing unit axis of a test that holds everywhere holds. -/
theorem all_one (x : IVec S8192x8191x1 1) (hx : ∀ j, x j = 1#1) (j : S8192x8191.Idx) :
    Host.reduce IntOp.andi x (constantI S_ 1 1#1) reducesTo_S8192x8191x1_S8192x8191_d2 h_S_ j = 1#1 := by
  have h : S8192x8191x1.Reduces [2] S8192x8191 := by decide
  rw [Host.reduce_eq_fold_single IntOp.andi x _ reducesTo_S8192x8191x1_S8192x8191_d2 h h_S_ j]
  have e : (x ∘ h.lift j) = fun _ => 1#1 := funext fun k => hx _
  rw [e]
  show (Finset.univ : Finset (Fin 1)).fold IntOp.andi 1#1 (fun _ => 1#1) = 1#1
  decide

theorem call0_v12_at (j : S8192x8191.Idx) : val_main_call0_v12 (F := Ideal) j = 1#1 :=
  all_one _ call0_v11_at j
theorem call1_v12_at (j : S8192x8191.Idx) : val_main_call1_v12 (F := Ideal) j = 1#1 :=
  all_one _ call1_v11_at j

/-! ## take_along_axis: the gather along a row -/

/-- Result element (i, k) of the gather is the operand at row i and at the column the index array names at
    (i, k, 0), read signed and clamped into [0, 8191]: the row is the batching coordinate, the column the one
    start index, and the collapsed column axis contributes no offset. -/
theorem gather_row_apply {α : Type} (x : S8192x8192.Idx → α) (idx : IVec S8192x8191x1 32) (y : S8192x8191.Idx) :
    Host.gather gather_S8192x8192_S8192x8191x1_S8192x8191_n_1_0_0_1_2_11 x idx y
      = x (ix2 (y 0) ⟨min (idx (ix3 (y 0) (y 1) 0)).toInt.toNat 8191, by omega⟩) := by
  unfold Host.gather
  congr 1
  funext a
  refine Fin.ext ?_
  match a with
  | ⟨0, _⟩ =>
    show gather_S8192x8192_S8192x8191x1_S8192x8191_n_1_0_0_1_2_11.start y idx 0
        + gather_S8192x8192_S8192x8191x1_S8192x8191_n_1_0_0_1_2_11.batchCoord y 0
        + gather_S8192x8192_S8192x8191x1_S8192x8191_n_1_0_0_1_2_11.offCoord y 0 = (y 0).val
    rw [GatherDims.start_batching _ y idx 0 (by decide), GatherDims.offCoord_eq_zero _ y 0 (by decide)]
    simp only [Nat.zero_add, Nat.add_zero]
    unfold GatherDims.batchCoord
    rw [dif_pos (by decide)]
    rfl
  | ⟨1, _⟩ =>
    show gather_S8192x8192_S8192x8191x1_S8192x8191_n_1_0_0_1_2_11.start y idx 1
        + gather_S8192x8192_S8192x8191x1_S8192x8191_n_1_0_0_1_2_11.batchCoord y 1
        + gather_S8192x8192_S8192x8191x1_S8192x8191_n_1_0_0_1_2_11.offCoord y 1 = min (idx (ix3 (y 0) (y 1) 0)).toInt.toNat 8191
    rw [GatherDims.batchCoord_eq_zero _ y 1 (by decide), GatherDims.offCoord_eq_zero _ y 1 (by decide)]
    simp only [Nat.add_zero]
    unfold GatherDims.start
    rw [dif_pos (show (1 : Fin S8192x8192.rank) ∈ gather_S8192x8192_S8192x8191x1_S8192x8191_n_1_0_0_1_2_11.startIndexMap by decide)]
    have hsi : gather_S8192x8192_S8192x8191x1_S8192x8191_n_1_0_0_1_2_11.siIdx y
        ⟨List.idxOf (1 : Fin S8192x8192.rank) gather_S8192x8192_S8192x8191x1_S8192x8191_n_1_0_0_1_2_11.startIndexMap,
          List.idxOf_lt_length_iff.2 (by decide)⟩ = ix3 (y 0) (y 1) 0 := by
      funext b; refine Fin.ext ?_
      match b with
      | ⟨0, _⟩ => rfl
      | ⟨1, _⟩ => rfl
      | ⟨2, _⟩ => rfl
    rw [hsi]
    rfl

/-- A word that is an off-diagonal column, clamped into [0, 8191], is that column. -/
theorem col_eq (w : BitVec 32) (r : Fin 8192) (k : Fin 8191) (hw : w = BitVec.ofNat 32 (off r k).val)
    (hlt : min w.toInt.toNat 8191 < 8192) : (⟨min w.toInt.toNat 8191, hlt⟩ : Fin 8192) = off r k := by
  subst hw; exact Fin.ext (clamp_word _ (off r k).isLt)

theorem v28_at (x0 : S8192x512.Idx → EReal) (j : S8192x8191.Idx) :
    val_main_v28 (F := Ideal) x0 j = dots x0 x0 (j 0) (off (j 0) (j 1)) := by
  rewrite [val_main_v28_apply, call0_v12_at, select_one]
  unfold val_main_call0_v13
  rewrite [gather_row_apply, v27_at]
  exact congrArg (dots x0 x0 (j 0)) (col_eq _ (j 0) (j 1) (call0_v5_at (ix3 (j 0) (j 1) 0)) _)

theorem v42_at (x2 : S8192.Idx → BitVec 32) (j : S8192x8191.Idx) :
    val_main_v42 (F := Ideal) x2 j = same x2 (j 0) (off (j 0) (j 1)) := by
  rewrite [val_main_v42_apply, call1_v12_at, select_one]
  unfold val_main_call1_v13
  rewrite [gather_row_apply, v41_at]
  exact congrArg (same x2 (j 0)) (col_eq _ (j 0) (j 1) (call1_v5_at (ix3 (j 0) (j 1) 0)) _)

/-! ## The row maxima and the shifted exponentials -/

/-- A row index with a column put back is (row, column). -/
theorem lift_col {n : Nat} (h : (⟨2, ![8192, n]⟩ : Shape).Reduces [1] S8192) (j : S8192.Idx)
    (k : Fin ((⟨2, ![8192, n]⟩ : Shape).size 1)) : h.lift j k = ix2 (j 0) (⟨k.val, k.isLt⟩ : Fin n) := by
  funext c; apply Fin.ext
  match c with
  | ⟨0, _⟩ => rfl
  | ⟨1, _⟩ => rfl

/-- From −∞ the host's reduce with a maximum body along a row is the row's maximum. -/
theorem max_reduce_col {n : Nat} (x : FVec Ideal ⟨2, ![8192, n]⟩ .f32) (h' : (⟨2, ![8192, n]⟩ : Shape).ReducesTo [1] S8192)
    (h : (⟨2, ![8192, n]⟩ : Shape).Reduces [1] S8192) (j : S8192.Idx) :
    Host.reduce FloatOps.maximumf x (constant S_ .f32 0xFF800000#32) h' h_S_ j
      = (Finset.univ : Finset (Fin n)).fold max ⊥ (fun k => x (ix2 (j 0) k)) := by
  rw [Host.reduce_eq_fold_single FloatOps.maximumf x _ h' h h_S_]
  have hf : (x ∘ h.lift j) = fun k : Fin n => x (ix2 (j 0) k) := funext fun k => congrArg x (lift_col h j k)
  have hb : Ideal.ofBits .f32 0xFF800000#32 = (⊥ : EReal) := ofBits_ninf
  exact (congrArg (fun f => Finset.fold max (Ideal.ofBits .f32 0xFF800000#32) f (Finset.univ : Finset (Fin n))) hf).trans
    (congrArg (fun b => Finset.fold max b (fun k : Fin n => x (ix2 (j 0) k)) (Finset.univ : Finset (Fin n))) hb)

theorem v29_at (x0 : S8192x512.Idx → EReal) (j : S8192.Idx) : val_main_v29 (F := Ideal) x0 j = Mf x0 (j 0) := by
  have h : S8192x8191.Reduces [1] S8192 := by decide
  unfold val_main_v29 val_main_cst_3
  refine (max_reduce_col (val_main_v28 (F := Ideal) x0) reducesTo_S8192x8191_S8192_d1 h j).trans ?_
  unfold Mf
  exact congrArg (fun f => (Finset.univ : Finset (Fin 8191)).fold max ⊥ f) (funext fun k => v28_at x0 (ix2 (j 0) k))

theorem v45_at (x0 x1 : S8192x512.Idx → EReal) (j : S8192.Idx) : val_main_v45 (F := Ideal) x0 x1 j = Me x0 x1 (j 0) := by
  have h : S8192x8192.Reduces [1] S8192 := by decide
  unfold val_main_v45 val_main_cst_5
  refine (max_reduce_col (val_main_v44 (F := Ideal) x0 x1) reducesTo_S8192x8192_S8192_d1 h j).trans ?_
  unfold Me
  exact congrArg (fun f => (Finset.univ : Finset (Fin 8192)).fold max ⊥ f) (funext fun k => v44_at x0 x1 (ix2 (j 0) k))

theorem v35_at (x0 : S8192x512.Idx → EReal) (j : S8192x8191.Idx) : val_main_v35 (F := Ideal) x0 j = lf x0 (j 0) (j 1) := by
  rw [val_main_v35_apply, val_main_v34_apply, val_main_v32_apply, v28_at, val_main_v31_apply, val_main_v30_apply, v29_at,
    val_main_v33_apply, val_main_cst_4_apply]
  rfl

theorem v51_at (x0 x1 : S8192x512.Idx → EReal) (j : S8192x8192.Idx) : val_main_v51 (F := Ideal) x0 x1 j = le x0 x1 (j 0) (j 1) := by
  rw [val_main_v51_apply, val_main_v50_apply, val_main_v48_apply, v44_at, val_main_v47_apply, val_main_v46_apply, v45_at,
    val_main_v49_apply, val_main_cst_6_apply]
  rfl

/-! ## The row sums, the quotient, and the mean -/

theorem v56_at (x0 x1 : S8192x512.Idx → EReal) (x2 : S8192.Idx → BitVec 32) (j : S8192.Idx) :
    val_main_v56 (F := Ideal) x0 x1 x2 j = num x0 x1 x2 (j 0) := by
  rw [val_main_v56_apply, val_main_v53_apply, val_main_v55_apply]
  unfold num
  refine congrArg₂ (· + ·) (congrArg₂ (· + ·) rfl (Finset.sum_congr rfl fun k _ => ?_))
    (congrArg₂ (· + ·) rfl (Finset.sum_congr rfl fun k _ => ?_))
  · rw [val_main_v52_apply, v41_at, v51_at]; rfl
  · rw [val_main_v54_apply, v42_at, v35_at]; rfl

theorem v59_at (x0 x1 : S8192x512.Idx → EReal) (j : S8192.Idx) :
    val_main_v59 (F := Ideal) x0 x1 j = den x0 x1 (j 0) := by
  rw [val_main_v59_apply, val_main_v57_apply, val_main_v58_apply]
  unfold den
  refine congrArg₂ (· + ·) (congrArg₂ (· + ·) rfl (Finset.sum_congr rfl fun k _ => ?_))
    (congrArg₂ (· + ·) rfl (Finset.sum_congr rfl fun k _ => ?_))
  · rw [v51_at]; rfl
  · rw [v35_at]; rfl

/-- The reference's last stage, at its one index, is the formula. -/
theorem ref_value (x0 x1 : S8192x512.Idx → EReal) (x2 : S8192.Idx → BitVec 32) :
    val_main_v64 (F := Ideal) x0 x1 x2 ix0 = RefSpec x0 x1 x2 := by
  rw [val_main_v64_apply, val_main_v63_apply, val_main_v62_apply, val_main_cst_12_apply, sum_idx1]
  unfold RefSpec
  refine congrArg (fun s => -(Ideal.div (Z + s) (Ideal.ofBits .f32 0x46000000#32))) (Finset.sum_congr rfl fun a _ => ?_)
  rw [val_main_v61_apply, val_main_v60_apply, v56_at, v59_at]
  rfl

end Cert.RefValue

end
-- ==== Proof.KiTail.lean ====
/-
  The host operations after the region, read at the result's one index.

  When the region is left the output array holds one number per row. The five host operations that follow add the
  8192 numbers up from the zero word, divide the sum by the word of 8192.0 and negate the quotient. Read over the
  extended reals at the result's one index this is minus (zero word + Σ_R out[R, 0]) / 8192.0: a host sum into the
  scalar shape is the initial value plus the sum over every index of its operand, and the indices of an [8192, 1]
  array are its 8192 rows.
-/
import proofs.«129704_j5781025981007_2_alg».proof.Proof.KiArgs
import proofs.«129704_j5781025981007_2_alg».proof.Proof.RefValue
import Idealize.ShloMosaic.Lib.ValueIdx
import Idealize.ShloMosaic.PureOps.Ideal.Laws
import Idealize.ShloMosaic.Lib.StableHlo.Run

set_option maxRecDepth 16384

noncomputable section

namespace Cert.KernelIdeal.Flash

open Cert.KernelIdeal Cert.KernelIdeal.Gen
open Idealize.ShloMosaic Idealize.ShloMosaic.TcCoe Idealize.ShloMosaic.StableHlo Idealize.ShloMosaic.ValueIdx
open Idealize.SL Idealize.SL.Sem

/-! ### Operations over typed references at literal buffers

Inside a called function an operation is stated over typed references, and moves contents between the value's type and
the buffer's type along their equality; where the value's type IS the buffer's type that move is the identity, and the
operation's result is its function applied to its operands' contents. -/

section TypedRefs
variable {F : FTy → Type} [FloatOps F]

theorem tnullary_result (y : Ref sig .tc) (hd hs) (v : y.ty.Contents (Elt F)) (W : Valuation τ sig (Elt F)) :
    (TRef.nullary (τ := τ) (TRef.of (T := y.ty) y rfl hd hs) v).result W (no_index (Proc.devRef .tc y)) = v :=
  nullary_result y v _ W
theorem tunary_result (x y : Ref sig .tc) (hxd hxs hyd hys) (f : x.ty.Contents (Elt F) → y.ty.Contents (Elt F))
    (W : Valuation τ sig (Elt F)) :
    (TRef.unary (τ := τ) (TRef.of (T := x.ty) x rfl hxd hxs) (TRef.of (T := y.ty) y rfl hyd hys) f).result W
        (no_index (Proc.devRef .tc y)) = f (W (Proc.devRef .tc x)) :=
  unary_result x y _ _ _ W
theorem tbinary_result (a b y : Ref sig .tc) (had has hbd hbs hyd hys)
    (f : a.ty.Contents (Elt F) → b.ty.Contents (Elt F) → y.ty.Contents (Elt F)) (W : Valuation τ sig (Elt F)) :
    (TRef.binary (τ := τ) (TRef.of (T := a.ty) a rfl had has) (TRef.of (T := b.ty) b rfl hbd hbs)
        (TRef.of (T := y.ty) y rfl hyd hys) f).result W (no_index (Proc.devRef .tc y))
      = f (W (Proc.devRef .tc a)) (W (Proc.devRef .tc b)) :=
  binary_result a b y _ _ _ _ W

end TypedRefs

variable (m : (ℓ : Loc nD τ sig) → Buf (Elt Ideal) ℓ)

/-- The result buffer after the five host operations: the negated quotient of the output array's sum. -/
theorem Vend_main_v0 (c : Dev nD) :
    Vend m c main_v0 = Host.negf (Host.divf (Host.reduceAdd (F := Ideal) (outArr m c) (constant S_ .f32 0x00000000#32)
        reducesTo_S8192x1_S_d0_1 h_S_) (constant S_ .f32 0x46000000#32)) := by
  show Wend m c (Proc.devRef .tc main_v0) = _
  unfold Wend
  simp only [List.flatten_cons, List.flatten_nil, List.append_nil]
  dsimp only [hostOps1]
  simp (disch := decide) only [after_cons, after_nil, tnullary_result, tunary_result, tbinary_result,
    nullary_result_ne', unary_result_ne', binary_result_ne']
  rw [Wexit_out]
  rfl

/-- A host sum of an [8192, 1] array into the scalar shape, from the zero word: the zero word plus the sum over the rows. -/
theorem sum_rows (y : S8192x1.Idx → EReal) (i : S_.Idx) :
    Host.reduceAdd (F := Ideal) (φ := .f32) y (constant S_ .f32 0x00000000#32) reducesTo_S8192x1_S_d0_1 h_S_ i
      = Cert.RefValue.Z + ∑ R : Fin 8192, y (ix2 R (0 : Fin 1)) := by
  simp only [Host.reduceAdd, Ideal.hostReduceAdd_def]
  rw [Ideal.hostReduceAdd_total reducesTo_S8192x1_S_d0_1 (fun b => b.elim0) y _ i, sum_idx2]
  refine congrArg₂ (· + ·) rfl (Finset.sum_congr rfl fun R _ => ?_)
  exact Fin.sum_univ_one _

/-- The result at its one index: minus the sum of the output array's rows, from the zero word, over the word of 8192.0. -/
theorem Vend_out (c : Dev nD) (O : S8192x1.Idx → EReal) (hO : (outArr m c : S8192x1.Idx → EReal) = O) :
    (Vend m c main_v0 : S_.Idx → EReal) ix0
      = -(Ideal.div (Cert.RefValue.Z + ∑ R : Fin 8192, O (ix2 R (0 : Fin 1))) (Ideal.ofBits .f32 0x46000000#32)) := by
  rw [Vend_main_v0]
  show -(Ideal.div (Host.reduceAdd (F := Ideal) (φ := .f32) (outArr m c : S8192x1.Idx → EReal) (constant S_ .f32 0x00000000#32)
      reducesTo_S8192x1_S_d0_1 h_S_ ix0) (Ideal.ofBits .f32 0x46000000#32)) = _
  rw [sum_rows, hO]

end Cert.KernelIdeal.Flash

end
-- ==== Proof.KiBlocks.lean ====
import proofs.«129704_j5781025981007_2_alg».proof.Proof.KiFrame
import Idealize.ShloMosaic.Lib.Pipeline.Value
import Idealize.ShloMosaic.Lib.ValueIdx

/-!
  Blocks of the region's arrays, and the cover of the output array.

  The grid has 8 × 16 points; point t works on row block t / 16 and column block t % 16.  Each
  window's block at a point, read at an index inside the block, is the window's array at the
  block's offset plus that index.  The output window's blocks are the 8 row blocks of 1024 rows;
  they are written back at the last column block of each row block, and together they cover the
  output array.
-/
set_option maxRecDepth 16384
noncomputable section
namespace Cert.KernelIdeal.Flash
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
variable {F : FTy → Type} [FloatOps F] [Named F]
variable (m : (ℓ : Loc nD τ sig) → Buf (Elt F) ℓ)

theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = 0
    ∧ win0_4.index t (0 : Fin 2) = 0 ∧ win0_4.index t (1 : Fin 2) = t.val % 16
    ∧ win0_5.index t (0 : Fin 2) = t.val / 16 ∧ win0_5.index t (1 : Fin 2) = 0 :=
  (by decide +kernel : ∀ t : Fin grid0.N, _)

theorem iblk0_apply (c : Dev nD) (t : Fin cfg0.N) (r : Fin 1024) (k : Fin 512) (hR : 1024 * (t.val / 16) + r.val < 8192) :
    iblk m c 0 t (ix2 r k) = V m c main_call0_v16 (ix2 ⟨1024 * (t.val / 16) + r.val, hR⟩ k) := by
  unfold iblk
  show V m c main_call0_v16 (((cfg0.win 0).blk t).view.emb (ix2 r k)) = _
  refine congrArg _ (funext fun a => Fin.ext ?_)
  obtain ⟨h00, h01, -⟩ := idx_facts t
  match a with
  | ⟨0, _⟩ =>
    show win0_0.index t 0 * 1024 + 1 * r.val = _
    rw [h00]; show _ = 1024 * (t.val / 16) + r.val; omega
  | ⟨1, _⟩ =>
    show win0_0.index t 1 * 512 + 1 * k.val = _
    rw [h01]; show _ = k.val; omega

/-- Window 1's block (a column block of the first embedding array) read at an index. -/
theorem iblk1_apply (c : Dev nD) (t : Fin cfg0.N) (q : Fin 512) (k : Fin 512) (h : 512 * (t.val % 16) + q.val < 8192) :
    iblk m c 1 t (ix2 q k) = V m c main_call0_v16 (ix2 ⟨512 * (t.val % 16) + q.val, h⟩ k) := by
  unfold iblk
  show V m c main_call0_v16 (((cfg0.win 1).blk t).view.emb (ix2 q k)) = _
  refine congrArg _ (funext fun a => Fin.ext ?_)
  obtain ⟨-, -, h10, h11, -⟩ := idx_facts t
  match a with
  | ⟨0, _⟩ =>
    show win0_1.index t 0 * 512 + 1 * q.val = _
    rw [h10]; show _ = 512 * (t.val % 16) + q.val; omega
  | ⟨1, _⟩ =>
    show win0_1.index t 1 * 512 + 1 * k.val = _
    rw [h11]; show _ = k.val; omega

/-- Window 2's block (a column block of the second embedding array) read at an index. -/
theorem iblk2_apply (c : Dev nD) (t : Fin cfg0.N) (q : Fin 512) (k : Fin 512) (h : 512 * (t.val % 16) + q.val < 8192) :
    iblk m c 2 t (ix2 q k) = V m c main_call0_v17 (ix2 ⟨512 * (t.val % 16) + q.val, h⟩ k) := by
  unfold iblk
  show V m c main_call0_v17 (((cfg0.win 2).blk t).view.emb (ix2 q k)) = _
  refine congrArg _ (funext fun a => Fin.ext ?_)
  obtain ⟨-, -, -, -, h20, h21, -⟩ := idx_facts t
  match a with
  | ⟨0, _⟩ =>
    show win0_2.index t 0 * 512 + 1 * q.val = _
    rw [h20]; show _ = 512 * (t.val % 16) + q.val; omega
  | ⟨1, _⟩ =>
    show win0_2.index t 1 * 512 + 1 * k.val = _
    rw [h21]; show _ = k.val; omega

/-- Window 3's block (a row block of the label column) read at an index. -/
theorem iblk3_apply (c : Dev nD) (t : Fin cfg0.N) (r : Fin 1024) (h : 1024 * (t.val / 16) + r.val < 8192) :
    iblk m c 3 t (ix2 r (0 : Fin 1)) = V m c main_call0_v18 (ix2 ⟨1024 * (t.val / 16) + r.val, h⟩ (0 : Fin 1)) := by
  unfold iblk
  show V m c main_call0_v18 (((cfg0.win 3).blk t).view.emb (ix2 r (0 : Fin 1))) = _
  refine congrArg _ (funext fun a => Fin.ext ?_)
  obtain ⟨-, -, -, -, -, -, h30, h31, -⟩ := idx_facts t
  match a with
  | ⟨0, _⟩ =>
    show win0_3.index t 0 * 1024 + 1 * r.val = _
    rw [h30]; show _ = 1024 * (t.val / 16) + r.val; omega
  | ⟨1, _⟩ =>
    show win0_3.index t 1 * 1 + 1 * 0 = _
    rw [h31]; rfl

/-- Window 4's block (a column block of the label row) read at an index. -/
theorem iblk4_apply (c : Dev nD) (t : Fin cfg0.N) (q : Fin 512) (h : 512 * (t.val % 16) + q.val < 8192) :
    iblk m c 4 t (ix2 (0 : Fin 1) q) = V m c main_call0_v19 (ix2 (0 : Fin 1) ⟨512 * (t.val % 16) + q.val, h⟩) := by
  unfold iblk
  show V m c main_call0_v19 (((cfg0.win 4).blk t).view.emb (ix2 (0 : Fin 1) q)) = _
  refine congrArg _ (funext fun a => Fin.ext ?_)
  obtain ⟨-, -, -, -, -, -, -, -, h40, h41, -⟩ := idx_facts t
  match a with
  | ⟨0, _⟩ =>
    show win0_4.index t 0 * 1 + 1 * 0 = _
    rw [h40]; rfl
  | ⟨1, _⟩ =>
    show win0_4.index t 1 * 512 + 1 * q.val = _
    rw [h41]; show _ = 512 * (t.val % 16) + q.val; omega

/-- The grid coordinates of point t: its row block and its column block. -/
theorem coords_facts : ∀ t : Fin cfg0.N,
    (grid0.coords t (0 : Fin 2)).val = t.val / 16 ∧ (grid0.coords t (1 : Fin 2)).val = t.val % 16 :=
  (by decide +kernel : ∀ t : Fin grid0.N, _)

/-- An index of the output array is in point t's block exactly when its row is among the block's 1024 rows. -/
theorem mem_blk5 (t : Fin cfg0.N) (i : S8192x1.Idx) :
    i ∈ ((cfg0.win 5).blk t).view.set ↔ 1024 * (t.val / 16) ≤ (i 0).val ∧ (i 0).val < 1024 * (t.val / 16) + 1024 := by
  show i ∈ ((View.whole main_call0_v20).slice (win0_5.rect t)).set ↔ _
  rw [View.set_slice_whole, Rect.mem_set_unit]
  obtain ⟨-, -, -, -, -, -, -, -, -, -, h50, h51⟩ := idx_facts t
  have h1 : (i 1 : Nat) < 1 := (i 1).isLt
  constructor
  · intro h
    have h0 := h 0
    change win0_5.index t 0 * 1024 ≤ (i 0 : Nat) ∧ (i 0 : Nat) < win0_5.index t 0 * 1024 + 1024 at h0
    rw [h50] at h0
    omega
  · intro h a
    match a with
    | ⟨0, _⟩ =>
      change win0_5.index t 0 * 1024 ≤ (i 0 : Nat) ∧ (i 0 : Nat) < win0_5.index t 0 * 1024 + 1024
      rw [h50]; omega
    | ⟨1, _⟩ =>
      change win0_5.index t 1 * 1 ≤ (i 1 : Nat) ∧ (i 1 : Nat) < win0_5.index t 1 * 1 + 1
      rw [h51]; omega

/-- Every index of the output array is in the block of a point that writes its block back: the last
    column block of the index's row block. -/
theorem cover5 : ∀ i : S8192x1.Idx,
    ∃ t : Fin cfg0.N, (cfg0.win 5).flush t = true ∧ i ∈ ((cfg0.win 5).blk t).view.set := by
  intro i
  have hi : (i 0 : Nat) < 8192 := (i 0).isLt
  refine ⟨⟨16 * ((i 0).val / 1024) + 15, by rw [show cfg0.N = 128 from N_0]; omega⟩, ?_, ?_⟩
  · rw [flush0_5]
    show (16 * ((i 0).val / 1024) + 15) % 16 = 15
    omega
  · rw [mem_blk5]
    show 1024 * ((16 * ((i 0).val / 1024) + 15) / 16) ≤ (i 0).val
      ∧ (i 0).val < 1024 * ((16 * ((i 0).val / 1024) + 15) / 16) + 1024
    omega

/-- The output block's index r, as an index of the output array: row r of row block t / 16. -/
theorem emb5 (t : Fin cfg0.N) (r : Fin 1024) (h : 1024 * (t.val / 16) + r.val < 8192) :
    ((cfg0.win 5).blk t).view.emb (ix2 r (0 : Fin 1)) = ix2 ⟨1024 * (t.val / 16) + r.val, h⟩ (0 : Fin 1) := by
  refine funext fun a => Fin.ext ?_
  obtain ⟨-, -, -, -, -, -, -, -, -, -, h50, h51⟩ := idx_facts t
  match a with
  | ⟨0, _⟩ =>
    show win0_5.index t 0 * 1024 + 1 * r.val = _
    rw [h50]; show _ = 1024 * (t.val / 16) + r.val; omega
  | ⟨1, _⟩ =>
    show win0_5.index t 1 * 1 + 1 * 0 = _
    rw [h51]; rfl

end Cert.KernelIdeal.Flash
end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.KiHost.lean ====
import proofs.«129704_j5781025981007_2_alg».proof.Proof.KiFrame
import proofs.«129704_j5781025981007_2_alg».proof.Proof.RefValue
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import proofs.«129704_j5781025981007_2_alg».proof.Proof.LibKeepdimsColumn

/-!
  The arrays the kernel's region finds, read at an index over the extended reals.

  Before the region the host normalises the two embedding arrays (each row divided by its Euclidean
  norm, clamped below by a tiny word), narrows them (no change over the extended reals) and recasts
  the label array as a column and as a row.  No host operation writes an argument array.
-/

open Idealize.ShloMosaic Idealize.ShloMosaic.TcCoe Idealize.ShloMosaic.ValueIdx Idealize.ShloMosaic.StableHlo Idealize.SL.Sem

noncomputable section

namespace Cert.KernelIdeal.Host

open Cert.KernelIdeal Cert.KernelIdeal.Gen Cert.KernelIdeal.Flash

variable (m : (ℓ : Loc nD τ sig) → Buf (Elt Ideal) ℓ)

/-! ### Each array as the host operations' term -/

/-- The first embedding array as the region finds it: the normalisation of the first argument
    (the narrowing that follows is the identity over the extended reals). -/
theorem V_v16_eq (c : Dev nD) :
    (V m c main_call0_v16 : S8192x512.Idx → EReal)
      = Cert.ReferenceIdeal.ReadP.val_main_v7 (F := Ideal) (m ((c.tc : Thread nD τ).loc main_arg0)) := by
  dsimp only [V, V0]
  simp only [List.flatten_cons, List.flatten_nil, List.append_nil]
  after_results
  rfl

/-- The second embedding array as the region finds it: the normalisation of the second argument. -/
theorem V_v17_eq (c : Dev nD) :
    (V m c main_call0_v17 : S8192x512.Idx → EReal)
      = Cert.ReferenceIdeal.ReadP.val_main_v15 (F := Ideal) (m ((c.tc : Thread nD τ).loc main_arg1)) := by
  dsimp only [V, V0]
  simp only [List.flatten_cons, List.flatten_nil, List.append_nil]
  after_results
  rfl

/-- The label column as the region finds it: the label array recast to one column. -/
theorem V_v18_eq (c : Dev nD) :
    (V m c main_call0_v18 : S8192x1.Idx → BitVec 32)
      = shapeCast S8192x1 (m ((c.tc : Thread nD τ).loc main_arg2) : S8192.Idx → BitVec 32)
          Facts₀.shapeCasts_S8192_S8192x1 := by
  dsimp only [V, V0]
  simp only [List.flatten_cons, List.flatten_nil, List.append_nil]
  after_results
  rfl

/-- The label row as the region finds it: the label array recast to one row. -/
theorem V_v19_eq (c : Dev nD) :
    (V m c main_call0_v19 : S1x8192.Idx → BitVec 32)
      = shapeCast S1x8192 (m ((c.tc : Thread nD τ).loc main_arg2) : S8192.Idx → BitVec 32)
          Facts₀.shapeCasts_S8192_S1x8192 := by
  dsimp only [V, V0]
  simp only [List.flatten_cons, List.flatten_nil, List.append_nil]
  after_results
  rfl

/-- No host operation writes the first argument array. -/
theorem V_arg0 (c : Dev nD) : V m c main_arg0 = m ((c.tc : Thread nD τ).loc main_arg0) := by
  dsimp only [V, V0]
  simp only [List.flatten_cons, List.flatten_nil, List.append_nil]
  after_results

/-- No host operation writes the second argument array. -/
theorem V_arg1 (c : Dev nD) : V m c main_arg1 = m ((c.tc : Thread nD τ).loc main_arg1) := by
  dsimp only [V, V0]
  simp only [List.flatten_cons, List.flatten_nil, List.append_nil]
  after_results

/-- No host operation writes the label array. -/
theorem V_arg2 (c : Dev nD) : V m c main_arg2 = m ((c.tc : Thread nD τ).loc main_arg2) := by
  dsimp only [V, V0]
  simp only [List.flatten_cons, List.flatten_nil, List.append_nil]
  after_results

/-! ### Read at an index -/

/-- Row R, column k of the first embedding array: the argument's entry divided by its row's clamped norm. -/
theorem V_v16_apply (c : Dev nD) (R : Fin 8192) (k : Fin 512) :
    (V m c main_call0_v16 : S8192x512.Idx → EReal) (ix2 R k)
      = Cert.RefValue.unit (m ((c.tc : Thread nD τ).loc main_arg0)) R k :=
  (congrFun (V_v16_eq m c) (ix2 R k)).trans (Cert.RefValue.v7_at _ (ix2 R k))

/-- Row R, column k of the second embedding array. -/
theorem V_v17_apply (c : Dev nD) (R : Fin 8192) (k : Fin 512) :
    (V m c main_call0_v17 : S8192x512.Idx → EReal) (ix2 R k)
      = Cert.RefValue.unit (m ((c.tc : Thread nD τ).loc main_arg1)) R k :=
  (congrFun (V_v17_eq m c) (ix2 R k)).trans (Cert.RefValue.v15_at _ (ix2 R k))

/-- The label column at row R is the label of R. -/
theorem V_v18_apply (c : Dev nD) (R : Fin 8192) :
    (V m c main_call0_v18 : S8192x1.Idx → BitVec 32) (ix2 R (0 : Fin 1))
      = (m ((c.tc : Thread nD τ).loc main_arg2) : S8192.Idx → BitVec 32) (ix1 R) := by
  rw [V_v18_eq]
  exact Cert.Gcn.Lib.shapeCast_a_a1_apply _ _ R 0

/-- The label row at column C is the label of C. -/
theorem V_v19_apply (c : Dev nD) (C : Fin 8192) :
    (V m c main_call0_v19 : S1x8192.Idx → BitVec 32) (ix2 (0 : Fin 1) C)
      = (m ((c.tc : Thread nD τ).loc main_arg2) : S8192.Idx → BitVec 32) (ix1 C) := by
  rw [V_v19_eq]
  exact shapeCast_a_1a_apply _ _ 0 C

end Cert.KernelIdeal.Host
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.LibRowMax.lean ====
/-
  A row maximum taken from `-∞`, read at an index, on the extended reals.

  The maximum along the second axis of an `[n, b]` array at row `p` is the fold of `max`, from the value of the pattern
  `0xFF800000` (`-∞`), over the `b` entries of that row — for a kernel's `vector.multi_reduction <maximumf>` with that
  accumulator and for the host's `stablehlo.reduce` with a maximum body from that initial value alike. The reduced
  index `p` with column `k` put back is `(p, k)`.
-/
import Idealize.ShloMosaic.Lib.ValueIdx
import Idealize.ShloMosaic.PureOps.Ideal.Laws

noncomputable section

namespace Cert.Lib.RowMax

open Idealize.ShloMosaic Idealize.ShloMosaic.ValueIdx

/-- The reduced index `p` with column `k` put back is `(p, k)`. -/
theorem lift_row {n b : ℕ} (hr : (⟨2, ![n, b]⟩ : Shape).Reduces [1] ⟨1, ![n]⟩) (p : Fin n)
    (k : Fin ((⟨2, ![n, b]⟩ : Shape).size 1)) : hr.lift (ix1 p) k = ix2 p (⟨k.val, k.isLt⟩ : Fin b) := by
  funext d; apply Fin.ext
  match d with
  | ⟨0, _⟩ => rfl
  | ⟨1, _⟩ => rfl

/-- A kernel's maximum along the second axis, at row `p`, is the fold of `max` from `-∞` over that row. -/
theorem rowmax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ x 0xFF800000#32 h hφ hacc (ix1 p)
      = (Finset.univ : Finset (Fin b)).fold max (Ideal.ofBits .f32 0xFF800000#32) (fun k => x (ix2 p k)) := by
  refine (Ideal.multiReduction_maximumf_single x 0xFF800000#32 h hφ hacc (ix1 p)).trans ?_
  have hf : (x ∘ h.lift (ix1 p)) = fun k : Fin b => x (ix2 p k) := funext fun k => congrArg x (lift_row h p k)
  exact congrArg (fun f => Finset.fold max (Ideal.ofBits .f32 0xFF800000#32) f (Finset.univ : Finset (Fin b))) hf

/-- The host's reduce with a maximum body from `-∞` along the second axis, at row `p`, is the same fold. -/
theorem hostRowMax_apply {n b : ℕ} (z : FVec Ideal ⟨2, ![n, b]⟩ .f32) (hrt : (⟨2, ![n, b]⟩ : Shape).ReducesTo [1] ⟨1, ![n]⟩)
    (hr : (⟨2, ![n, b]⟩ : Shape).Reduces [1] ⟨1, ![n]⟩) (hu : 0 < (⟨0, ![]⟩ : Shape).numel) (p : Fin n) :
    Host.reduce FloatOps.maximumf z (constant (F := Ideal) ⟨0, ![]⟩ .f32 0xFF800000#32) hrt hu (ix1 p)
      = (Finset.univ : Finset (Fin b)).fold max (Ideal.ofBits .f32 0xFF800000#32) (fun k => z (ix2 p k)) := by
  rw [Host.reduce_eq_fold_single FloatOps.maximumf z _ hrt hr hu]
  have hf : (z ∘ hr.lift (ix1 p)) = fun k : Fin b => z (ix2 p k) := funext fun k => congrArg z (lift_row hr p k)
  exact congrArg (fun f => Finset.fold max (Ideal.ofBits .f32 0xFF800000#32) f (Finset.univ : Finset (Fin b))) hf

end Cert.Lib.RowMax

end
-- ==== Proof.LibStreamExp.lean ====
/-
  Streaming softmax accumulation over the extended reals.

  A row of scores is split into T blocks of B entries; every entry is a real number or the
  bottom element (a masked entry), and every block holds at least one real entry.  One pass over
  the blocks keeps a running maximum m, a running sum l of exp (score - m), and a running sum n
  of exp (score - m) over a selected subset of the entries; when the maximum grows from m to m',
  the two sums are first multiplied by exp (m - m').  The main theorem `run_eq` says that after
  all T blocks the state is (M, Σ exp (score - M), Σ_selected exp (score - M)), where M is the
  maximum of all scores: the one-pass recurrence computes the two-pass (max first, then sums)
  quantities exactly.  The identity behind it is exp (m - m') * exp (x - m) = exp (x - m').

  Two smaller groups of lemmas follow.  Scaling: dividing a difference of reals by a nonzero D
  is multiplying both terms by c = 1 / D, and a maximum of reals scales by a positive constant.
  Re-indexing: summing or taking the maximum over the indices of Fin (n+1) other than r, listed
  in order by `Fin.succAbove r`, is the same as summing or taking the maximum over all of
  Fin (n+1) with the entry at r replaced by the neutral element.
-/
import Mathlib
import Idealize.ShloMosaic.PureOps.Ideal

open scoped BigOperators
open Idealize.ShloMosaic

noncomputable section

namespace Cert.StreamExp

/-! ### Coercion of finite sums and of maxima -/

/-- The coercion of a finite real sum is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-! ### The weight exp (x - M) as a real number -/

/-- The real weight of a score `x` against a real maximum `M`: zero for a masked score. -/
def w (x : EReal) (M : ℝ) : ℝ := if x = ⊥ then 0 else Real.exp (x.toReal - M)

theorem w_bot (M : ℝ) : w ⊥ M = 0 := by simp [w]

theorem w_coe (r M : ℝ) : w (r : EReal) M = Real.exp (r - M) := by
  simp [w, EReal.coe_ne_bot]

/-- For a score that is masked or real, the extended-real exponential of `x - M` is the
    coercion of the real weight. -/
theorem exp_sub_coe {x : EReal} (hx : x = ⊥ ∨ ∃ r : ℝ, x = (r : EReal)) (M : ℝ) :
    Ideal.exp (x - (M : EReal)) = (w x M : EReal) := by
  rcases hx with rfl | ⟨r, rfl⟩
  · rw [EReal.bot_sub, Ideal.exp_bot, w_bot, EReal.coe_zero]
  · rw [← EReal.coe_sub, Ideal.exp_coe, w_coe]

/-- Rescaling: exp (M - M') * exp (x - M) = exp (x - M'). -/
theorem rescale_w (x : EReal) (M M' : ℝ) : Real.exp (M - M') * w x M = w x M' := by
  unfold w
  split_ifs with h
  · simp
  · rw [← Real.exp_add]
    congr 1
    ring

/-! ### The one-pass recurrence -/

/-- One block of the recurrence: new maximum, rescaled sum, rescaled selected sum. -/
def step {B : ℕ} (st : EReal × EReal × EReal) (s : Fin B → EReal) (p : Fin B → Bool) :
    EReal × EReal × EReal :=
  let m' := max st.1 ((Finset.univ : Finset (Fin B)).fold max ⊥ s)
  (m', Ideal.exp (st.1 - m') * st.2.1 + ∑ j, Ideal.exp (s j - m'),
       Ideal.exp (st.1 - m') * st.2.2 + ∑ j, (if p j then Ideal.exp (s j - m') else 0))

/-- The state after the first `t` blocks (all `T` of them once `t ≥ T`). -/
def run {T B : ℕ} (s : Fin T → Fin B → EReal) (p : Fin T → Fin B → Bool) :
    ℕ → EReal × EReal × EReal
  | 0 => (⊥, 0, 0)
  | t + 1 => if h : t < T then step (run s p t) (s ⟨t, h⟩) (p ⟨t, h⟩) else run s p t

/-- A block of masked-or-real scores with at least one real score has a real maximum. -/
theorem block_max_real {B : ℕ} (s : Fin B → EReal)
    (hs : ∀ j, s j = ⊥ ∨ ∃ r : ℝ, s j = (r : EReal)) (hne : ∃ j, ∃ r : ℝ, s j = (r : EReal)) :
    ∃ R : ℝ, (Finset.univ : Finset (Fin B)).fold max ⊥ s = (R : EReal) := by
  have htop : (Finset.univ : Finset (Fin B)).fold max ⊥ s ≠ ⊤ := by
    apply ne_of_lt
    refine (Finset.fold_max_lt _).2 ⟨bot_lt_top, fun j _ => ?_⟩
    rcases hs j with h | ⟨r, h⟩
    · rw [h]; exact bot_lt_top
    · rw [h]; exact EReal.coe_lt_top r
  have hbot : (Finset.univ : Finset (Fin B)).fold max ⊥ s ≠ ⊥ := by
    obtain ⟨j, r, hj⟩ := hne
    apply ne_of_gt
    refine (Finset.lt_fold_max _).2 (Or.inr ⟨j, Finset.mem_univ j, ?_⟩)
    rw [hj]; exact EReal.bot_lt_coe r
  exact ⟨_, (EReal.coe_toReal htop hbot).symm⟩

/-- Coercion commutes with selecting a real weight or zero. -/
theorem coe_ite_zero (b : Bool) (a : ℝ) :
    (if b then (a : EReal) else 0) = ((if b then a else 0 : ℝ) : EReal) := by
  cases b <;> simp

/-- One block from a state of real numbers, in real arithmetic. -/
theorem step_coe {B : ℕ} (M L N R : ℝ) (s : Fin B → EReal) (p : Fin B → Bool)
    (hs : ∀ j, s j = ⊥ ∨ ∃ r : ℝ, s j = (r : EReal))
    (hR : (Finset.univ : Finset (Fin B)).fold max ⊥ s = (R : EReal)) :
    step ((M : EReal), (L : EReal), (N : EReal)) s p =
      (((max M R : ℝ) : EReal),
       ((Real.exp (M - max M R) * L + ∑ j, w (s j) (max M R) : ℝ) : EReal),
       ((Real.exp (M - max M R) * N + ∑ j, (if p j then w (s j) (max M R) else 0) : ℝ) : EReal)) := by
  have h1 : ∀ j, Ideal.exp (s j - ((max M R : ℝ) : EReal)) = ((w (s j) (max M R) : ℝ) : EReal) :=
    fun j => exp_sub_coe (hs j) _
  simp only [step]
  rw [hR, ← coe_max]
  simp only [h1, coe_ite_zero, ← EReal.coe_sub, Ideal.exp_coe, EReal.coe_add, EReal.coe_mul, coe_sum]

/-- The first block, from the initial state (⊥, 0, 0). -/
theorem step_bot {B : ℕ} (R : ℝ) (s : Fin B → EReal) (p : Fin B → Bool)
    (hs : ∀ j, s j = ⊥ ∨ ∃ r : ℝ, s j = (r : EReal))
    (hR : (Finset.univ : Finset (Fin B)).fold max ⊥ s = (R : EReal)) :
    step ((⊥ : EReal), (0 : EReal), (0 : EReal)) s p =
      ((R : EReal), ((∑ j, w (s j) R : ℝ) : EReal),
       ((∑ j, (if p j then w (s j) R else 0) : ℝ) : EReal)) := by
  have h1 : ∀ j, Ideal.exp (s j - (R : EReal)) = ((w (s j) R : ℝ) : EReal) :=
    fun j => exp_sub_coe (hs j) _
  simp only [step]
  rw [hR, max_bot_left, EReal.bot_sub, Ideal.exp_bot]
  simp only [h1, coe_ite_zero, mul_zero, zero_add, coe_sum]

/-- Rescaling a double sum of weights term by term. -/
theorem rescale_sum {ι κ : Type*} (S : Finset ι) (K : Finset κ) (c : ℝ) (f f' : ι → κ → ℝ)
    (h : ∀ i j, c * f i j = f' i j) :
    c * ∑ i ∈ S, ∑ j ∈ K, f i j = ∑ i ∈ S, ∑ j ∈ K, f' i j := by
  rw [Finset.mul_sum]
  refine Finset.sum_congr rfl fun i _ => ?_
  rw [Finset.mul_sum]
  exact Finset.sum_congr rfl fun j _ => h i j

/-- Adding one new index to a finite sum, with the new term written last. -/
theorem sum_insert_comm {ι : Type*} [DecidableEq ι] {a : ι} {S : Finset ι} (h : a ∉ S) (F : ι → ℝ) :
    ∑ i ∈ insert a S, F i = (∑ i ∈ S, F i) + F a := by
  rw [Finset.sum_insert h, add_comm]

/-- The blocks at positions strictly before `t`. -/
def before (T t : ℕ) : Finset (Fin T) := Finset.univ.filter (fun i => i.val < t)

theorem before_zero (T : ℕ) : before T 0 = ∅ := by
  simp [before]

theorem before_self (T : ℕ) : before T T = Finset.univ := by
  simp [before]

theorem not_mem_before {T t : ℕ} (h : t < T) : (⟨t, h⟩ : Fin T) ∉ before T t := by
  simp [before]

theorem before_succ {T t : ℕ} (h : t < T) : before T (t + 1) = insert (⟨t, h⟩ : Fin T) (before T t) := by
  ext i
  simp only [before, Finset.mem_filter, Finset.mem_univ, true_and, Finset.mem_insert, Fin.ext_iff]
  omega

/-- The invariant: after `t + 1` blocks the state holds the maximum of the scores seen so far and
    the two sums of weights against that maximum. -/
theorem run_inv {T B : ℕ} (s : Fin T → Fin B → EReal) (p : Fin T → Fin B → Bool)
    (hs : ∀ t j, s t j = ⊥ ∨ ∃ r : ℝ, s t j = (r : EReal))
    (hne : ∀ t, ∃ j, ∃ r : ℝ, s t j = (r : EReal)) :
    ∀ t, t < T → ∃ M : ℝ,
      (before T (t + 1)).fold max ⊥ (fun i => (Finset.univ : Finset (Fin B)).fold max ⊥ (s i))
        = (M : EReal) ∧
      run s p (t + 1) = ((M : EReal),
        ((∑ i ∈ before T (t + 1), ∑ j, w (s i j) M : ℝ) : EReal),
        ((∑ i ∈ before T (t + 1), ∑ j, (if p i j then w (s i j) M else 0) : ℝ) : EReal)) := by
  intro t
  induction t with
  | zero =>
    intro h
    obtain ⟨R, hR⟩ := block_max_real (s ⟨0, h⟩) (hs _) (hne _)
    refine ⟨R, ?_, ?_⟩
    · rw [before_succ h, Finset.fold_insert (not_mem_before h), before_zero, Finset.fold_empty, hR,
        max_bot_right]
    · rw [before_succ h, before_zero]
      simp only [run, h, dite_true]
      rw [step_bot R _ _ (hs _) hR]
      simp
  | succ t ih =>
    intro h
    obtain ⟨M, hM, hrun⟩ := ih (Nat.lt_of_succ_lt h)
    obtain ⟨R, hR⟩ := block_max_real (s ⟨t + 1, h⟩) (hs _) (hne _)
    refine ⟨max M R, ?_, ?_⟩
    · rw [before_succ h, Finset.fold_insert (not_mem_before h), hM, hR, max_comm, coe_max]
    · have hstep : run s p (t + 1 + 1) = step (run s p (t + 1)) (s ⟨t + 1, h⟩) (p ⟨t + 1, h⟩) := by
        rw [run, dif_pos h]
      rw [hstep, hrun, step_coe M _ _ R _ _ (hs _) hR, before_succ h,
        sum_insert_comm (not_mem_before h), sum_insert_comm (not_mem_before h),
        rescale_sum _ _ _ _ (fun i j => w (s i j) (max M R)) (fun i j => rescale_w _ _ _),
        rescale_sum _ _ _ _ (fun i j => if p i j then w (s i j) (max M R) else 0)
          (fun i j => by split_ifs <;> simp [rescale_w])]

/-- The one-pass recurrence over all `T` blocks computes the maximum `M` of all scores, the sum of
    exp (score - M) and the selected sum of exp (score - M). -/
theorem run_eq {T B : ℕ} (hT : 0 < T) (s : Fin T → Fin B → EReal) (p : Fin T → Fin B → Bool)
    (hs : ∀ t j, s t j = ⊥ ∨ ∃ r : ℝ, s t j = (r : EReal))
    (hne : ∀ t, ∃ j, ∃ r : ℝ, s t j = (r : EReal)) :
    ∃ M : ℝ,
      ((Finset.univ : Finset (Fin T)).fold max ⊥
          fun t => (Finset.univ : Finset (Fin B)).fold max ⊥ (s t)) = (M : EReal) ∧
      run s p T = ((M : EReal), ∑ t, ∑ j, Ideal.exp (s t j - (M : EReal)),
        ∑ t, ∑ j, (if p t j then Ideal.exp (s t j - (M : EReal)) else 0)) := by
  obtain ⟨T', rfl⟩ : ∃ T', T = T' + 1 := Nat.exists_eq_succ_of_ne_zero hT.ne'
  obtain ⟨M, hM, hrun⟩ := run_inv s p hs hne T' (Nat.lt_succ_self T')
  rw [before_self] at hM hrun
  refine ⟨M, hM, ?_⟩
  have h1 : ∀ t j, Ideal.exp (s t j - (M : EReal)) = ((w (s t j) M : ℝ) : EReal) :=
    fun t j => exp_sub_coe (hs t j) M
  rw [hrun]
  simp only [h1, coe_ite_zero, coe_sum]

/-! ### Scaling by a constant -/

/-- Dividing a difference of reals by a nonzero `D` is multiplying both terms by `c = 1 / D`. -/
theorem exp_div_eq (x A D c : ℝ) (hD : D ≠ 0) (hc : c = 1 / D) :
    Ideal.exp (Ideal.div ((x : EReal) - (A : EReal)) (D : EReal))
      = Ideal.exp (((x * c : ℝ) : EReal) - ((A * c : ℝ) : EReal)) := by
  rw [Ideal.div_coe hD, ← EReal.coe_sub, ← EReal.coe_mul, ← EReal.coe_sub, hc]
  congr 2
  ring

/-- A maximum of finitely many reals scales by a positive constant. -/
theorem fold_max_mul {ι : Type*} [Fintype ι] (a : ι → ℝ) (A c : ℝ) (hc : 0 < c)
    (h : (Finset.univ : Finset ι).fold max ⊥ (fun j => (a j : EReal)) = (A : EReal)) :
    (Finset.univ : Finset ι).fold max ⊥ (fun j => ((a j * c : ℝ) : EReal))
      = ((A * c : ℝ) : EReal) := by
  have hle : ∀ j, a j ≤ A := by
    intro j
    have := ((Finset.fold_max_le _).1 h.le).2 j (Finset.mem_univ j)
    exact EReal.coe_le_coe_iff.1 this
  have hge : ∃ j, A ≤ a j := by
    rcases (Finset.le_fold_max _).1 h.ge with hb | ⟨j, _, hj⟩
    · exact absurd (le_bot_iff.1 hb) (EReal.coe_ne_bot A)
    · exact ⟨j, EReal.coe_le_coe_iff.1 hj⟩
  apply le_antisymm
  · refine (Finset.fold_max_le _).2 ⟨bot_le, fun j _ => ?_⟩
    exact EReal.coe_le_coe_iff.2 (mul_le_mul_of_nonneg_right (hle j) hc.le)
  · obtain ⟨j, hj⟩ := hge
    refine (Finset.le_fold_max _).2 (Or.inr ⟨j, Finset.mem_univ j, ?_⟩)
    exact EReal.coe_le_coe_iff.2 (mul_le_mul_of_nonneg_right hj hc.le)

/-! ### Dropping one index of `Fin (n+1)` -/

/-- Summing over the indices other than `r`, listed by `r.succAbove`, is summing over all
    indices with the entry at `r` replaced by zero. -/
theorem sum_succAbove_eq {α : Type*} [AddCommMonoid α] {n : ℕ} (r : Fin (n + 1))
    (g : Fin (n + 1) → α) :
    ∑ k : Fin n, g (r.succAbove k) = ∑ j : Fin (n + 1), (if j = r then 0 else g j) := by
  rw [Fin.sum_univ_succAbove _ r]
  simp [Fin.succAbove_ne]

/-- The maximum over the indices other than `r`, listed by `r.succAbove`, is the maximum over
    all indices with the entry at `r` replaced by the bottom element. -/
theorem fold_max_succAbove_eq {α : Type*} [LinearOrder α] [OrderBot α] {n : ℕ} (r : Fin (n + 1))
    (g : Fin (n + 1) → α) :
    (Finset.univ : Finset (Fin n)).fold max ⊥ (fun k => g (r.succAbove k))
      = (Finset.univ : Finset (Fin (n + 1))).fold max ⊥ (fun j => if j = r then ⊥ else g j) := by
  apply le_antisymm
  · refine (Finset.fold_max_le _).2 ⟨bot_le, fun k _ => ?_⟩
    refine (Finset.le_fold_max _).2 (Or.inr ⟨r.succAbove k, Finset.mem_univ _, ?_⟩)
    rw [if_neg (Fin.succAbove_ne r k)]
  · refine (Finset.fold_max_le _).2 ⟨bot_le, fun j _ => ?_⟩
    by_cases hj : j = r
    · rw [if_pos hj]; exact bot_le
    · rw [if_neg hj]
      obtain ⟨k, rfl⟩ := Fin.exists_succAbove_eq hj
      exact (Finset.le_fold_max _).2 (Or.inr ⟨k, Finset.mem_univ _, le_rfl⟩)

/-- The index map in plain arithmetic: positions below `r` stay, the others move up by one. -/
theorem succAbove_val {n : ℕ} (r : Fin (n + 1)) (k : Fin n) :
    (r.succAbove k).val = if k.val < r.val then k.val else k.val + 1 := by
  unfold Fin.succAbove
  by_cases h : k.val < r.val
  · rw [if_pos h, if_pos (by simpa [Fin.lt_def] using h)]
    rfl
  · rw [if_neg h, if_neg (by simpa [Fin.lt_def] using h)]
    rfl

/-! ### Part 4: one row, streamed against whole

  A row of n + 1 real scores is read in two ways.  Streamed: the columns are cut into T blocks of
  B, each score is multiplied by c, one column r may be masked to ⊥, and the recurrence `run`
  goes over the blocks.  Whole: the maximum A of the (unmasked) scores is taken first, then
  exp ((score - A) / D) is summed, the column r being dropped by re-indexing with
  `Fin.succAbove r`.  With c = 1 / D > 0 the two readings give the same sums. -/

/-- A double sum over blocks is the sum over the whole index set. -/
theorem sum_blocks {ι α : Type*} [Fintype ι] [AddCommMonoid α] {T B : ℕ}
    (e : Fin T × Fin B ≃ ι) (g : ι → α) :
    ∑ t, ∑ j, g (e (t, j)) = ∑ i, g i := by
  rw [← Equiv.sum_comp e g, Fintype.sum_prod_type]

/-- A maximum of block maxima is the maximum over the whole index set. -/
theorem fold_max_blocks {ι α : Type*} [Fintype ι] [LinearOrder α] [OrderBot α] {T B : ℕ}
    (e : Fin T × Fin B ≃ ι) (g : ι → α) :
    (Finset.univ : Finset (Fin T)).fold max ⊥
        (fun t => (Finset.univ : Finset (Fin B)).fold max ⊥ (fun j => g (e (t, j))))
      = (Finset.univ : Finset ι).fold max ⊥ g := by
  apply le_antisymm
  · refine (Finset.fold_max_le _).2 ⟨bot_le, fun t _ => ?_⟩
    refine (Finset.fold_max_le _).2 ⟨bot_le, fun j _ => ?_⟩
    exact (Finset.le_fold_max _).2 (Or.inr ⟨e (t, j), Finset.mem_univ _, le_rfl⟩)
  · refine (Finset.fold_max_le _).2 ⟨bot_le, fun i _ => ?_⟩
    refine (Finset.le_fold_max _).2 (Or.inr ⟨(e.symm i).1, Finset.mem_univ _, ?_⟩)
    refine (Finset.le_fold_max _).2 (Or.inr ⟨(e.symm i).2, Finset.mem_univ _, ?_⟩)
    simp only [Prod.mk.eta, Equiv.apply_symm_apply, le_refl]

/-- The recurrence over the blocks of a re-indexed family computes the whole family's maximum
    and sums. -/
theorem run_blocks {ι : Type*} [Fintype ι] {T B : ℕ} (hT : 0 < T) (e : Fin T × Fin B ≃ ι)
    (x : ι → EReal) (q : ι → Bool)
    (hx : ∀ i, x i = ⊥ ∨ ∃ y : ℝ, x i = (y : EReal))
    (hne : ∀ t, ∃ j, ∃ y : ℝ, x (e (t, j)) = (y : EReal)) :
    ∃ M : ℝ, (Finset.univ : Finset ι).fold max ⊥ x = (M : EReal) ∧
      run (fun t j => x (e (t, j))) (fun t j => q (e (t, j))) T =
        ((M : EReal), ∑ i, Ideal.exp (x i - (M : EReal)),
          ∑ i, (if q i then Ideal.exp (x i - (M : EReal)) else 0)) := by
  obtain ⟨M, hM, hrun⟩ := run_eq hT (fun t j => x (e (t, j))) (fun t j => q (e (t, j)))
    (fun t j => hx _) hne
  refine ⟨M, ?_, ?_⟩
  · rw [← fold_max_blocks e x]; exact hM
  · rw [hrun, sum_blocks e (fun i => Ideal.exp (x i - (M : EReal))),
      sum_blocks e (fun i => if q i then Ideal.exp (x i - (M : EReal)) else 0)]

/-- The scaled row with the entry at `r` masked. -/
def rowMasked {n : ℕ} (r : Fin (n + 1)) (a : Fin (n + 1) → ℝ) (c : ℝ) : Fin (n + 1) → EReal :=
  fun i => if i = r then ⊥ else ((a i * c : ℝ) : EReal)

theorem rowMasked_self {n : ℕ} (r : Fin (n + 1)) (a : Fin (n + 1) → ℝ) (c : ℝ) :
    rowMasked r a c r = ⊥ := if_pos rfl

theorem rowMasked_ne {n : ℕ} {r i : Fin (n + 1)} (h : i ≠ r) (a : Fin (n + 1) → ℝ) (c : ℝ) :
    rowMasked r a c i = ((a i * c : ℝ) : EReal) := if_neg h

/-- Selecting by a Boolean is multiplying by its indicator. -/
theorem ite_eq_indicator_mul (b : Bool) (y : EReal) :
    (if b then y else 0) = (if b then (1 : EReal) else 0) * y := by
  cases b <;> simp

/-- Masked row: the streamed sums are the whole-row sums with the column `r` dropped. -/
theorem row_masked {T B n : ℕ} (hT : 0 < T) (hB : 2 ≤ B) (e : Fin T × Fin B ≃ Fin (n + 1))
    (r : Fin (n + 1)) (a : Fin (n + 1) → ℝ) (lab : Fin (n + 1) → Bool) (c D : ℝ)
    (hD : 0 < D) (hc : c = 1 / D) :
    (run (fun t j => if e (t, j) = r then (⊥ : EReal) else (a (e (t, j)) : EReal) * (c : EReal))
        (fun t j => lab (e (t, j))) T).2.1
      = ∑ k : Fin n, Ideal.exp (Ideal.div ((a (r.succAbove k) : EReal)
          - (Finset.univ : Finset (Fin n)).fold max ⊥ (fun k => (a (r.succAbove k) : EReal)))
          (D : EReal)) ∧
    (run (fun t j => if e (t, j) = r then (⊥ : EReal) else (a (e (t, j)) : EReal) * (c : EReal))
        (fun t j => lab (e (t, j))) T).2.2
      = ∑ k : Fin n, (if lab (r.succAbove k) then (1 : EReal) else 0)
          * Ideal.exp (Ideal.div ((a (r.succAbove k) : EReal)
          - (Finset.univ : Finset (Fin n)).fold max ⊥ (fun k => (a (r.succAbove k) : EReal)))
          (D : EReal)) := by
  have hc0 : 0 < c := by rw [hc]; positivity
  have hcard : T * B = n + 1 := by simpa using Fintype.card_congr e
  have hn : 0 < n := by
    have h2 : 2 ≤ T * B := le_trans hB (Nat.le_mul_of_pos_left B hT)
    omega
  -- the streamed scores are the masked row, re-indexed
  have hs : (fun t j => if e (t, j) = r then (⊥ : EReal) else (a (e (t, j)) : EReal) * (c : EReal))
      = fun t j => rowMasked r a c (e (t, j)) := by
    funext t j
    simp only [rowMasked, EReal.coe_mul]
  have hx : ∀ i, rowMasked r a c i = ⊥ ∨ ∃ y : ℝ, rowMasked r a c i = (y : EReal) := by
    intro i
    by_cases h : i = r
    · left; rw [h, rowMasked_self]
    · right; exact ⟨a i * c, rowMasked_ne h a c⟩
  have hne : ∀ t, ∃ j, ∃ y : ℝ, rowMasked r a c (e (t, j)) = (y : EReal) := by
    intro t
    by_cases h0 : e (t, ⟨0, by omega⟩) = r
    · have h1 : e (t, ⟨1, by omega⟩) ≠ r := by
        intro h1
        have h01 := e.injective (h0.trans h1.symm)
        simp [Prod.ext_iff, Fin.ext_iff] at h01
      exact ⟨⟨1, by omega⟩, _, rowMasked_ne h1 a c⟩
    · exact ⟨⟨0, by omega⟩, _, rowMasked_ne h0 a c⟩
  obtain ⟨M, hM, hrun⟩ := run_blocks hT e (rowMasked r a c) lab hx hne
  -- the reference maximum is real, and the streamed maximum is that real times c
  obtain ⟨Af, hAf⟩ := block_max_real (fun k : Fin n => (a (r.succAbove k) : EReal))
    (fun k => Or.inr ⟨_, rfl⟩) ⟨⟨0, hn⟩, _, rfl⟩
  have hMA : M = Af * c := by
    have h1 := fold_max_mul (fun k : Fin n => a (r.succAbove k)) Af c hc0 hAf
    have h2 := fold_max_succAbove_eq r (fun j => ((a j * c : ℝ) : EReal))
    have h3 : (Finset.univ : Finset (Fin (n + 1))).fold max ⊥ (rowMasked r a c)
        = ((Af * c : ℝ) : EReal) := by
      rw [← h1, h2]; rfl
    exact EReal.coe_injective (hM.symm.trans h3)
  -- the reference terms are the streamed weights at the kept columns
  have hterm : ∀ k : Fin n, Ideal.exp (Ideal.div ((a (r.succAbove k) : EReal) - (Af : EReal)) (D : EReal))
      = Ideal.exp (rowMasked r a c (r.succAbove k) - (M : EReal)) := by
    intro k
    rw [exp_div_eq _ _ D c hD.ne' hc, rowMasked_ne (Fin.succAbove_ne r k), hMA]
  have hG : Ideal.exp (rowMasked r a c r - (M : EReal)) = 0 := by
    rw [rowMasked_self, EReal.bot_sub, Ideal.exp_bot]
  rw [hs, hrun, hAf]
  refine ⟨?_, ?_⟩
  · show ∑ i, Ideal.exp (rowMasked r a c i - (M : EReal)) = _
    simp only [hterm]
    rw [sum_succAbove_eq r (fun i => Ideal.exp (rowMasked r a c i - (M : EReal)))]
    refine Finset.sum_congr rfl fun i _ => ?_
    by_cases h : i = r
    · rw [if_pos h, h, hG]
    · rw [if_neg h]
  · show ∑ i, (if lab i then Ideal.exp (rowMasked r a c i - (M : EReal)) else 0) = _
    simp only [hterm]
    rw [sum_succAbove_eq r (fun i => (if lab i then (1 : EReal) else 0)
      * Ideal.exp (rowMasked r a c i - (M : EReal)))]
    refine Finset.sum_congr rfl fun i _ => ?_
    by_cases h : i = r
    · rw [if_pos h, h, hG]; simp
    · rw [if_neg h, ite_eq_indicator_mul]

/-- Unmasked row: the streamed sums are the whole-row sums. -/
theorem row_whole {T B n : ℕ} (hT : 0 < T) (hB : 0 < B) (e : Fin T × Fin B ≃ Fin (n + 1))
    (b : Fin (n + 1) → ℝ) (lab : Fin (n + 1) → Bool) (c D : ℝ)
    (hD : 0 < D) (hc : c = 1 / D) :
    (run (fun t j => (b (e (t, j)) : EReal) * (c : EReal)) (fun t j => lab (e (t, j))) T).2.1
      = ∑ j : Fin (n + 1), Ideal.exp (Ideal.div ((b j : EReal)
          - (Finset.univ : Finset (Fin (n + 1))).fold max ⊥ (fun j => (b j : EReal))) (D : EReal)) ∧
    (run (fun t j => (b (e (t, j)) : EReal) * (c : EReal)) (fun t j => lab (e (t, j))) T).2.2
      = ∑ j : Fin (n + 1), (if lab j then (1 : EReal) else 0)
          * Ideal.exp (Ideal.div ((b j : EReal)
          - (Finset.univ : Finset (Fin (n + 1))).fold max ⊥ (fun j => (b j : EReal))) (D : EReal)) := by
  have hc0 : 0 < c := by rw [hc]; positivity
  have hs : (fun t j => (b (e (t, j)) : EReal) * (c : EReal))
      = fun t j => (fun i => ((b i * c : ℝ) : EReal)) (e (t, j)) := by
    funext t j
    simp only [EReal.coe_mul]
  obtain ⟨M, hM, hrun⟩ := run_blocks hT e (fun i => ((b i * c : ℝ) : EReal)) lab
    (fun i => Or.inr ⟨_, rfl⟩) (fun t => ⟨⟨0, hB⟩, _, rfl⟩)
  obtain ⟨Ae, hAe⟩ := block_max_real (fun j : Fin (n + 1) => (b j : EReal))
    (fun j => Or.inr ⟨_, rfl⟩) ⟨0, _, rfl⟩
  have hMA : M = Ae * c := by
    have h1 := fold_max_mul b Ae c hc0 hAe
    exact EReal.coe_injective (hM.symm.trans h1)
  have hterm : ∀ j : Fin (n + 1), Ideal.exp (Ideal.div ((b j : EReal) - (Ae : EReal)) (D : EReal))
      = Ideal.exp (((b j * c : ℝ) : EReal) - (M : EReal)) := by
    intro j
    rw [exp_div_eq _ _ D c hD.ne' hc, hMA]
  rw [hs, hrun, hAe]
  refine ⟨?_, ?_⟩
  · show ∑ i, Ideal.exp (((b i * c : ℝ) : EReal) - (M : EReal)) = _
    simp only [hterm]
  · show ∑ i, (if lab i then Ideal.exp (((b i * c : ℝ) : EReal) - (M : EReal)) else 0) = _
    refine Finset.sum_congr rfl fun i _ => ?_
    rw [hterm i, ite_eq_indicator_mul]

/-- The column of entry `j` of block `t`: 8192 columns in 16 blocks of 512. -/
def colOf (t : Fin 16) (j : Fin 512) : Fin 8192 := ⟨t.val * 512 + j.val, by omega⟩

/-- Blocks and positions within a block enumerate the columns. -/
def colEquiv : Fin 16 × Fin 512 ≃ Fin 8192 where
  toFun x := colOf x.1 x.2
  invFun i := (⟨i.val / 512, by omega⟩, ⟨i.val % 512, by omega⟩)
  left_inv := by
    rintro ⟨t, j⟩
    simp only [colOf, Prod.mk.injEq, Fin.ext_iff]
    omega
  right_inv := by
    intro i
    simp only [colOf, Fin.ext_iff]
    omega

theorem colEquiv_apply (t : Fin 16) (j : Fin 512) : colEquiv (t, j) = colOf t j := rfl

/-- One row of 8192 columns: the streamed sums (16 blocks of 512, scores times c, the diagonal
    column masked for the first family) are the whole-row sums (scores divided by D, the diagonal
    column dropped by re-indexing for the first family). -/
theorem row_bridge (r : Fin 8192) (a b : Fin 8192 → ℝ) (lab : Fin 8192 → Bool) (c D : ℝ)
    (hD : 0 < D) (hc : c = 1 / D) :
    (run (fun t j => if colOf t j = r then (⊥ : EReal) else (a (colOf t j) : EReal) * (c : EReal))
        (fun t j => lab (colOf t j)) 16).2.1
      = ∑ k : Fin 8191, Ideal.exp (Ideal.div ((a (Fin.succAbove (n := 8191) r k) : EReal)
          - (Finset.univ : Finset (Fin 8191)).fold max ⊥
              (fun k => (a (Fin.succAbove (n := 8191) r k) : EReal))) (D : EReal)) ∧
    (run (fun t j => if colOf t j = r then (⊥ : EReal) else (a (colOf t j) : EReal) * (c : EReal))
        (fun t j => lab (colOf t j)) 16).2.2
      = ∑ k : Fin 8191, (if lab (Fin.succAbove (n := 8191) r k) then (1 : EReal) else 0)
          * Ideal.exp (Ideal.div ((a (Fin.succAbove (n := 8191) r k) : EReal)
          - (Finset.univ : Finset (Fin 8191)).fold max ⊥
              (fun k => (a (Fin.succAbove (n := 8191) r k) : EReal))) (D : EReal)) ∧
    (run (fun t j => (b (colOf t j) : EReal) * (c : EReal)) (fun t j => lab (colOf t j)) 16).2.1
      = ∑ j : Fin 8192, Ideal.exp (Ideal.div ((b j : EReal)
          - (Finset.univ : Finset (Fin 8192)).fold max ⊥ (fun j => (b j : EReal))) (D : EReal)) ∧
    (run (fun t j => (b (colOf t j) : EReal) * (c : EReal)) (fun t j => lab (colOf t j)) 16).2.2
      = ∑ j : Fin 8192, (if lab j then (1 : EReal) else 0)
          * Ideal.exp (Ideal.div ((b j : EReal)
          - (Finset.univ : Finset (Fin 8192)).fold max ⊥ (fun j => (b j : EReal))) (D : EReal)) := by
  obtain ⟨h1, h2⟩ := row_masked (T := 16) (B := 512) (n := 8191) (by norm_num) (by norm_num)
    colEquiv r a lab c D hD hc
  obtain ⟨h3, h4⟩ := row_whole (T := 16) (B := 512) (n := 8191) (by norm_num) (by norm_num)
    colEquiv b lab c D hD hc
  exact ⟨h1, h2, h3, h4⟩

end Cert.StreamExp
-- ==== Proof.KiPayload.lean ====
import proofs.«129704_j5781025981007_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import proofs.«129704_j5781025981007_2_alg».proof.Proof.LibRowsDot
import proofs.«129704_j5781025981007_2_alg».proof.Proof.LibKeepdimsColumn
import proofs.«129704_j5781025981007_2_alg».proof.Proof.LibRowMax
import proofs.«129704_j5781025981007_2_alg».proof.Proof.LibStreamExp

/-!
  The kernel body's arithmetic, read at an index over the extended reals.

  Each payload of the body is a pure term over the values read before it.  Read at a row r and a
  column q, the pointwise ones are the scalar operation at that entry; the row reductions are a
  finite sum or a maximum (from ⊥) over the 512 columns of the row; the matrix products are the
  sum over the shared width of the products of two rows, times the named scale; the two masks are
  an equality of two label words and an equality of two global positions.
-/

open Idealize.ShloMosaic Idealize.ShloMosaic.ValueIdx

noncomputable section

namespace Cert.KernelIdeal.Payload

open Cert.KernelIdeal Cert.KernelIdeal.Gen

/-! ### The pointwise payloads -/

theorem pay1_apply (v71 : FVec Ideal S1024x512 .f32) (j : S1024x512.Idx) :
    k0_pay1 (F := Ideal) v71 j = Ideal.exp (v71 j) := rfl

theorem pay4_apply (v66 : FVec Ideal S1024x1 .f32) (j : S1024x1.Idx) :
    k0_pay4 (F := Ideal) v66 j = v66 j := by
  unfold k0_pay4
  rw [shapeCast_self]

theorem pay5_apply (v97 v98 v100 v101 : Vec Ideal S1024x1 .f32) (j : S1024x1.Idx) :
    k0_pay5 (F := Ideal) v97 v98 v100 v101 j = Ideal.log (Ideal.div (v97 j + v98 j) (v100 j + v101 j)) := rfl

theorem ofBits_neg_inf : Ideal.ofBits .f32 0xFF800000#32 = ⊥ := by simp [Ideal.ofBits, Ideal.ieee]

theorem pay6_apply (j : S1024x1.Idx) : k0_pay6 (F := Ideal) j = ⊥ := by
  unfold k0_pay6
  rw [shapeCast_self]
  exact ofBits_neg_inf

theorem pay9_apply (j : S1024x1.Idx) : k0_pay9 (F := Ideal) j = ⊥ := by
  unfold k0_pay9
  rw [shapeCast_self]
  exact ofBits_neg_inf

theorem pay7_apply (j : S1024x1.Idx) : k0_pay7 (F := Ideal) j = 0 := by
  unfold k0_pay7
  rw [shapeCast_self]
  exact Ideal.ofBits_zero_f32

theorem pay8_apply (j : S1024x1.Idx) : k0_pay8 (F := Ideal) j = 0 := by
  unfold k0_pay8
  rw [shapeCast_self]
  exact Ideal.ofBits_zero_f32

theorem pay10_apply (j : S1024x1.Idx) : k0_pay10 (F := Ideal) j = 0 := by
  unfold k0_pay10
  rw [shapeCast_self]
  exact Ideal.ofBits_zero_f32

theorem pay11_apply (j : S1024x1.Idx) : k0_pay11 (F := Ideal) j = 0 := by
  unfold k0_pay11
  rw [shapeCast_self]
  exact Ideal.ofBits_zero_f32

theorem pay17_apply (v33 : FVec Ideal S1024x1 .f32) (v34 : Vec Ideal S1024x1 .f32) (j : S1024x1.Idx) :
    k0_pay17 (F := Ideal) v33 v34 j = max (v34 j) (v33 j) := rfl

theorem pay22_apply (v33 : FVec Ideal S1024x1 .f32) (v34 : Vec Ideal S1024x1 .f32) (j : S1024x1.Idx) :
    k0_pay22 (F := Ideal) v33 v34 j = max (v34 j) (v33 j) := by
  unfold k0_pay22
  rw [shapeCast_self]
  rfl

theorem pay18_apply (v33 : FVec Ideal S1024x1 .f32) (v34 v36 : Vec Ideal S1024x1 .f32) (j : S1024x1.Idx) :
    k0_pay18 (F := Ideal) v33 v34 v36 j = Ideal.exp (v36 j - max (v34 j) (v33 j)) := rfl

/-! ### The named constants -/

/-- The named scale: the rational the table gives it. -/
theorem cK_eq : Named.named (F := Ideal) Cert.KernelIdeal.κ "inv_temp" (φ := .f32) 0x41649249#32
    = ((134217728 / 9395241 : ℝ) : EReal) :=
  IdealRules.named_const.ideal_named_scalar _ _ _ _ rfl

/-- The named mask value: the bottom element. -/
theorem NEGv_eq : Named.named (F := Ideal) Cert.KernelIdeal.κ "neg_big" (φ := .f32) 0xF149F2CA#32 = (⊥ : EReal) :=
  IdealRules.named_const.ideal_named_scalar _ _ _ _ rfl

/-! ### The payloads with a row reduction or a column broadcast -/

open Cert.Gcn.Lib Cert.Lib.RowMax

/-- A select on a one-bit word is the conditional on the word being one. -/
theorem select_eq_ite {α : Type} (c : BitVec 1) (a b : α) : Scalar.select c a b = if c = 1#1 then a else b := rfl

theorem pay19_apply (v31 : FVec Ideal S1024x512 .f32) (v33 : FVec Ideal S1024x1 .f32) (v34 : Vec Ideal S1024x1 .f32)
    (r : Fin 1024) (q : Fin 512) :
    k0_pay19 (F := Ideal) v31 v33 v34 (ix2 r q)
      = Ideal.exp (v31 (ix2 r q) - max (v34 (ix2 r (0 : Fin 1))) (v33 (ix2 r (0 : Fin 1)))) := by
  unfold k0_pay19
  show Ideal.exp (v31 (ix2 r q) - broadcastTo S1024x512 (k0_pay17 (F := Ideal) v33 v34) _ (ix2 r q)) = _
  rw [broadcastTo_a1_ab_apply]
  rfl

theorem pay20_apply (v31 : FVec Ideal S1024x512 .f32) (v33 : FVec Ideal S1024x1 .f32) (v34 v36 v42 : Vec Ideal S1024x1 .f32)
    (r : Fin 1024) :
    k0_pay20 (F := Ideal) v31 v33 v34 v36 v42 (ix2 r (0 : Fin 1))
      = Ideal.exp (v36 (ix2 r (0 : Fin 1)) - max (v34 (ix2 r (0 : Fin 1))) (v33 (ix2 r (0 : Fin 1)))) * v42 (ix2 r (0 : Fin 1))
        + ∑ q : Fin 512, Ideal.exp (v31 (ix2 r q) - max (v34 (ix2 r (0 : Fin 1))) (v33 (ix2 r (0 : Fin 1)))) := by
  unfold k0_pay20
  rw [shapeCast_self]
  show k0_pay18 (F := Ideal) v33 v34 v36 (ix2 r (0 : Fin 1)) * v42 (ix2 r (0 : Fin 1))
      + shapeCast S1024x1 (multiReduction .add [1] S1024 (k0_pay19 (F := Ideal) v31 v33 v34) 0x00000000#32 _ _ _) _ (ix2 r (0 : Fin 1)) = _
  rw [shapeCast_a_a1_apply, rowsum_apply]
  simp only [pay19_apply]
  rfl

theorem pay21_apply (v29 : IVec S1024x512 1) (v31 : FVec Ideal S1024x512 .f32) (v33 : FVec Ideal S1024x1 .f32)
    (v34 v36 v50 : Vec Ideal S1024x1 .f32) (r : Fin 1024) :
    k0_pay21 (F := Ideal) v29 v31 v33 v34 v36 v50 (ix2 r (0 : Fin 1))
      = Ideal.exp (v36 (ix2 r (0 : Fin 1)) - max (v34 (ix2 r (0 : Fin 1))) (v33 (ix2 r (0 : Fin 1)))) * v50 (ix2 r (0 : Fin 1))
        + ∑ q : Fin 512, (if v29 (ix2 r q) = 1#1
            then Ideal.exp (v31 (ix2 r q) - max (v34 (ix2 r (0 : Fin 1))) (v33 (ix2 r (0 : Fin 1)))) else 0) := by
  unfold k0_pay21
  rw [shapeCast_self]
  show k0_pay18 (F := Ideal) v33 v34 v36 (ix2 r (0 : Fin 1)) * v50 (ix2 r (0 : Fin 1))
      + shapeCast S1024x1 (multiReduction .add [1] S1024
          (select v29 (k0_pay19 (F := Ideal) v31 v33 v34) (broadcast S1024x512 (Scalar.ofBits (F := Ideal) .f32 0x00000000#32)))
          0x00000000#32 _ _ _) _ (ix2 r (0 : Fin 1)) = _
  rw [shapeCast_a_a1_apply, rowsum_apply]
  simp only [select_apply, select_eq_ite, pay19_apply, broadcast_apply, Scalar.ofBits, Ideal.ofBits_def, Ideal.ofBits_zero_f32]
  rfl

theorem pay23_apply (v14 : FVec Ideal S1024x512 .f32) (v65 : Vec Ideal S1024x1 .f32) (r : Fin 1024) :
    k0_pay23 (F := Ideal) v14 v65 (ix2 r (0 : Fin 1))
      = max (v65 (ix2 r (0 : Fin 1))) ((Finset.univ : Finset (Fin 512)).fold max ⊥ fun q => v14 (ix2 r q)) := by
  unfold k0_pay23
  rw [maximumf_apply, shapeCast_a_a1_apply, rowmax_apply, ofBits_neg_inf]

theorem pay24_apply (v14 : FVec Ideal S1024x512 .f32) (v65 v67 : Vec Ideal S1024x1 .f32) (j : S1024x1.Idx) :
    k0_pay24 (F := Ideal) v14 v65 v67 j = Ideal.exp (v67 j - k0_pay23 (F := Ideal) v14 v65 j) := rfl

theorem pay25_apply (v14 : FVec Ideal S1024x512 .f32) (v65 : Vec Ideal S1024x1 .f32) (r : Fin 1024) (q : Fin 512) :
    k0_pay25 (F := Ideal) v14 v65 (ix2 r q) = v14 (ix2 r q) - k0_pay23 (F := Ideal) v14 v65 (ix2 r (0 : Fin 1)) := by
  unfold k0_pay25
  show v14 (ix2 r q) - broadcastTo S1024x512 (k0_pay23 (F := Ideal) v14 v65) _ (ix2 r q) = _
  rw [broadcastTo_a1_ab_apply]

theorem pay2_apply (v69 : FVec Ideal S1024x1 .f32) (v71 : FVec Ideal S1024x512 .f32) (v73 : Vec Ideal S1024x1 .f32)
    (r : Fin 1024) :
    k0_pay2 (F := Ideal) v69 v71 v73 (ix2 r (0 : Fin 1))
      = v69 (ix2 r (0 : Fin 1)) * v73 (ix2 r (0 : Fin 1)) + ∑ q : Fin 512, Ideal.exp (v71 (ix2 r q)) := by
  unfold k0_pay2
  rw [shapeCast_self]
  show v69 (ix2 r (0 : Fin 1)) * v73 (ix2 r (0 : Fin 1))
      + shapeCast S1024x1 (multiReduction .add [1] S1024 (k0_pay1 (F := Ideal) v71) 0x00000000#32 _ _ _) _ (ix2 r (0 : Fin 1)) = _
  rw [shapeCast_a_a1_apply, rowsum_apply]
  rfl

theorem pay3_apply (v29 : IVec S1024x512 1) (v69 : FVec Ideal S1024x1 .f32) (v71 : FVec Ideal S1024x512 .f32)
    (v81 : Vec Ideal S1024x1 .f32) (r : Fin 1024) :
    k0_pay3 (F := Ideal) v29 v69 v71 v81 (ix2 r (0 : Fin 1))
      = v69 (ix2 r (0 : Fin 1)) * v81 (ix2 r (0 : Fin 1))
        + ∑ q : Fin 512, (if v29 (ix2 r q) = 1#1 then Ideal.exp (v71 (ix2 r q)) else 0) := by
  unfold k0_pay3
  rw [shapeCast_self]
  show v69 (ix2 r (0 : Fin 1)) * v81 (ix2 r (0 : Fin 1))
      + shapeCast S1024x1 (multiReduction .add [1] S1024
          (select v29 (k0_pay1 (F := Ideal) v71) (broadcast S1024x512 (Scalar.ofBits (F := Ideal) .f32 0x00000000#32)))
          0x00000000#32 _ _ _) _ (ix2 r (0 : Fin 1)) = _
  rw [shapeCast_a_a1_apply, rowsum_apply]
  simp only [select_apply, select_eq_ite, broadcast_apply, Scalar.ofBits, Ideal.ofBits_def, Ideal.ofBits_zero_f32]
  rfl

/-! ### The matrix products and the two masks -/

/-- The program's dimension record is the product-of-rows record. -/
theorem dot_eq : dot_S1024x512_S512x512_S1024x512_1_1_0_0_n_n = DotDims.transposedRhs 1024 512 512 := rfl

theorem pay13_apply (x0 : Vec Ideal S1024x512 .bf16) (x2 : Vec Ideal S512x512 .bf16) (r : Fin 1024) (q : Fin 512) :
    k0_pay13 (F := Ideal) x0 x2 (ix2 r q)
      = (∑ k : Fin 512, x0 (ix2 r k) * x2 (ix2 q k))
        * Named.named (F := Ideal) Cert.KernelIdeal.κ "inv_temp" (φ := .f32) 0x41649249#32 := by
  unfold k0_pay13 k0_pay12
  rw [shapeCast_self, shapeCast_self, mulf_apply, broadcast_apply]
  exact congrArg (· * _) (Cert.RowsDot.matmul_zero_at_of_eq (φ₁ := .bf16) (φ₂ := .bf16) _ dot_eq x0 x2 r q)

theorem pay14_apply (x3 : Vec Ideal S1024x1 .i32) (x4 : Vec Ideal S1x512 .i32) (r : Fin 1024) (q : Fin 512) :
    k0_pay14 (F := Ideal) x3 x4 (ix2 r q) = 1#1 ↔ x3 (ix2 r (0 : Fin 1)) = x4 (ix2 (0 : Fin 1) q) := by
  unfold k0_pay14
  rw [shapeCast_self, shapeCast_self]
  show IntOp.cmpi .eq (broadcastTo S1024x512 x3 _ (ix2 r q)) (broadcastTo S1024x512 x4 _ (ix2 r q)) = 1#1 ↔ _
  rw [broadcastTo_a1_ab_apply, broadcastTo_1b_ab_apply]
  exact IntOp.cmpi_eq

/-- The words compared by the position mask: with 8 row blocks of 1024 and 16 column blocks of 512 the
    32-bit differences do not wrap, so they are equal exactly when the two global positions are. -/
theorem diag_word_iff (i0 i1 r q : ℕ) (h0 : i0 < 8) (h1 : i1 < 16) (hr : r < 1024) (hq : q < 512) :
    BitVec.ofNat 32 q - BitVec.ofNat 32 r = BitVec.ofNat 32 i0 * 1024#32 - BitVec.ofNat 32 i1 * 512#32
      ↔ i0 * 1024 + r = i1 * 512 + q := by
  constructor
  · intro h
    bv_omega
  · intro h
    bv_omega

/-- A select on a word that is one exactly when `P` holds is the conditional on `P`. -/
theorem select_of_iff {α : Type} (c : BitVec 1) (P : Prop) [Decidable P] (a b : α) (h : c = 1#1 ↔ P) :
    Scalar.select c a b = if P then a else b := by
  rw [select_eq_ite]
  by_cases hp : P
  · rw [if_pos hp, if_pos (h.2 hp)]
  · rw [if_neg hp, if_neg (fun hc => hp (h.1 hc))]

theorem pay15_apply (i : grid0.Coords) (x0 : Vec Ideal S1024x512 .bf16) (x1 : Vec Ideal S512x512 .bf16)
    (r : Fin 1024) (q : Fin 512) :
    k0_pay15 (F := Ideal) i x0 x1 (ix2 r q)
      = if (i 0).val * 1024 + r.val = (i 1).val * 512 + q.val
        then Named.named (F := Ideal) Cert.KernelIdeal.κ "neg_big" (φ := .f32) 0xF149F2CA#32
        else (∑ k : Fin 512, x0 (ix2 r k) * x1 (ix2 q k))
          * Named.named (F := Ideal) Cert.KernelIdeal.κ "inv_temp" (φ := .f32) 0x41649249#32 := by
  have h0 : (i 0).val < 8 := (i 0).isLt
  have h1 : (i 1).val < 16 := (i 1).isLt
  unfold k0_pay15 k0_pay12
  dsimp only
  rw [shapeCast_self, shapeCast_self, select_apply]
  refine (select_of_iff _ ((i 0).val * 1024 + r.val = (i 1).val * 512 + q.val) _ _ ?_).trans ?_
  · show IntOp.cmpi .eq (IntOp.subi (iota .tc S1024x512 32 [1] _ (ix2 r q)) (iota .tc S1024x512 32 [0] _ (ix2 r q))) _ = 1#1 ↔ _
    rw [IntOp.cmpi_eq, iota_single_apply, iota_single_apply]
    exact diag_word_iff _ _ _ _ h0 h1 r.isLt q.isLt
  · have hm := Cert.RowsDot.matmul_zero_at_of_eq (φ₁ := .bf16) (φ₂ := .bf16) _ dot_eq x0 x1 r q
    simp only [matmul, mulf_apply, broadcast_apply, hm]

theorem pay16_apply (i : grid0.Coords) (x0 : Vec Ideal S1024x512 .bf16) (x1 : Vec Ideal S512x512 .bf16) (r : Fin 1024) :
    k0_pay16 (F := Ideal) i x0 x1 (ix2 r (0 : Fin 1))
      = (Finset.univ : Finset (Fin 512)).fold max ⊥ (fun q => k0_pay15 (F := Ideal) i x0 x1 (ix2 r q)) := by
  unfold k0_pay16
  rw [shapeCast_a_a1_apply, rowmax_apply, ofBits_neg_inf]

/-! ### One block of the two running softmax accumulations

  For a row r the body updates two triples (maximum, sum, selected sum), one per score family.
  Each update is one step of the streaming recurrence over the 512 scores of the row's block. -/

/-- The masked family: scores with the equal-position entry masked, selected by equal labels. -/
theorem step_masked (i : grid0.Coords) (x0 : Vec Ideal S1024x512 .bf16) (x1 : Vec Ideal S512x512 .bf16)
    (x3 : Vec Ideal S1024x1 .i32) (x4 : Vec Ideal S1x512 .i32) (a0 a1 a2 : Vec Ideal S1024x1 .f32) (r : Fin 1024) :
    (k0_pay22 (F := Ideal) (k0_pay16 (F := Ideal) i x0 x1) a0 (ix2 r (0 : Fin 1)),
     k0_pay20 (F := Ideal) (k0_pay15 (F := Ideal) i x0 x1) (k0_pay16 (F := Ideal) i x0 x1) a0 a0 a1 (ix2 r (0 : Fin 1)),
     k0_pay21 (F := Ideal) (k0_pay14 (F := Ideal) x3 x4) (k0_pay15 (F := Ideal) i x0 x1) (k0_pay16 (F := Ideal) i x0 x1)
       a0 a0 a2 (ix2 r (0 : Fin 1)))
    = Cert.StreamExp.step (a0 (ix2 r (0 : Fin 1)), a1 (ix2 r (0 : Fin 1)), a2 (ix2 r (0 : Fin 1)))
        (fun q : Fin 512 => k0_pay15 (F := Ideal) i x0 x1 (ix2 r q))
        (fun q : Fin 512 => decide (k0_pay14 (F := Ideal) x3 x4 (ix2 r q) = 1#1)) := by
  rw [pay22_apply, pay20_apply, pay21_apply, pay16_apply]
  simp only [Cert.StreamExp.step, decide_eq_true_eq]

/-- The unmasked family: all scores, selected by equal labels. -/
theorem step_whole (x0 : Vec Ideal S1024x512 .bf16) (x2 : Vec Ideal S512x512 .bf16)
    (x3 : Vec Ideal S1024x1 .i32) (x4 : Vec Ideal S1x512 .i32) (a3 a4 a5 : Vec Ideal S1024x1 .f32) (r : Fin 1024) :
    (k0_pay4 (F := Ideal) (k0_pay23 (F := Ideal) (k0_pay13 (F := Ideal) x0 x2) a3) (ix2 r (0 : Fin 1)),
     k0_pay2 (F := Ideal) (k0_pay24 (F := Ideal) (k0_pay13 (F := Ideal) x0 x2) a3 a3)
       (k0_pay25 (F := Ideal) (k0_pay13 (F := Ideal) x0 x2) a3) a4 (ix2 r (0 : Fin 1)),
     k0_pay3 (F := Ideal) (k0_pay14 (F := Ideal) x3 x4) (k0_pay24 (F := Ideal) (k0_pay13 (F := Ideal) x0 x2) a3 a3)
       (k0_pay25 (F := Ideal) (k0_pay13 (F := Ideal) x0 x2) a3) a5 (ix2 r (0 : Fin 1)))
    = Cert.StreamExp.step (a3 (ix2 r (0 : Fin 1)), a4 (ix2 r (0 : Fin 1)), a5 (ix2 r (0 : Fin 1)))
        (fun q : Fin 512 => k0_pay13 (F := Ideal) x0 x2 (ix2 r q))
        (fun q : Fin 512 => decide (k0_pay14 (F := Ideal) x3 x4 (ix2 r q) = 1#1)) := by
  rw [pay4_apply, pay2_apply, pay3_apply]
  simp only [pay24_apply, pay25_apply, pay23_apply, Cert.StreamExp.step, decide_eq_true_eq]

end Cert.KernelIdeal.Payload
-- ==== Proof.Bridge.lean ====
/-
The two closed forms agree on real inputs.

The reference's formula (`RefSpec`) takes, per row R, the maximum of the row's scores first and then sums
exp ((score − max) / T), once over the data-to-label scores of all 8192 columns and once over the data-to-data scores
of the 8191 columns other than R. The kernel's formula (`KerSpec`) goes over the same row in 16 blocks of 512 columns
with a running maximum and rescaled running sums (`Cert.StreamExp.run`), multiplies each score by c = 1 / T instead of
dividing, and leaves the diagonal column out of the data-to-data family by masking it to −∞.

When every entry of the two arrays is a real number, so is every clamped row norm (and it is positive), every
normalised entry and every score; on real scores the streamed sums are the whole-row sums (`row_bridge`), the division
by T is the product with c, and dropping column R is masking it. Hence the rows' numerators and denominators, and so the
two results, are equal.
-/
import Mathlib
import Idealize.ShloMosaic.PureOps.Ideal
import proofs.«129704_j5781025981007_2_alg».proof.Proof.RefValue
import proofs.«129704_j5781025981007_2_alg».proof.Proof.LibStreamExp

noncomputable section

namespace Cert.Bridge

open Cert.ReferenceIdeal Idealize.ShloMosaic Idealize.ShloMosaic.ValueIdx Cert.RefValue Cert.StreamExp

/-! ## The kernel's closed form -/

/-- The kernel's scale: 1 / T as a rational. -/
abbrev cK : EReal := ((134217728 / 9395241 : ℝ) : EReal)

/-- Row R's data-to-data scores as the kernel streams them: scaled, the diagonal column masked. -/
def sF (x0 : S8192x512.Idx → EReal) (R : Fin 8192) (t : Fin 16) (j : Fin 512) : EReal :=
  if colOf t j = R then ⊥ else dots x0 x0 R (colOf t j) * cK
/-- Row R's data-to-label scores as the kernel streams them: scaled. -/
def sE (x0 x1 : S8192x512.Idx → EReal) (R : Fin 8192) (t : Fin 16) (j : Fin 512) : EReal :=
  dots x0 x1 R (colOf t j) * cK
/-- The columns that carry row R's label. -/
def pp (x2 : S8192.Idx → BitVec 32) (R : Fin 8192) (t : Fin 16) (j : Fin 512) : Bool :=
  decide (x2 (ix1 R) = x2 (ix1 (colOf t j)))
/-- Row R's logarithm of numerator over denominator, from the streamed sums. -/
def rowOut (x0 x1 : S8192x512.Idx → EReal) (x2 : S8192.Idx → BitVec 32) (R : Fin 8192) : EReal :=
  Ideal.log (Ideal.div ((run (sE x0 x1 R) (pp x2 R) 16).2.2 + (run (sF x0 R) (pp x2 R) 16).2.2)
    ((run (sE x0 x1 R) (pp x2 R) 16).2.1 + (run (sF x0 R) (pp x2 R) 16).2.1))
/-- The kernel's result. -/
def KerSpec (x0 x1 : S8192x512.Idx → EReal) (x2 : S8192.Idx → BitVec 32) : EReal :=
  -(Ideal.div (Z + ∑ R : Fin 8192, rowOut x0 x1 x2 R) (Ideal.ofBits .f32 0x46000000#32))

/-! ## Real inputs give real scores -/

theorem rowNorm_real (x : S8192x512.Idx → EReal) (hx : ∀ i, ∃ r : ℝ, x i = (r : EReal)) (i : Fin 8192) :
    ∃ n : ℝ, 0 < n ∧ rowNorm x i = (n : EReal) := by
  choose r hr using hx
  obtain ⟨e, he, hE⟩ := eps_pos
  refine ⟨max (Real.sqrt (∑ k : Fin 512, r (ix2 i k) * r (ix2 i k))) e, lt_max_of_lt_right he, ?_⟩
  have hs : (∑ k : Fin 512, x (ix2 i k) * x (ix2 i k)) = ((∑ k : Fin 512, r (ix2 i k) * r (ix2 i k) : ℝ) : EReal) := by
    rw [coe_sum]; refine Finset.sum_congr rfl fun k _ => ?_; rw [hr, EReal.coe_mul]
  unfold rowNorm
  rw [hE, Z_eq, zero_add, hs, Ideal.sqrt_coe,
    if_neg (not_lt.2 (Finset.sum_nonneg fun k _ => mul_self_nonneg _)), ← coe_max]

theorem unit_real (x : S8192x512.Idx → EReal) (hx : ∀ i, ∃ r : ℝ, x i = (r : EReal)) (i : Fin 8192) (k : Fin 512) :
    ∃ u : ℝ, unit x i k = (u : EReal) := by
  obtain ⟨n, hn, hN⟩ := rowNorm_real x hx i
  obtain ⟨r, hr⟩ := hx (ix2 i k)
  exact ⟨r * (1 / n), by unfold unit; rw [hN, hr, Ideal.div_coe hn.ne', ← EReal.coe_mul]⟩

theorem dots_real (x y : S8192x512.Idx → EReal) (hx : ∀ i, ∃ r : ℝ, x i = (r : EReal))
    (hy : ∀ i, ∃ r : ℝ, y i = (r : EReal)) (i j : Fin 8192) : ∃ d : ℝ, dots x y i j = (d : EReal) := by
  choose u hu using fun k => unit_real x hx i k
  choose v hv using fun k => unit_real y hy j k
  refine ⟨∑ k, u k * v k, ?_⟩
  unfold dots
  rw [coe_sum]; refine Finset.sum_congr rfl fun k _ => ?_; rw [hu, hv, EReal.coe_mul]

/-! ## One row -/

theorem row_eq (x0 x1 : S8192x512.Idx → EReal) (x2 : S8192.Idx → BitVec 32)
    (h0 : ∀ i, ∃ r : ℝ, x0 i = (r : EReal)) (h1 : ∀ i, ∃ r : ℝ, x1 i = (r : EReal)) (R : Fin 8192) :
    num x0 x1 x2 R = (run (sE x0 x1 R) (pp x2 R) 16).2.2 + (run (sF x0 R) (pp x2 R) 16).2.2 ∧
    den x0 x1 R = (run (sE x0 x1 R) (pp x2 R) 16).2.1 + (run (sF x0 R) (pp x2 R) 16).2.1 := by
  choose a ha using fun j => dots_real x0 x0 h0 h0 R j
  choose b hb using fun j => dots_real x0 x1 h0 h1 R j
  obtain ⟨e1, e2, e3, e4⟩ := row_bridge R a b (fun j => decide (x2 (ix1 R) = x2 (ix1 j)))
    (134217728 / 9395241) (9395241 / 134217728) (by norm_num) (by norm_num)
  have hsF : sF x0 R = fun t j => if colOf t j = R then (⊥ : EReal)
      else (a (colOf t j) : EReal) * ((134217728 / 9395241 : ℝ) : EReal) := by
    funext t j; unfold sF; rw [ha]
  have hsE : sE x0 x1 R = fun t j => (b (colOf t j) : EReal) * ((134217728 / 9395241 : ℝ) : EReal) := by
    funext t j; unfold sE; rw [hb]
  have hpp : pp x2 R = fun t j => (fun j => decide (x2 (ix1 R) = x2 (ix1 j))) (colOf t j) := rfl
  rw [hsF, hsE, hpp, e1, e2, e3, e4]
  have hsame : ∀ j : Fin 8192, same x2 R j = (if decide (x2 (ix1 R) = x2 (ix1 j)) = true then (1 : EReal) else 0) := by
    intro j; unfold same; by_cases h : x2 (ix1 R) = x2 (ix1 j) <;> simp [h]
  unfold num den lf le Mf Me
  refine ⟨?_, ?_⟩ <;> simp only [ha, hb, hsame, T_eq, Z_eq, zero_add]

/-- On real inputs the reference's formula and the kernel's are the same extended real. -/
theorem bridge (x0 x1 : S8192x512.Idx → EReal) (x2 : S8192.Idx → BitVec 32)
    (h0 : ∀ i, ∃ r : ℝ, x0 i = (r : EReal)) (h1 : ∀ i, ∃ r : ℝ, x1 i = (r : EReal)) :
    RefSpec x0 x1 x2 = KerSpec x0 x1 x2 := by
  unfold RefSpec KerSpec
  refine congrArg (fun s => -(Ideal.div (Z + s) (Ideal.ofBits .f32 0x46000000#32))) (Finset.sum_congr rfl fun R _ => ?_)
  obtain ⟨hn, hd⟩ := row_eq x0 x1 x2 h0 h1 R
  unfold rowOut
  rw [hn, hd]

end Cert.Bridge

end
-- ==== Proof.KiRow.lean ====
import proofs.«129704_j5781025981007_2_alg».proof.Proof.KiBlocks
import proofs.«129704_j5781025981007_2_alg».proof.Proof.KiHost
import proofs.«129704_j5781025981007_2_alg».proof.Proof.KiPayload
import proofs.«129704_j5781025981007_2_alg».proof.Proof.Bridge
import proofs.«129704_j5781025981007_2_alg».proof.Proof.KiPieces

/-!
  One row of the kernel, block by block.

  At grid point t the body works on row block t / 16 and column block t % 16.  For a row r of the
  row block (global row R) the three families the body computes over the 512 columns of the column
  block — the masked data-to-data scores, the data-to-label scores and the equal-label mask — are the
  families of the closed form at row R and block t % 16.
-/
set_option maxRecDepth 16384
noncomputable section
namespace Cert.KernelIdeal.Flash
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
variable (m : (ℓ : Loc nD τ sig) → Buf (Elt Ideal) ℓ)

/-! ### Part A: a key block's three families -/

/-- The global column of position q of column block t % 16. -/
theorem colOf_blk (t : Fin cfg0.N) (q : Fin 512) (hj : t.val % 16 < 16) (hC : 512 * (t.val % 16) + q.val < 8192) :
    Cert.StreamExp.colOf ⟨t.val % 16, hj⟩ q = ⟨512 * (t.val % 16) + q.val, hC⟩ :=
  Fin.ext (by show t.val % 16 * 512 + q.val = 512 * (t.val % 16) + q.val; omega)

/-- The masked data-to-data scores of row r at point t are the closed form's at row R, block t % 16. -/
theorem blkF (c : Dev nD) (t : Fin cfg0.N) (r : Fin 1024) (hR : 1024 * (t.val / 16) + r.val < 8192)
    (hj : t.val % 16 < 16) :
    (fun q : Fin 512 => k0_pay15 (F := Ideal) (grid0.coords t) (iblk m c 0 t) (iblk m c 1 t) (ix2 r q))
      = Cert.Bridge.sF (m ((c.tc : Thread nD τ).loc main_arg0)) ⟨1024 * (t.val / 16) + r.val, hR⟩ ⟨t.val % 16, hj⟩ := by
  funext q
  obtain ⟨hc0, hc1⟩ := coords_facts t
  have hC : 512 * (t.val % 16) + q.val < 8192 := by omega
  rw [Payload.pay15_apply, Payload.cK_eq, Payload.NEGv_eq]
  unfold Cert.Bridge.sF
  rw [colOf_blk t q hj hC]
  by_cases hd : (grid0.coords t 0).val * 1024 + r.val = (grid0.coords t 1).val * 512 + q.val
  · rw [if_pos hd, if_pos (Fin.ext (by show 512 * (t.val % 16) + q.val = 1024 * (t.val / 16) + r.val; omega))]
  · rw [if_neg hd, if_neg (fun h => hd (by
      have h' : 512 * (t.val % 16) + q.val = 1024 * (t.val / 16) + r.val := congrArg Fin.val h
      omega))]
    unfold Cert.RefValue.dots
    refine congrArg (· * _) (Finset.sum_congr rfl fun k _ => ?_)
    rw [iblk0_apply m c t r k hR, iblk1_apply m c t q k hC, Host.V_v16_apply, Host.V_v16_apply]

/-- The data-to-label scores of row r at point t are the closed form's at row R, block t % 16. -/
theorem blkE (c : Dev nD) (t : Fin cfg0.N) (r : Fin 1024) (hR : 1024 * (t.val / 16) + r.val < 8192)
    (hj : t.val % 16 < 16) :
    (fun q : Fin 512 => k0_pay13 (F := Ideal) (iblk m c 0 t) (iblk m c 2 t) (ix2 r q))
      = Cert.Bridge.sE (m ((c.tc : Thread nD τ).loc main_arg0)) (m ((c.tc : Thread nD τ).loc main_arg1))
          ⟨1024 * (t.val / 16) + r.val, hR⟩ ⟨t.val % 16, hj⟩ := by
  funext q
  have hC : 512 * (t.val % 16) + q.val < 8192 := by omega
  rw [Payload.pay13_apply, Payload.cK_eq]
  unfold Cert.Bridge.sE
  rw [colOf_blk t q hj hC]
  unfold Cert.RefValue.dots
  refine congrArg (· * _) (Finset.sum_congr rfl fun k _ => ?_)
  rw [iblk0_apply m c t r k hR, iblk2_apply m c t q k hC, Host.V_v16_apply, Host.V_v17_apply]

/-- The equal-label mask of row r at point t is the closed form's at row R, block t % 16. -/
theorem blkP (c : Dev nD) (t : Fin cfg0.N) (r : Fin 1024) (hR : 1024 * (t.val / 16) + r.val < 8192)
    (hj : t.val % 16 < 16) :
    (fun q : Fin 512 => decide (k0_pay14 (F := Ideal) (iblk m c 3 t) (iblk m c 4 t) (ix2 r q) = 1#1))
      = Cert.Bridge.pp (m ((c.tc : Thread nD τ).loc main_arg2)) ⟨1024 * (t.val / 16) + r.val, hR⟩ ⟨t.val % 16, hj⟩ := by
  funext q
  have hC : 512 * (t.val % 16) + q.val < 8192 := by omega
  unfold Cert.Bridge.pp
  rw [colOf_blk t q hj hC]
  refine decide_eq_decide.2 ((Payload.pay14_apply _ _ r q).trans ?_)
  rw [iblk3_apply m c t r hR, iblk4_apply m c t q hC, Host.V_v18_apply, Host.V_v19_apply]

/-! ### Part B: the row invariant

  Within row block I the body goes over the 16 column blocks in order.  After column block n the six
  running quantities at row r hold the two streaming recurrences of row R = 1024 I + r after n + 1
  blocks: one for the masked data-to-data scores, one for the data-to-label scores. -/

/-- One more block of the recurrence. -/
theorem run_succ {T B : ℕ} (s : Fin T → Fin B → EReal) (p : Fin T → Fin B → Bool) (n : ℕ) (h : n < T) :
    Cert.StreamExp.run s p (n + 1) = Cert.StreamExp.step (Cert.StreamExp.run s p n) (s ⟨n, h⟩) (p ⟨n, h⟩) := by
  rw [Cert.StreamExp.run, dif_pos h]

/-- The running quantities depend on the point only. -/
theorem stateAt_congr (c : Dev nD) {n n' : ℕ} (e : n = n') (h : n < cfg0.N) (h' : n' < cfg0.N) :
    stateAt m c n h = stateAt m c n' h' := by
  subst e; rfl

/-- The reset values at a row are the recurrence's initial state (first triple). -/
theorem reset_masked (r : Fin 1024) {T B : ℕ} (s : Fin T → Fin B → EReal) (p : Fin T → Fin B → Bool) :
    ((resetState (F := Ideal)).s0 (ix2 r (0 : Fin 1)), (resetState (F := Ideal)).s1 (ix2 r (0 : Fin 1)),
      (resetState (F := Ideal)).s2 (ix2 r (0 : Fin 1))) = Cert.StreamExp.run s p 0 := by
  show (k0_pay6 (F := Ideal) (ix2 r (0 : Fin 1)), k0_pay7 (F := Ideal) (ix2 r (0 : Fin 1)),
    k0_pay8 (F := Ideal) (ix2 r (0 : Fin 1))) = ((⊥ : EReal), (0 : EReal), (0 : EReal))
  rw [Payload.pay6_apply, Payload.pay7_apply, Payload.pay8_apply]

/-- The reset values at a row are the recurrence's initial state (second triple). -/
theorem reset_whole (r : Fin 1024) {T B : ℕ} (s : Fin T → Fin B → EReal) (p : Fin T → Fin B → Bool) :
    ((resetState (F := Ideal)).s3 (ix2 r (0 : Fin 1)), (resetState (F := Ideal)).s4 (ix2 r (0 : Fin 1)),
      (resetState (F := Ideal)).s5 (ix2 r (0 : Fin 1))) = Cert.StreamExp.run s p 0 := by
  show (k0_pay9 (F := Ideal) (ix2 r (0 : Fin 1)), k0_pay10 (F := Ideal) (ix2 r (0 : Fin 1)),
    k0_pay11 (F := Ideal) (ix2 r (0 : Fin 1))) = ((⊥ : EReal), (0 : EReal), (0 : EReal))
  rw [Payload.pay9_apply, Payload.pay10_apply, Payload.pay11_apply]

/-- Folding column block n into a state that holds n blocks of the masked recurrence gives n + 1 blocks. -/
theorem fold_masked (c : Dev nD) (t : Fin cfg0.N) (P : Carried Ideal) (r : Fin 1024) (R : Fin 8192) (n : ℕ) (hn : n < 16)
    (hRv : R.val = 1024 * (t.val / 16) + r.val) (hnv : t.val % 16 = n)
    (hP : (P.s0 (ix2 r (0 : Fin 1)), P.s1 (ix2 r (0 : Fin 1)), P.s2 (ix2 r (0 : Fin 1)))
      = Cert.StreamExp.run (Cert.Bridge.sF (m ((c.tc : Thread nD τ).loc main_arg0)) R)
          (Cert.Bridge.pp (m ((c.tc : Thread nD τ).loc main_arg2)) R) n) :
    ((foldBlock m c t P).s0 (ix2 r (0 : Fin 1)), (foldBlock m c t P).s1 (ix2 r (0 : Fin 1)),
        (foldBlock m c t P).s2 (ix2 r (0 : Fin 1)))
      = Cert.StreamExp.run (Cert.Bridge.sF (m ((c.tc : Thread nD τ).loc main_arg0)) R)
          (Cert.Bridge.pp (m ((c.tc : Thread nD τ).loc main_arg2)) R) (n + 1) := by
  have hR : 1024 * (t.val / 16) + r.val < 8192 := hRv ▸ R.isLt
  have hj : t.val % 16 < 16 := by omega
  have eR : (⟨1024 * (t.val / 16) + r.val, hR⟩ : Fin 8192) = R := Fin.ext hRv.symm
  have ej : (⟨t.val % 16, hj⟩ : Fin 16) = ⟨n, hn⟩ := Fin.ext hnv
  rw [run_succ _ _ n hn, ← hP]
  have h := Payload.step_masked (grid0.coords t) (iblk m c 0 t) (iblk m c 1 t) (iblk m c 3 t) (iblk m c 4 t)
    P.s0 P.s1 P.s2 r
  rw [blkF m c t r hR hj, blkP m c t r hR hj, eR, ej] at h
  exact h

/-- Folding column block n into a state that holds n blocks of the unmasked recurrence gives n + 1 blocks. -/
theorem fold_whole (c : Dev nD) (t : Fin cfg0.N) (P : Carried Ideal) (r : Fin 1024) (R : Fin 8192) (n : ℕ) (hn : n < 16)
    (hRv : R.val = 1024 * (t.val / 16) + r.val) (hnv : t.val % 16 = n)
    (hP : (P.s3 (ix2 r (0 : Fin 1)), P.s4 (ix2 r (0 : Fin 1)), P.s5 (ix2 r (0 : Fin 1)))
      = Cert.StreamExp.run (Cert.Bridge.sE (m ((c.tc : Thread nD τ).loc main_arg0)) (m ((c.tc : Thread nD τ).loc main_arg1)) R)
          (Cert.Bridge.pp (m ((c.tc : Thread nD τ).loc main_arg2)) R) n) :
    ((foldBlock m c t P).s3 (ix2 r (0 : Fin 1)), (foldBlock m c t P).s4 (ix2 r (0 : Fin 1)),
        (foldBlock m c t P).s5 (ix2 r (0 : Fin 1)))
      = Cert.StreamExp.run (Cert.Bridge.sE (m ((c.tc : Thread nD τ).loc main_arg0)) (m ((c.tc : Thread nD τ).loc main_arg1)) R)
          (Cert.Bridge.pp (m ((c.tc : Thread nD τ).loc main_arg2)) R) (n + 1) := by
  have hR : 1024 * (t.val / 16) + r.val < 8192 := hRv ▸ R.isLt
  have hj : t.val % 16 < 16 := by omega
  have eR : (⟨1024 * (t.val / 16) + r.val, hR⟩ : Fin 8192) = R := Fin.ext hRv.symm
  have ej : (⟨t.val % 16, hj⟩ : Fin 16) = ⟨n, hn⟩ := Fin.ext hnv
  rw [run_succ _ _ n hn, ← hP]
  have h := Payload.step_whole (iblk m c 0 t) (iblk m c 2 t) (iblk m c 3 t) (iblk m c 4 t) P.s3 P.s4 P.s5 r
  rw [blkE m c t r hR hj, blkP m c t r hR hj, eR, ej] at h
  exact h

/-- THE ROW INVARIANT: after column block n of row block I, row r's six running quantities are the two
    recurrences of global row R = 1024 I + r after n + 1 blocks. -/
theorem row_inv (c : Dev nD) (I : Fin 8) (r : Fin 1024) (R : Fin 8192) (hRv : R.val = 1024 * I.val + r.val) :
    ∀ (n : ℕ) (hn : n < 16) (ht : 16 * I.val + n < cfg0.N),
      ((stateAt m c (16 * I.val + n) ht).s0 (ix2 r (0 : Fin 1)), (stateAt m c (16 * I.val + n) ht).s1 (ix2 r (0 : Fin 1)),
          (stateAt m c (16 * I.val + n) ht).s2 (ix2 r (0 : Fin 1)))
        = Cert.StreamExp.run (Cert.Bridge.sF (m ((c.tc : Thread nD τ).loc main_arg0)) R)
            (Cert.Bridge.pp (m ((c.tc : Thread nD τ).loc main_arg2)) R) (n + 1)
      ∧ ((stateAt m c (16 * I.val + n) ht).s3 (ix2 r (0 : Fin 1)), (stateAt m c (16 * I.val + n) ht).s4 (ix2 r (0 : Fin 1)),
          (stateAt m c (16 * I.val + n) ht).s5 (ix2 r (0 : Fin 1)))
        = Cert.StreamExp.run (Cert.Bridge.sE (m ((c.tc : Thread nD τ).loc main_arg0)) (m ((c.tc : Thread nD τ).loc main_arg1)) R)
            (Cert.Bridge.pp (m ((c.tc : Thread nD τ).loc main_arg2)) R) (n + 1) := by
  intro n
  induction n with
  | zero =>
    intro hn ht
    have hfold : stateAt m c (16 * I.val + 0) ht = foldBlock m c ⟨16 * I.val + 0, ht⟩ resetState :=
      (stateAt_fold m c ⟨16 * I.val + 0, ht⟩).trans
        (by rw [if_pos (show (16 * I.val + 0) % 16 = 0 by omega)])
    rw [hfold]
    have h1 : R.val = 1024 * ((16 * I.val + 0) / 16) + r.val := by omega
    have h2 : (16 * I.val + 0) % 16 = 0 := by omega
    exact ⟨fold_masked m c ⟨16 * I.val + 0, ht⟩ resetState r R 0 hn h1 h2 (reset_masked r _ _),
      fold_whole m c ⟨16 * I.val + 0, ht⟩ resetState r R 0 hn h1 h2 (reset_whole r _ _)⟩
  | succ n ih =>
    intro hn ht
    have ht' : 16 * I.val + n < cfg0.N := by omega
    obtain ⟨ihF, ihE⟩ := ih (by omega) ht'
    have hfold : stateAt m c (16 * I.val + (n + 1)) ht
        = foldBlock m c ⟨16 * I.val + (n + 1), ht⟩ (stateAt m c (16 * I.val + n) ht') :=
      (stateAt_fold m c ⟨16 * I.val + (n + 1), ht⟩).trans
        (by rw [if_neg (show ¬ (16 * I.val + (n + 1)) % 16 = 0 by omega)]
            exact congrArg _ (stateAt_congr m c (by show 16 * I.val + (n + 1) - 1 = 16 * I.val + n; omega) _ _))
    rw [hfold]
    have h1 : R.val = 1024 * ((16 * I.val + (n + 1)) / 16) + r.val := by omega
    have h2 : (16 * I.val + (n + 1)) % 16 = n + 1 := by omega
    exact ⟨fold_masked m c ⟨16 * I.val + (n + 1), ht⟩ _ r R (n + 1) hn h1 h2 ihF,
      fold_whole m c ⟨16 * I.val + (n + 1), ht⟩ _ r R (n + 1) hn h1 h2 ihE⟩

/-- The row invariant at column block j of row block I, with the global row written out. -/
theorem row_state (c : Dev nD) (I : Fin 8) (j : Fin 16) (r : Fin 1024) (ht : 16 * I.val + j.val < cfg0.N)
    (hR : 1024 * I.val + r.val < 8192) :
    ((stateAt m c (16 * I.val + j.val) ht).s0 (ix2 r (0 : Fin 1)), (stateAt m c (16 * I.val + j.val) ht).s1 (ix2 r (0 : Fin 1)),
        (stateAt m c (16 * I.val + j.val) ht).s2 (ix2 r (0 : Fin 1)))
      = Cert.StreamExp.run (Cert.Bridge.sF (m ((c.tc : Thread nD τ).loc main_arg0)) ⟨1024 * I.val + r.val, hR⟩)
          (Cert.Bridge.pp (m ((c.tc : Thread nD τ).loc main_arg2)) ⟨1024 * I.val + r.val, hR⟩) (j.val + 1)
    ∧ ((stateAt m c (16 * I.val + j.val) ht).s3 (ix2 r (0 : Fin 1)), (stateAt m c (16 * I.val + j.val) ht).s4 (ix2 r (0 : Fin 1)),
        (stateAt m c (16 * I.val + j.val) ht).s5 (ix2 r (0 : Fin 1)))
      = Cert.StreamExp.run (Cert.Bridge.sE (m ((c.tc : Thread nD τ).loc main_arg0)) (m ((c.tc : Thread nD τ).loc main_arg1))
            ⟨1024 * I.val + r.val, hR⟩)
          (Cert.Bridge.pp (m ((c.tc : Thread nD τ).loc main_arg2)) ⟨1024 * I.val + r.val, hR⟩) (j.val + 1) :=
  row_inv m c I r ⟨1024 * I.val + r.val, hR⟩ rfl j.val j.isLt ht

end Cert.KernelIdeal.Flash
end
-- ==== Proof.KiValue.lean ====
/-
  The kernel's value: the result buffer ends at the streamed closed form of the three argument arrays.

  After the last key block of row block I the output block's row r is log((n_E + n_F) / (l_E + l_F)) of the running
  quantities, which by the row invariant are the 16-block streams of row 1024·I + r; the eight blocks tile the output
  array; the host operations after the region take minus the mean of its 8192 entries.
-/
import proofs.«129704_j5781025981007_2_alg».proof.Proof.KiPieces
import proofs.«129704_j5781025981007_2_alg».proof.Proof.KiTail
import proofs.«129704_j5781025981007_2_alg».proof.Proof.KiRow

set_option maxRecDepth 16384

noncomputable section

namespace Cert.KernelIdeal.Flash

open Cert.KernelIdeal Cert.KernelIdeal.Gen Cert.KernelIdeal.Payload
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The output array as one function of the argument arrays: row R holds the streamed row logarithm. -/
def outG (c : Dev nD) : S8192x1.Idx → EReal := fun i =>
  Cert.Bridge.rowOut (m ((c.tc : Thread nD τ).loc main_arg0)) (m ((c.tc : Thread nD τ).loc main_arg1)) (m ((c.tc : Thread nD τ).loc main_arg2)) ⟨(i 0).val, (i 0).isLt⟩

/-- What a last key block writes back is the output array's block there. -/
theorem flushed_eq (c : Dev nD) (t : Fin cfg0.N) (hf : (cfg0.win 5).flush t = true) :
    (dats m 0 c).flushed 5 t = ((cfg0.win 5).blk t).view.read (Elt Ideal) (outG m c) := by
  have hN : t.val < 128 := lt_of_lt_of_eq t.isLt (show cfg0.N = 128 from N_0)
  have h15 : t.val % 16 = 15 := (flush0_5 t).mp hf
  have h0 : ¬t.val % 16 = 0 := by omega
  funext y
  show (cfg0.win 5).cut (grid0.coords t) ((dats m 0 c).after 5 t) y = _
  rw [after_5, outAt_last m c t h0 h15, outLast_eq]
  have hS : foldBlock m c t (stateAt m c (t.val - 1) (Nat.lt_of_le_of_lt (Nat.sub_le _ _) t.isLt)) = stateAt m c t.val t.isLt := by
    rw [stateAt_fold m c t, if_neg h0]
  rw [hS]
  obtain ⟨r, u, rfl⟩ : ∃ (r : Fin 1024) (u : Fin 1), y = ix2 r u := ⟨y 0, y 1, eq_ix2 y⟩
  obtain rfl : u = 0 := Subsingleton.elim _ _
  have hR : 1024 * (t.val / 16) + r.val < 8192 := by have := r.isLt; omega
  have ht : 16 * (t.val / 16) + 15 < cfg0.N := by have := t.isLt; omega
  obtain ⟨hF, hE⟩ := row_state m c ⟨t.val / 16, by omega⟩ ⟨15, by omega⟩ r ht hR
  rw [stateAt_congr m c (show 16 * (t.val / 16) + 15 = t.val by omega) ht t.isLt] at hF hE
  have e1 := congrArg (fun x => x.2.1) hF
  have e2 := congrArg (fun x => x.2.2) hF
  have e4 := congrArg (fun x => x.2.1) hE
  have e5 := congrArg (fun x => x.2.2) hE
  dsimp only at e1 e2 e4 e5
  show k0_pay5 (F := Ideal) _ _ _ _ (ix2 r (0 : Fin 1)) = _
  rw [pay5_apply, e1, e2, e4, e5, View.read_apply, emb5 t r hR]
  rfl

/-- The eight output blocks tile the array: after the region it is `outG`. -/
theorem outArr_eq (c : Dev nD) : (outArr m c : S8192x1.Idx → EReal) = outG m c :=
  (dats m 0 c).arrAt_eq_of_cover 5 (outG m c) (fun t hf => flushed_eq m c t hf) cover5

/-- THE KERNEL'S VALUE: every weakly fair execution terminates with the result at the streamed closed form of the
    argument arrays, and the arguments unchanged. -/
theorem kernel_value : θ_run defs (onTc (τ := τ) (main (F := Ideal))) ⟨m, fun _ => 0, ρ⟩ (fun r => ∀ c : Dev nD,
      r.2.mem ((c.tc : Thread nD τ).loc main_v0)
        = (fun _ => Cert.Bridge.KerSpec (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v0 (by decide)).trans (funext fun i => by
        rw [eq_ix0 i]
        exact (Vend_out m c (outG m c) (outArr_eq m c)).trans rfl),
      ((h c).2 main_arg0 (by decide)).trans (Vend_arg0 m c), ((h c).2 main_arg1 (by decide)).trans (Vend_arg1 m c),
      ((h c).2 main_arg2 (by decide)).trans (Vend_arg2 m c)⟩) (run_main m ρ)

end Cert.KernelIdeal.Flash

end
-- ==== Proof.RefRun.lean ====
/-
The reference's run, read one stretch of operations at a time.

@main is a straight line of 121 host operations, each writing a buffer of its own from buffers written before it.
The fold of their results over the launch contents (`StableHlo.after`) is therefore, at the result buffer, the
composition of the operations' pure functions over the three argument arrays. The line is read in ten consecutive
stretches:

  A        the two row normalisations, the off-diagonal index table, the data-to-data products      (%0 … %27)
  B1 B2 B3 the first take_along_axis: the products with the diagonal removed                          (… %28)
  C        their row maximum, the shifted exponentials, and the label-equality mask                   (… %41)
  D1 D2 D3 the second take_along_axis: the mask with the diagonal removed                             (… %42)
  E        the data-to-label products, their row maximum and shifted exponentials                     (… %51)
  F        the four row sums, the quotient, its logarithm, and the mean                               (… %64)

(a take_along_axis is cut where its indices are recast with a trailing unit axis, so that this recast is read alone).
For a stretch and ANY contents `V` before it, each buffer the later stretches read is the stage of the stages of the
buffers the stretch itself reads (`val_…`, the operations read one at a time), and a buffer the stretch does not
write is unchanged. Chaining the ten statements, the contents between two stretches made a variable before the next
stretch is read, gives the result buffer as `val_main_v64` of the three arguments, and the arguments unchanged.
-/
import proofs.«129704_j5781025981007_2_alg».proof.Proof.RefRunP
import proofs.«129704_j5781025981007_2_alg».proof.Proof.RefReadP

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

-- A TensorCore buffer as the device reference the fold is indexed by.
set_option quotPrecheck false in
local notation "⟪" r "⟫" => (Proc.devRef .tc r : DevRef τ sig)

/-- The fold over two stretches in a row is the fold over the second from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The ten stretches -/

/-- Operations 1 … 32: %0 … %27 — the two row normalisations, the off-diagonal index table, the data-to-data products. -/
def opsA : List (HloOp τ sig (Elt F)) :=
  [ binary main_arg0 main_arg0 main_v0 (mulf : (⟨S8192x512, .f32⟩ : BufTy).Contents (Elt F) → (⟨S8192x512, .f32⟩ : BufTy).Contents (Elt F) → (⟨S8192x512, .f32⟩ : BufTy).Contents (Elt F)),
    nullary main_cst (constant S_ .f32 0x00000000#32),
    binary main_v0 main_cst main_v1 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v2 main_v3 (Host.sqrt : (⟨S8192x1, .f32⟩ : BufTy).Contents (Elt F) → (⟨S8192x1, .f32⟩ : BufTy).Contents (Elt F)),
    nullary main_cst_0 (constant S_ .f32 0x322BCC77#32),
    unary main_cst_0 main_v4 (broadcastInDim S8192x1 ![] bcast_S_S8192x1 : (⟨S_, .f32⟩ : BufTy).Contents (Elt F) → (⟨S8192x1, .f32⟩ : BufTy).Contents (Elt F)),
    binary main_v3 main_v4 main_v5 (maximumf : (⟨S8192x1, .f32⟩ : BufTy).Contents (Elt F) → (⟨S8192x1, .f32⟩ : BufTy).Contents (Elt F) → (⟨S8192x1, .f32⟩ : BufTy).Contents (Elt F)),
    unary main_v5 main_v6 (broadcastInDim S8192x512 ![0, 1] bcast_S8192x1_S8192x512_0_1 : (⟨S8192x1, .f32⟩ : BufTy).Contents (Elt F) → (⟨S8192x512, .f32⟩ : BufTy).Contents (Elt F)),
    binary main_arg0 main_v6 main_v7 (Host.divf : (⟨S8192x512, .f32⟩ : BufTy).Contents (Elt F) → (⟨S8192x512, .f32⟩ : BufTy).Contents (Elt F) → (⟨S8192x512, .f32⟩ : BufTy).Contents (Elt F)),
    binary main_arg1 main_arg1 main_v8 (mulf : (⟨S8192x512, .f32⟩ : BufTy).Contents (Elt F) → (⟨S8192x512, .f32⟩ : BufTy).Contents (Elt F) → (⟨S8192x512, .f32⟩ : BufTy).Contents (Elt F)),
    nullary main_cst_1 (constant S_ .f32 0x00000000#32),
    binary main_v8 main_cst_1 main_v9 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v9 main_v10 (broadcastInDim S8192x1 ![0] bcast_S8192_S8192x1_0 : (⟨S8192, .f32⟩ : BufTy).Contents (Elt F) → (⟨S8192x1, .f32⟩ : BufTy).Contents (Elt F)),
    unary main_v10 main_v11 (Host.sqrt : (⟨S8192x1, .f32⟩ : BufTy).Contents (Elt F) → (⟨S8192x1, .f32⟩ : BufTy).Contents (Elt F)),
    nullary main_cst_2 (constant S_ .f32 0x322BCC77#32),
    unary main_cst_2 main_v12 (broadcastInDim S8192x1 ![] bcast_S_S8192x1 : (⟨S_, .f32⟩ : BufTy).Contents (Elt F) → (⟨S8192x1, .f32⟩ : BufTy).Contents (Elt F)),
    binary main_v11 main_v12 main_v13 (maximumf : (⟨S8192x1, .f32⟩ : BufTy).Contents (Elt F) → (⟨S8192x1, .f32⟩ : BufTy).Contents (Elt F) → (⟨S8192x1, .f32⟩ : BufTy).Contents (Elt F)),
    unary main_v13 main_v14 (broadcastInDim S8192x512 ![0, 1] bcast_S8192x1_S8192x512_0_1 : (⟨S8192x1, .f32⟩ : BufTy).Contents (Elt F) → (⟨S8192x512, .f32⟩ : BufTy).Contents (Elt F)),
    binary main_arg1 main_v14 main_v15 (Host.divf : (⟨S8192x512, .f32⟩ : BufTy).Contents (Elt F) → (⟨S8192x512, .f32⟩ : BufTy).Contents (Elt F) → (⟨S8192x512, .f32⟩ : BufTy).Contents (Elt F)),
    nullary main_v16 (iotaInDim S8191 32 0),
    unary main_v16 main_v17 (broadcastInDim S1x8191 ![1] bcast_S8191_S1x8191_1 : (⟨S8191, .i32⟩ : BufTy).Contents (Elt F) → (⟨S1x8191, .i32⟩ : BufTy).Contents (Elt F)),
    nullary main_v18 (iotaInDim S8192 32 0),
    unary main_v18 main_v19 (broadcastInDim S8192x1 ![0] bcast_S8192_S8192x1_0 : (⟨S8192, .i32⟩ : BufTy).Contents (Elt F) → (⟨S8192x1, .i32⟩ : BufTy).Contents (Elt F)),
    unary main_v17 main_v20 (broadcastInDim S8192x8191 ![0, 1] bcast_S1x8191_S8192x8191_0_1 : (⟨S1x8191, .i32⟩ : BufTy).Contents (Elt F) → (⟨S8192x8191, .i32⟩ : BufTy).Contents (Elt F)),
    unary main_v19 main_v21 (broadcastInDim S8192x8191 ![0, 1] bcast_S8192x1_S8192x8191_0_1 : (⟨S8192x1, .i32⟩ : BufTy).Contents (Elt F) → (⟨S8192x8191, .i32⟩ : BufTy).Contents (Elt F)),
    binary main_v20 main_v21 main_v22 (cmpi .sge : (⟨S8192x8191, .i32⟩ : BufTy).Contents (Elt F) → (⟨S8192x8191, .i32⟩ : BufTy).Contents (Elt F) → (⟨S8192x8191, .i1⟩ : BufTy).Contents (Elt F)),
    unary main_v22 main_v23 ((extui 32 · natLt_1_32) : (⟨S8192x8191, .i1⟩ : BufTy).Contents (Elt F) → (⟨S8192x8191, .i32⟩ : BufTy).Contents (Elt F)),
    unary main_v17 main_v24 (broadcastInDim S8192x8191 ![0, 1] bcast_S1x8191_S8192x8191_0_1 : (⟨S1x8191, .i32⟩ : BufTy).Contents (Elt F) → (⟨S8192x8191, .i32⟩ : BufTy).Contents (Elt F)),
    binary main_v24 main_v23 main_v25 (addi : (⟨S8192x8191, .i32⟩ : BufTy).Contents (Elt F) → (⟨S8192x8191, .i32⟩ : BufTy).Contents (Elt F) → (⟨S8192x8191, .i32⟩ : BufTy).Contents (Elt F)),
    unary main_v7 main_v26 ((transpose S512x8192 [1, 0] · transposes_S8192x512_S512x8192_1_0) : (⟨S8192x512, .f32⟩ : BufTy).Contents (Elt F) → (⟨S512x8192, .f32⟩ : BufTy).Contents (Elt F)),
    binary main_v7 main_v26 main_v27 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)) ]
/-- The buffers stretch A writes. -/
abbrev wA : List (Ref sig .tc) := [main_v0, main_cst, main_v1, main_v2, main_v3, main_cst_0, main_v4, main_v5, main_v6, main_v7, main_v8, main_cst_1, main_v9, main_v10, main_v11, main_cst_2, main_v12, main_v13, main_v14, main_v15, main_v16, main_v17, main_v18, main_v19, main_v20, main_v21, main_v22, main_v23, main_v24, main_v25, main_v26, main_v27]

/-- Operations 33 … 39: the first take_along_axis brings its indices into range (a negative one moved up by the row length). -/
def opsB1 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S8192x8191, .i32⟩) main_call0_v0) (broadcastInDim S8192x8191 ![] bcast_S_S8192x8191),
    TRef.binary (TRef.of (T := ⟨S8192x8191, .i32⟩) main_v25) (TRef.of (T := ⟨S8192x8191, .i32⟩) main_call0_v0) (TRef.of (T := ⟨S8192x8191, .i1⟩) main_call0_v1) (cmpi .slt),
    TRef.nullary (TRef.of (T := ⟨S_, .i32⟩) main_call0_c_0) (constantI S_ 32 8192#32),
    TRef.unary (TRef.of (T := ⟨S_, .i32⟩) main_call0_c_0) (TRef.of (T := ⟨S8192x8191, .i32⟩) main_call0_v2) (broadcastInDim S8192x8191 ![] bcast_S_S8192x8191),
    TRef.binary (TRef.of (T := ⟨S8192x8191, .i32⟩) main_v25) (TRef.of (T := ⟨S8192x8191, .i32⟩) main_call0_v2) (TRef.of (T := ⟨S8192x8191, .i32⟩) main_call0_v3) addi,
    TRef.ternary (TRef.of (T := ⟨S8192x8191, .i1⟩) main_call0_v1) (TRef.of (T := ⟨S8192x8191, .i32⟩) main_call0_v3) (TRef.of (T := ⟨S8192x8191, .i32⟩) main_v25) (TRef.of (T := ⟨S8192x8191, .i32⟩) main_call0_v4) select ]
/-- The buffers stretch B1 writes. -/
abbrev wB1 : List (Ref sig .tc) := [main_call0_c, main_call0_v0, main_call0_v1, main_call0_c_0, main_call0_v2, main_call0_v3, main_call0_v4]

/-- Operation 40: the indices recast with a trailing unit axis. -/
def opsB2 : List (HloOp τ sig (Elt F)) :=
  [ TRef.reshape (TRef.of (T := ⟨S8192x8191, .i32⟩) main_call0_v4) (TRef.of (T := ⟨S8192x8191x1, .i32⟩) main_call0_v5) rfl shapeCasts_S8192x8191_S8192x8191x1 ]
/-- The buffers stretch B2 writes. -/
abbrev wB2 : List (Ref sig .tc) := [main_call0_v5]

/-- Operations 41 … 54: the in-range test, the gather along the row, and the choice between them, ending in %28. -/
def opsB3 : List (HloOp τ sig (Elt F)) :=
  [ TRef.nullary (TRef.of (T := ⟨S1, .i32⟩) main_call0_c_1) (constantI S1 32 8191#32),
    TRef.nullary (TRef.of (T := ⟨S_, .i32⟩) main_call0_c_2) (constantI S_ 32 0#32),
    TRef.unary (TRef.of (T := ⟨S_, .i32⟩) main_call0_c_2) (TRef.of (T := ⟨S8192x8191x1, .i32⟩) main_call0_v6) (broadcastInDim S8192x8191x1 ![] bcast_S_S8192x8191x1),
    TRef.binary (TRef.of (T := ⟨S8192x8191x1, .i32⟩) main_call0_v5) (TRef.of (T := ⟨S8192x8191x1, .i32⟩) main_call0_v6) (TRef.of (T := ⟨S8192x8191x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S8192x8191x1, .i32⟩) main_call0_v9) (broadcastInDim S8192x8191x1 ![0, 1, 2] bcast_S1x1x1_S8192x8191x1_0_1_2),
    TRef.binary (TRef.of (T := ⟨S8192x8191x1, .i32⟩) main_call0_v5) (TRef.of (T := ⟨S8192x8191x1, .i32⟩) main_call0_v9) (TRef.of (T := ⟨S8192x8191x1, .i1⟩) main_call0_v10) (cmpi .sle),
    TRef.binary (TRef.of (T := ⟨S8192x8191x1, .i1⟩) main_call0_v7) (TRef.of (T := ⟨S8192x8191x1, .i1⟩) main_call0_v10) (TRef.of (T := ⟨S8192x8191x1, .i1⟩) main_call0_v11) andi,
    TRef.nullary (TRef.of (T := ⟨S_, .i1⟩) main_call0_c_3) (constantI S_ 1 1#1),
    TRef.binary (TRef.of (T := ⟨S8192x8191x1, .i1⟩) main_call0_v11) (TRef.of (T := ⟨S_, .i1⟩) main_call0_c_3) (TRef.of (T := ⟨S8192x8191, .i1⟩) main_call0_v12) (fun x v => Host.reduce IntOp.andi x v reducesTo_S8192x8191x1_S8192x8191_d2 h_S_),
    TRef.binary (TRef.of (T := ⟨S8192x8192, .f32⟩) main_v27) (TRef.of (T := ⟨S8192x8191x1, .i32⟩) main_call0_v5) (TRef.of (T := ⟨S8192x8191, .f32⟩) main_call0_v13) (fun x i => Host.gather gather_S8192x8192_S8192x8191x1_S8192x8191_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S8192x8191, .f32⟩) main_call0_v14) (broadcastInDim S8192x8191 ![] bcast_S_S8192x8191),
    TRef.ternary (TRef.of (T := ⟨S8192x8191, .i1⟩) main_call0_v12) (TRef.of (T := ⟨S8192x8191, .f32⟩) main_call0_v13) (TRef.of (T := ⟨S8192x8191, .f32⟩) main_call0_v14) (TRef.of (T := ⟨S8192x8191, .f32⟩) main_v28) select ]
/-- The buffers stretch B3 writes. -/
abbrev wB3 : List (Ref sig .tc) := [main_call0_c_1, main_call0_c_2, main_call0_v6, main_call0_v7, main_call0_v8, main_call0_v9, main_call0_v10, main_call0_v11, main_call0_c_3, main_call0_v12, main_call0_v13, main_call0_cst, main_call0_v14, main_v28]

/-- Operations 55 … 69: %cst_3 … %41 — the row maximum, the shifted exponentials, the label-equality mask. -/
def opsC : List (HloOp τ sig (Elt F)) :=
  [ nullary main_cst_3 (constant S_ .f32 0xFF800000#32),
    binary main_v28 main_cst_3 main_v29 ((fun x v => Host.reduce FloatOps.maximumf x v reducesTo_S8192x8191_S8192_d1 h_S_) : (⟨S8192x8191, .f32⟩ : BufTy).Contents (Elt F) → (⟨S_, .f32⟩ : BufTy).Contents (Elt F) → (⟨S8192, .f32⟩ : BufTy).Contents (Elt F)),
    unary main_v29 main_v30 (broadcastInDim S8192x1 ![0] bcast_S8192_S8192x1_0 : (⟨S8192, .f32⟩ : BufTy).Contents (Elt F) → (⟨S8192x1, .f32⟩ : BufTy).Contents (Elt F)),
    unary main_v30 main_v31 (broadcastInDim S8192x8191 ![0, 1] bcast_S8192x1_S8192x8191_0_1 : (⟨S8192x1, .f32⟩ : BufTy).Contents (Elt F) → (⟨S8192x8191, .f32⟩ : BufTy).Contents (Elt F)),
    binary main_v28 main_v31 main_v32 (subf : (⟨S8192x8191, .f32⟩ : BufTy).Contents (Elt F) → (⟨S8192x8191, .f32⟩ : BufTy).Contents (Elt F) → (⟨S8192x8191, .f32⟩ : BufTy).Contents (Elt F)),
    nullary main_cst_4 (constant S_ .f32 0x3D8F5C29#32),
    unary main_cst_4 main_v33 (broadcastInDim S8192x8191 ![] bcast_S_S8192x8191 : (⟨S_, .f32⟩ : BufTy).Contents (Elt F) → (⟨S8192x8191, .f32⟩ : BufTy).Contents (Elt F)),
    binary main_v32 main_v33 main_v34 (Host.divf : (⟨S8192x8191, .f32⟩ : BufTy).Contents (Elt F) → (⟨S8192x8191, .f32⟩ : BufTy).Contents (Elt F) → (⟨S8192x8191, .f32⟩ : BufTy).Contents (Elt F)),
    unary main_v34 main_v35 (Host.exp : (⟨S8192x8191, .f32⟩ : BufTy).Contents (Elt F) → (⟨S8192x8191, .f32⟩ : BufTy).Contents (Elt F)),
    unary main_arg2 main_v36 (broadcastInDim S8192x1 ![0] bcast_S8192_S8192x1_0 : (⟨S8192, .i32⟩ : BufTy).Contents (Elt F) → (⟨S8192x1, .i32⟩ : BufTy).Contents (Elt F)),
    unary main_arg2 main_v37 (broadcastInDim S1x8192 ![1] bcast_S8192_S1x8192_1 : (⟨S8192, .i32⟩ : BufTy).Contents (Elt F) → (⟨S1x8192, .i32⟩ : BufTy).Contents (Elt F)),
    unary main_v36 main_v38 (broadcastInDim S8192x8192 ![0, 1] bcast_S8192x1_S8192x8192_0_1 : (⟨S8192x1, .i32⟩ : BufTy).Contents (Elt F) → (⟨S8192x8192, .i32⟩ : BufTy).Contents (Elt F)),
    unary main_v37 main_v39 (broadcastInDim S8192x8192 ![0, 1] bcast_S1x8192_S8192x8192_0_1 : (⟨S1x8192, .i32⟩ : BufTy).Contents (Elt F) → (⟨S8192x8192, .i32⟩ : BufTy).Contents (Elt F)),
    binary main_v38 main_v39 main_v40 (cmpi .eq : (⟨S8192x8192, .i32⟩ : BufTy).Contents (Elt F) → (⟨S8192x8192, .i32⟩ : BufTy).Contents (Elt F) → (⟨S8192x8192, .i1⟩ : BufTy).Contents (Elt F)),
    unary main_v40 main_v41 (uitofp .f32 : (⟨S8192x8192, .i1⟩ : BufTy).Contents (Elt F) → (⟨S8192x8192, .f32⟩ : BufTy).Contents (Elt F)) ]
/-- The buffers stretch C writes. -/
abbrev wC : List (Ref sig .tc) := [main_cst_3, main_v29, main_v30, main_v31, main_v32, main_cst_4, main_v33, main_v34, main_v35, main_v36, main_v37, main_v38, main_v39, main_v40, main_v41]

/-- Operations 70 … 76: the second take_along_axis brings its indices into range. -/
def opsD1 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S8192x8191, .i32⟩) main_call1_v0) (broadcastInDim S8192x8191 ![] bcast_S_S8192x8191),
    TRef.binary (TRef.of (T := ⟨S8192x8191, .i32⟩) main_v25) (TRef.of (T := ⟨S8192x8191, .i32⟩) main_call1_v0) (TRef.of (T := ⟨S8192x8191, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S8192x8191, .i32⟩) main_call1_v2) (broadcastInDim S8192x8191 ![] bcast_S_S8192x8191),
    TRef.binary (TRef.of (T := ⟨S8192x8191, .i32⟩) main_v25) (TRef.of (T := ⟨S8192x8191, .i32⟩) main_call1_v2) (TRef.of (T := ⟨S8192x8191, .i32⟩) main_call1_v3) addi,
    TRef.ternary (TRef.of (T := ⟨S8192x8191, .i1⟩) main_call1_v1) (TRef.of (T := ⟨S8192x8191, .i32⟩) main_call1_v3) (TRef.of (T := ⟨S8192x8191, .i32⟩) main_v25) (TRef.of (T := ⟨S8192x8191, .i32⟩) main_call1_v4) select ]
/-- The buffers stretch D1 writes. -/
abbrev wD1 : List (Ref sig .tc) := [main_call1_c, main_call1_v0, main_call1_v1, main_call1_c_0, main_call1_v2, main_call1_v3, main_call1_v4]

/-- Operation 77: the indices recast with a trailing unit axis. -/
def opsD2 : List (HloOp τ sig (Elt F)) :=
  [ TRef.reshape (TRef.of (T := ⟨S8192x8191, .i32⟩) main_call1_v4) (TRef.of (T := ⟨S8192x8191x1, .i32⟩) main_call1_v5) rfl shapeCasts_S8192x8191_S8192x8191x1 ]
/-- The buffers stretch D2 writes. -/
abbrev wD2 : List (Ref sig .tc) := [main_call1_v5]

/-- Operations 78 … 91: the in-range test, the gather along the row, and the choice between them, ending in %42. -/
def opsD3 : List (HloOp τ sig (Elt F)) :=
  [ TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S8192x8191x1, .i32⟩) main_call1_v6) (broadcastInDim S8192x8191x1 ![] bcast_S_S8192x8191x1),
    TRef.binary (TRef.of (T := ⟨S8192x8191x1, .i32⟩) main_call1_v5) (TRef.of (T := ⟨S8192x8191x1, .i32⟩) main_call1_v6) (TRef.of (T := ⟨S8192x8191x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x8191x1, .i32⟩) main_call1_v9) (broadcastInDim S8192x8191x1 ![0, 1, 2] bcast_S1x1x1_S8192x8191x1_0_1_2),
    TRef.binary (TRef.of (T := ⟨S8192x8191x1, .i32⟩) main_call1_v5) (TRef.of (T := ⟨S8192x8191x1, .i32⟩) main_call1_v9) (TRef.of (T := ⟨S8192x8191x1, .i1⟩) main_call1_v10) (cmpi .sle),
    TRef.binary (TRef.of (T := ⟨S8192x8191x1, .i1⟩) main_call1_v7) (TRef.of (T := ⟨S8192x8191x1, .i1⟩) main_call1_v10) (TRef.of (T := ⟨S8192x8191x1, .i1⟩) main_call1_v11) andi,
    TRef.nullary (TRef.of (T := ⟨S_, .i1⟩) main_call1_c_3) (constantI S_ 1 1#1),
    TRef.binary (TRef.of (T := ⟨S8192x8191x1, .i1⟩) main_call1_v11) (TRef.of (T := ⟨S_, .i1⟩) main_call1_c_3) (TRef.of (T := ⟨S8192x8191, .i1⟩) main_call1_v12) (fun x v => Host.reduce IntOp.andi x v reducesTo_S8192x8191x1_S8192x8191_d2 h_S_),
    TRef.binary (TRef.of (T := ⟨S8192x8192, .f32⟩) main_v41) (TRef.of (T := ⟨S8192x8191x1, .i32⟩) main_call1_v5) (TRef.of (T := ⟨S8192x8191, .f32⟩) main_call1_v13) (fun x i => Host.gather gather_S8192x8192_S8192x8191x1_S8192x8191_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x8191, .f32⟩) main_call1_v14) (broadcastInDim S8192x8191 ![] bcast_S_S8192x8191),
    TRef.ternary (TRef.of (T := ⟨S8192x8191, .i1⟩) main_call1_v12) (TRef.of (T := ⟨S8192x8191, .f32⟩) main_call1_v13) (TRef.of (T := ⟨S8192x8191, .f32⟩) main_call1_v14) (TRef.of (T := ⟨S8192x8191, .f32⟩) main_v42) select ]
/-- The buffers stretch D3 writes. -/
abbrev wD3 : List (Ref sig .tc) := [main_call1_c_1, main_call1_c_2, main_call1_v6, main_call1_v7, main_call1_v8, main_call1_v9, main_call1_v10, main_call1_v11, main_call1_c_3, main_call1_v12, main_call1_v13, main_call1_cst, main_call1_v14, main_v42]

/-- Operations 92 … 102: %43 … %51 — the data-to-label products, their row maximum and shifted exponentials. -/
def opsE : List (HloOp τ sig (Elt F)) :=
  [ unary main_v15 main_v43 ((transpose S512x8192 [1, 0] · transposes_S8192x512_S512x8192_1_0) : (⟨S8192x512, .f32⟩ : BufTy).Contents (Elt F) → (⟨S512x8192, .f32⟩ : BufTy).Contents (Elt F)),
    binary main_v7 main_v43 main_v44 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst_5 (constant S_ .f32 0xFF800000#32),
    binary main_v44 main_cst_5 main_v45 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v45 main_v46 (broadcastInDim S8192x1 ![0] bcast_S8192_S8192x1_0 : (⟨S8192, .f32⟩ : BufTy).Contents (Elt F) → (⟨S8192x1, .f32⟩ : BufTy).Contents (Elt F)),
    unary main_v46 main_v47 (broadcastInDim S8192x8192 ![0, 1] bcast_S8192x1_S8192x8192_0_1 : (⟨S8192x1, .f32⟩ : BufTy).Contents (Elt F) → (⟨S8192x8192, .f32⟩ : BufTy).Contents (Elt F)),
    binary main_v44 main_v47 main_v48 (subf : (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0x3D8F5C29#32),
    unary main_cst_6 main_v49 (broadcastInDim S8192x8192 ![] bcast_S_S8192x8192 : (⟨S_, .f32⟩ : BufTy).Contents (Elt F) → (⟨S8192x8192, .f32⟩ : BufTy).Contents (Elt F)),
    binary main_v48 main_v49 main_v50 (Host.divf : (⟨S8192x8192, .f32⟩ : BufTy).Contents (Elt F) → (⟨S8192x8192, .f32⟩ : BufTy).Contents (Elt F) → (⟨S8192x8192, .f32⟩ : BufTy).Contents (Elt F)),
    unary main_v50 main_v51 (Host.exp : (⟨S8192x8192, .f32⟩ : BufTy).Contents (Elt F) → (⟨S8192x8192, .f32⟩ : BufTy).Contents (Elt F)) ]
/-- The buffers stretch E writes. -/
abbrev wE : List (Ref sig .tc) := [main_v43, main_v44, main_cst_5, main_v45, main_v46, main_v47, main_v48, main_cst_6, main_v49, main_v50, main_v51]

/-- Operations 103 … 121: %52 … %64 — the four row sums, the quotient, its logarithm, the mean. -/
def opsF : List (HloOp τ sig (Elt F)) :=
  [ binary main_v41 main_v51 main_v52 (mulf : (⟨S8192x8192, .f32⟩ : BufTy).Contents (Elt F) → (⟨S8192x8192, .f32⟩ : BufTy).Contents (Elt F) → (⟨S8192x8192, .f32⟩ : BufTy).Contents (Elt F)),
    nullary main_cst_7 (constant S_ .f32 0x00000000#32),
    binary main_v52 main_cst_7 main_v53 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v42 main_v35 main_v54 (mulf : (⟨S8192x8191, .f32⟩ : BufTy).Contents (Elt F) → (⟨S8192x8191, .f32⟩ : BufTy).Contents (Elt F) → (⟨S8192x8191, .f32⟩ : BufTy).Contents (Elt F)),
    nullary main_cst_8 (constant S_ .f32 0x00000000#32),
    binary main_v54 main_cst_8 main_v55 ((fun x v => Host.reduceAdd x v reducesTo_S8192x8191_S8192_d1 h_S_) : (⟨S8192x8191, .f32⟩ : BufTy).Contents (Elt F) → (⟨S_, .f32⟩ : BufTy).Contents (Elt F) → (⟨S8192, .f32⟩ : BufTy).Contents (Elt F)),
    binary main_v53 main_v55 main_v56 (addf : (⟨S8192, .f32⟩ : BufTy).Contents (Elt F) → (⟨S8192, .f32⟩ : BufTy).Contents (Elt F) → (⟨S8192, .f32⟩ : BufTy).Contents (Elt F)),
    nullary main_cst_9 (constant S_ .f32 0x00000000#32),
    binary main_v51 main_cst_9 main_v57 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_10 (constant S_ .f32 0x00000000#32),
    binary main_v35 main_cst_10 main_v58 ((fun x v => Host.reduceAdd x v reducesTo_S8192x8191_S8192_d1 h_S_) : (⟨S8192x8191, .f32⟩ : BufTy).Contents (Elt F) → (⟨S_, .f32⟩ : BufTy).Contents (Elt F) → (⟨S8192, .f32⟩ : BufTy).Contents (Elt F)),
    binary main_v57 main_v58 main_v59 (addf : (⟨S8192, .f32⟩ : BufTy).Contents (Elt F) → (⟨S8192, .f32⟩ : BufTy).Contents (Elt F) → (⟨S8192, .f32⟩ : BufTy).Contents (Elt F)),
    binary main_v56 main_v59 main_v60 (Host.divf : (⟨S8192, .f32⟩ : BufTy).Contents (Elt F) → (⟨S8192, .f32⟩ : BufTy).Contents (Elt F) → (⟨S8192, .f32⟩ : BufTy).Contents (Elt F)),
    unary main_v60 main_v61 (Host.log : (⟨S8192, .f32⟩ : BufTy).Contents (Elt F) → (⟨S8192, .f32⟩ : BufTy).Contents (Elt F)),
    nullary main_cst_11 (constant S_ .f32 0x00000000#32),
    binary main_v61 main_cst_11 main_v62 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_12 (constant S_ .f32 0x46000000#32),
    binary main_v62 main_cst_12 main_v63 (Host.divf : (⟨S_, .f32⟩ : BufTy).Contents (Elt F) → (⟨S_, .f32⟩ : BufTy).Contents (Elt F) → (⟨S_, .f32⟩ : BufTy).Contents (Elt F)),
    unary main_v63 main_v64 (Host.negf : (⟨S_, .f32⟩ : BufTy).Contents (Elt F) → (⟨S_, .f32⟩ : BufTy).Contents (Elt F)) ]
/-- The buffers stretch F writes. -/
abbrev wF : List (Ref sig .tc) := [main_v52, main_cst_7, main_v53, main_v54, main_cst_8, main_v55, main_v56, main_cst_9, main_v57, main_cst_10, main_v58, main_v59, main_v60, main_v61, main_cst_11, main_v62, main_cst_12, main_v63, main_v64]

set_option maxRecDepth 8192 in
/-- The ten stretches in order are @main's line. -/
theorem ops_eq : (ValueP.ops : List (HloOp τ sig (Elt F))) = opsA ++ (opsB1 ++ (opsB2 ++ (opsB3 ++ (opsC ++ (opsD1 ++ (opsD2 ++ (opsD3 ++ (opsE ++ (opsF))))))))) := rfl

/-! ## A stretch leaves the buffers it does not write

Every operation writes exactly its result buffer; a reference outside the list of a stretch's result buffers is
therefore outside every operation's writes, and keeps its contents through the stretch. -/

theorem opsA_writes : (opsA : List (HloOp τ sig (Elt F))).Forall fun op => op.writes ⊆ (wA.map (Proc.devRef (τ := τ) .tc)).toFinset := by
  simp only [opsA, List.Forall]
  split_ands <;>
    (simp only [nullary_writes, unary_writes, binary_writes, ternary_writes, reshape_writes, Finset.singleton_subset_iff, List.mem_toFinset]
     exact List.mem_map_of_mem (by decide))
theorem keepA (V : Valuation τ sig (Elt F)) (r : Ref sig .tc) (h : r ∉ wA) : after opsA V ⟪r⟫ = V ⟪r⟫ :=
  after_of_writes_sub opsA V opsA_writes h

theorem opsB1_writes : (opsB1 : List (HloOp τ sig (Elt F))).Forall fun op => op.writes ⊆ (wB1.map (Proc.devRef (τ := τ) .tc)).toFinset := by
  simp only [opsB1, List.Forall]
  split_ands <;>
    (simp only [nullary_writes, unary_writes, binary_writes, ternary_writes, reshape_writes, Finset.singleton_subset_iff, List.mem_toFinset]
     exact List.mem_map_of_mem (by decide))
theorem keepB1 (V : Valuation τ sig (Elt F)) (r : Ref sig .tc) (h : r ∉ wB1) : after opsB1 V ⟪r⟫ = V ⟪r⟫ :=
  after_of_writes_sub opsB1 V opsB1_writes h

theorem opsB2_writes : (opsB2 : List (HloOp τ sig (Elt F))).Forall fun op => op.writes ⊆ (wB2.map (Proc.devRef (τ := τ) .tc)).toFinset := by
  simp only [opsB2, List.Forall, reshape_writes, Finset.singleton_subset_iff, List.mem_toFinset]
  exact List.mem_map_of_mem (by decide)
theorem keepB2 (V : Valuation τ sig (Elt F)) (r : Ref sig .tc) (h : r ∉ wB2) : after opsB2 V ⟪r⟫ = V ⟪r⟫ :=
  after_of_writes_sub opsB2 V opsB2_writes h

theorem opsB3_writes : (opsB3 : List (HloOp τ sig (Elt F))).Forall fun op => op.writes ⊆ (wB3.map (Proc.devRef (τ := τ) .tc)).toFinset := by
  simp only [opsB3, List.Forall]
  split_ands <;>
    (simp only [nullary_writes, unary_writes, binary_writes, ternary_writes, reshape_writes, Finset.singleton_subset_iff, List.mem_toFinset]
     exact List.mem_map_of_mem (by decide))
theorem keepB3 (V : Valuation τ sig (Elt F)) (r : Ref sig .tc) (h : r ∉ wB3) : after opsB3 V ⟪r⟫ = V ⟪r⟫ :=
  after_of_writes_sub opsB3 V opsB3_writes h

theorem opsC_writes : (opsC : List (HloOp τ sig (Elt F))).Forall fun op => op.writes ⊆ (wC.map (Proc.devRef (τ := τ) .tc)).toFinset := by
  simp only [opsC, List.Forall]
  split_ands <;>
    (simp only [nullary_writes, unary_writes, binary_writes, ternary_writes, reshape_writes, Finset.singleton_subset_iff, List.mem_toFinset]
     exact List.mem_map_of_mem (by decide))
theorem keepC (V : Valuation τ sig (Elt F)) (r : Ref sig .tc) (h : r ∉ wC) : after opsC V ⟪r⟫ = V ⟪r⟫ :=
  after_of_writes_sub opsC V opsC_writes h

theorem opsD1_writes : (opsD1 : List (HloOp τ sig (Elt F))).Forall fun op => op.writes ⊆ (wD1.map (Proc.devRef (τ := τ) .tc)).toFinset := by
  simp only [opsD1, List.Forall]
  split_ands <;>
    (simp only [nullary_writes, unary_writes, binary_writes, ternary_writes, reshape_writes, Finset.singleton_subset_iff, List.mem_toFinset]
     exact List.mem_map_of_mem (by decide))
theorem keepD1 (V : Valuation τ sig (Elt F)) (r : Ref sig .tc) (h : r ∉ wD1) : after opsD1 V ⟪r⟫ = V ⟪r⟫ :=
  after_of_writes_sub opsD1 V opsD1_writes h

theorem opsD2_writes : (opsD2 : List (HloOp τ sig (Elt F))).Forall fun op => op.writes ⊆ (wD2.map (Proc.devRef (τ := τ) .tc)).toFinset := by
  simp only [opsD2, List.Forall, reshape_writes, Finset.singleton_subset_iff, List.mem_toFinset]
  exact List.mem_map_of_mem (by decide)
theorem keepD2 (V : Valuation τ sig (Elt F)) (r : Ref sig .tc) (h : r ∉ wD2) : after opsD2 V ⟪r⟫ = V ⟪r⟫ :=
  after_of_writes_sub opsD2 V opsD2_writes h

theorem opsD3_writes : (opsD3 : List (HloOp τ sig (Elt F))).Forall fun op => op.writes ⊆ (wD3.map (Proc.devRef (τ := τ) .tc)).toFinset := by
  simp only [opsD3, List.Forall]
  split_ands <;>
    (simp only [nullary_writes, unary_writes, binary_writes, ternary_writes, reshape_writes, Finset.singleton_subset_iff, List.mem_toFinset]
     exact List.mem_map_of_mem (by decide))
theorem keepD3 (V : Valuation τ sig (Elt F)) (r : Ref sig .tc) (h : r ∉ wD3) : after opsD3 V ⟪r⟫ = V ⟪r⟫ :=
  after_of_writes_sub opsD3 V opsD3_writes h

theorem opsE_writes : (opsE : List (HloOp τ sig (Elt F))).Forall fun op => op.writes ⊆ (wE.map (Proc.devRef (τ := τ) .tc)).toFinset := by
  simp only [opsE, List.Forall]
  split_ands <;>
    (simp only [nullary_writes, unary_writes, binary_writes, ternary_writes, reshape_writes, Finset.singleton_subset_iff, List.mem_toFinset]
     exact List.mem_map_of_mem (by decide))
theorem keepE (V : Valuation τ sig (Elt F)) (r : Ref sig .tc) (h : r ∉ wE) : after opsE V ⟪r⟫ = V ⟪r⟫ :=
  after_of_writes_sub opsE V opsE_writes h

theorem opsF_writes : (opsF : List (HloOp τ sig (Elt F))).Forall fun op => op.writes ⊆ (wF.map (Proc.devRef (τ := τ) .tc)).toFinset := by
  simp only [opsF, List.Forall]
  split_ands <;>
    (simp only [nullary_writes, unary_writes, binary_writes, ternary_writes, reshape_writes, Finset.singleton_subset_iff, List.mem_toFinset]
     exact List.mem_map_of_mem (by decide))
theorem keepF (V : Valuation τ sig (Elt F)) (r : Ref sig .tc) (h : r ∉ wF) : after opsF V ⟪r⟫ = V ⟪r⟫ :=
  after_of_writes_sub opsF V opsF_writes h

/-! ### Operations over typed references at literal buffers

Inside a called function an operation is stated over typed references, and moves contents between the value's type and
the buffer's type along their equality; where the value's type IS the buffer's type that move is the identity, and the
operation's result is its function applied to its operands' contents, as for an operation of @main itself. -/

theorem tnullary_result (y : Ref sig .tc) (hd hs) (v : y.ty.Contents (Elt F)) (W : Valuation τ sig (Elt F)) :
    (TRef.nullary (τ := τ) (TRef.of (T := y.ty) y rfl hd hs) v).result W (no_index (Proc.devRef .tc y)) = v :=
  nullary_result y v _ W
theorem tunary_result (x y : Ref sig .tc) (hxd hxs hyd hys) (f : x.ty.Contents (Elt F) → y.ty.Contents (Elt F))
    (W : Valuation τ sig (Elt F)) :
    (TRef.unary (τ := τ) (TRef.of (T := x.ty) x rfl hxd hxs) (TRef.of (T := y.ty) y rfl hyd hys) f).result W
        (no_index (Proc.devRef .tc y)) = f (W (Proc.devRef .tc x)) :=
  unary_result x y _ _ _ W
theorem tbinary_result (a b y : Ref sig .tc) (had has hbd hbs hyd hys)
    (f : a.ty.Contents (Elt F) → b.ty.Contents (Elt F) → y.ty.Contents (Elt F)) (W : Valuation τ sig (Elt F)) :
    (TRef.binary (τ := τ) (TRef.of (T := a.ty) a rfl had has) (TRef.of (T := b.ty) b rfl hbd hbs)
        (TRef.of (T := y.ty) y rfl hyd hys) f).result W (no_index (Proc.devRef .tc y))
      = f (W (Proc.devRef .tc a)) (W (Proc.devRef .tc b)) :=
  binary_result a b y _ _ _ _ W
theorem tternary_result (c a b y : Ref sig .tc) (hcd hcs had has hbd hbs hyd hys)
    (f : c.ty.Contents (Elt F) → a.ty.Contents (Elt F) → b.ty.Contents (Elt F) → y.ty.Contents (Elt F))
    (W : Valuation τ sig (Elt F)) :
    (TRef.ternary (τ := τ) (TRef.of (T := c.ty) c rfl hcd hcs) (TRef.of (T := a.ty) a rfl had has)
        (TRef.of (T := b.ty) b rfl hbd hbs) (TRef.of (T := y.ty) y rfl hyd hys) f).result W (no_index (Proc.devRef .tc y))
      = f (W (Proc.devRef .tc c)) (W (Proc.devRef .tc a)) (W (Proc.devRef .tc b)) :=
  ternary_result c a b y _ _ _ _ _ W

/-! ## What a stretch computes

Each statement reads one stretch's operations off the fold (one pass over at most 32 of them), replaces the buffers
the stretch reads by the stages they are assumed to hold, and is then the definition of the stage. Inside a
take_along_axis the operations are stated over typed references, whose transport of contents along the buffer's
type is the identity at these literal buffers: it is removed before the two sides are compared, or never introduced
(the statements above). -/

theorem A_v7 (V : Valuation τ sig (Elt F)) : after opsA V ⟪main_v7⟫ = val_main_v7 (F := F) (V ⟪main_arg0⟫) := by
  unfold opsA; after_results_simp <;> rfl
theorem A_v15 (V : Valuation τ sig (Elt F)) : after opsA V ⟪main_v15⟫ = val_main_v15 (F := F) (V ⟪main_arg1⟫) := by
  unfold opsA; after_results_simp <;> rfl
theorem A_v25 (V : Valuation τ sig (Elt F)) : after opsA V ⟪main_v25⟫ = val_main_v25 (F := F) := by
  unfold opsA; after_results_simp <;> rfl
theorem A_v27 (V : Valuation τ sig (Elt F)) : after opsA V ⟪main_v27⟫ = val_main_v27 (F := F) (V ⟪main_arg0⟫) := by
  unfold opsA; after_results_simp <;> rfl

theorem B1_v4 (V : Valuation τ sig (Elt F)) (h25 : V ⟪main_v25⟫ = val_main_v25 (F := F)) :
    after opsB1 V ⟪main_call0_v4⟫ = val_main_call0_v4 (F := F) := by
  unfold opsB1; after_results_simp
  rw [h25]; simp only [TRef.toBuf, TRef.ofBuf, cast_eq]
  rfl
theorem B2_v5 (V : Valuation τ sig (Elt F)) (h4 : V ⟪main_call0_v4⟫ = val_main_call0_v4 (F := F)) :
    after opsB2 V ⟪main_call0_v5⟫ = val_main_call0_v5 (F := F) := by
  unfold opsB2; after_results_simp
  rw [h4]; rfl
theorem B3_v28 (V : Valuation τ sig (Elt F)) (x0 : (⟨S8192x512, .f32⟩ : BufTy).Contents (Elt F))
    (h5 : V ⟪main_call0_v5⟫ = val_main_call0_v5 (F := F)) (hs : V ⟪main_v27⟫ = val_main_v27 (F := F) x0) :
    after opsB3 V ⟪main_v28⟫ = val_main_v28 (F := F) x0 := by
  unfold opsB3
  simp (disch := decide) only [after_cons, after_nil, tnullary_result, tunary_result, tbinary_result, tternary_result, reshape_result', nullary_result_ne', unary_result_ne', binary_result_ne', ternary_result_ne', reshape_result_ne']
  rw [h5, hs]; rfl

theorem C_v35 (V : Valuation τ sig (Elt F)) (x0 : (⟨S8192x512, .f32⟩ : BufTy).Contents (Elt F))
    (h28 : V ⟪main_v28⟫ = val_main_v28 (F := F) x0) :
    after opsC V ⟪main_v35⟫ = val_main_v35 (F := F) x0 := by
  unfold opsC; after_results_simp
  rw [h28]; rfl
theorem C_v41 (V : Valuation τ sig (Elt F)) : after opsC V ⟪main_v41⟫ = val_main_v41 (F := F) (V ⟪main_arg2⟫) := by
  unfold opsC; after_results_simp <;> rfl

theorem D1_v4 (V : Valuation τ sig (Elt F)) (h25 : V ⟪main_v25⟫ = val_main_v25 (F := F)) :
    after opsD1 V ⟪main_call1_v4⟫ = val_main_call1_v4 (F := F) := by
  unfold opsD1; after_results_simp
  rw [h25]; simp only [TRef.toBuf, TRef.ofBuf, cast_eq]
  rfl
theorem D2_v5 (V : Valuation τ sig (Elt F)) (h4 : V ⟪main_call1_v4⟫ = val_main_call1_v4 (F := F)) :
    after opsD2 V ⟪main_call1_v5⟫ = val_main_call1_v5 (F := F) := by
  unfold opsD2; after_results_simp
  rw [h4]; rfl
theorem D3_v42 (V : Valuation τ sig (Elt F)) (x2 : (⟨S8192, .i32⟩ : BufTy).Contents (Elt F))
    (h5 : V ⟪main_call1_v5⟫ = val_main_call1_v5 (F := F)) (hs : V ⟪main_v41⟫ = val_main_v41 (F := F) x2) :
    after opsD3 V ⟪main_v42⟫ = val_main_v42 (F := F) x2 := by
  unfold opsD3
  simp (disch := decide) only [after_cons, after_nil, tnullary_result, tunary_result, tbinary_result, tternary_result, reshape_result', nullary_result_ne', unary_result_ne', binary_result_ne', ternary_result_ne', reshape_result_ne']
  rw [h5, hs]; rfl

theorem E_v51 (V : Valuation τ sig (Elt F)) (x0 x1 : (⟨S8192x512, .f32⟩ : BufTy).Contents (Elt F))
    (h7 : V ⟪main_v7⟫ = val_main_v7 (F := F) x0) (h15 : V ⟪main_v15⟫ = val_main_v15 (F := F) x1) :
    after opsE V ⟪main_v51⟫ = val_main_v51 (F := F) x0 x1 := by
  unfold opsE; after_results_simp
  rw [h7, h15]; rfl

theorem F_v64 (V : Valuation τ sig (Elt F)) (x0 x1 : (⟨S8192x512, .f32⟩ : BufTy).Contents (Elt F)) (x2 : (⟨S8192, .i32⟩ : BufTy).Contents (Elt F))
    (h41 : V ⟪main_v41⟫ = val_main_v41 (F := F) x2) (h51 : V ⟪main_v51⟫ = val_main_v51 (F := F) x0 x1)
    (h42 : V ⟪main_v42⟫ = val_main_v42 (F := F) x2) (h35 : V ⟪main_v35⟫ = val_main_v35 (F := F) x0) :
    after opsF V ⟪main_v64⟫ = val_main_v64 (F := F) x0 x1 x2 := by
  unfold opsF; after_results_simp
  rw [h41, h51, h42, h35]; rfl

/-! ## The whole line -/

/-- From any contents `V`: after @main's 121 operations the result buffer holds the last stage of the three argument
    arrays as `V` has them, and the three argument buffers are as in `V`. -/
theorem after_ops (V : Valuation τ sig (Elt F)) :
    after (ValueP.ops : List (HloOp τ sig (Elt F))) V ⟪main_v64⟫
        = val_main_v64 (F := F) (V ⟪main_arg0⟫) (V ⟪main_arg1⟫) (V ⟪main_arg2⟫)
      ∧ after (ValueP.ops : List (HloOp τ sig (Elt F))) V ⟪main_arg0⟫ = V ⟪main_arg0⟫
      ∧ after (ValueP.ops : List (HloOp τ sig (Elt F))) V ⟪main_arg1⟫ = V ⟪main_arg1⟫
      ∧ after (ValueP.ops : List (HloOp τ sig (Elt F))) V ⟪main_arg2⟫ = V ⟪main_arg2⟫ := by
  rw [ops_eq]; simp only [after_app]
  -- stretch A
  have hA_arg0 := keepA V main_arg0 (by decide)
  have hA_arg1 := keepA V main_arg1 (by decide)
  have hA_arg2 := keepA V main_arg2 (by decide)
  have hA_v7 := A_v7 V
  have hA_v15 := A_v15 V
  have hA_v25 := A_v25 V
  have hA_v27 := A_v27 V
  generalize after opsA V = V₁ at *
  -- stretch B1
  have hB1_arg0 := (keepB1 V₁ main_arg0 (by decide)).trans hA_arg0
  have hB1_arg1 := (keepB1 V₁ main_arg1 (by decide)).trans hA_arg1
  have hB1_arg2 := (keepB1 V₁ main_arg2 (by decide)).trans hA_arg2
  have hB1_v7 := (keepB1 V₁ main_v7 (by decide)).trans hA_v7
  have hB1_v15 := (keepB1 V₁ main_v15 (by decide)).trans hA_v15
  have hB1_v25 := (keepB1 V₁ main_v25 (by decide)).trans hA_v25
  have hB1_v27 := (keepB1 V₁ main_v27 (by decide)).trans hA_v27
  have hB1_call0_v4 := B1_v4 V₁ hA_v25
  generalize after opsB1 V₁ = V₂ at *
  -- stretch B2
  have hB2_arg0 := (keepB2 V₂ main_arg0 (by decide)).trans hB1_arg0
  have hB2_arg1 := (keepB2 V₂ main_arg1 (by decide)).trans hB1_arg1
  have hB2_arg2 := (keepB2 V₂ main_arg2 (by decide)).trans hB1_arg2
  have hB2_v7 := (keepB2 V₂ main_v7 (by decide)).trans hB1_v7
  have hB2_v15 := (keepB2 V₂ main_v15 (by decide)).trans hB1_v15
  have hB2_v25 := (keepB2 V₂ main_v25 (by decide)).trans hB1_v25
  have hB2_v27 := (keepB2 V₂ main_v27 (by decide)).trans hB1_v27
  have hB2_call0_v5 := B2_v5 V₂ hB1_call0_v4
  generalize after opsB2 V₂ = V₃ at *
  -- stretch B3
  have hB3_arg0 := (keepB3 V₃ main_arg0 (by decide)).trans hB2_arg0
  have hB3_arg1 := (keepB3 V₃ main_arg1 (by decide)).trans hB2_arg1
  have hB3_arg2 := (keepB3 V₃ main_arg2 (by decide)).trans hB2_arg2
  have hB3_v7 := (keepB3 V₃ main_v7 (by decide)).trans hB2_v7
  have hB3_v15 := (keepB3 V₃ main_v15 (by decide)).trans hB2_v15
  have hB3_v25 := (keepB3 V₃ main_v25 (by decide)).trans hB2_v25
  have hB3_v28 := B3_v28 V₃ _ hB2_call0_v5 hB2_v27
  generalize after opsB3 V₃ = V₄ at *
  -- stretch C
  have hC_arg0 := (keepC V₄ main_arg0 (by decide)).trans hB3_arg0
  have hC_arg1 := (keepC V₄ main_arg1 (by decide)).trans hB3_arg1
  have hC_arg2 := (keepC V₄ main_arg2 (by decide)).trans hB3_arg2
  have hC_v7 := (keepC V₄ main_v7 (by decide)).trans hB3_v7
  have hC_v15 := (keepC V₄ main_v15 (by decide)).trans hB3_v15
  have hC_v25 := (keepC V₄ main_v25 (by decide)).trans hB3_v25
  have hC_v35 := C_v35 V₄ _ hB3_v28
  have hC_v41 := (C_v41 V₄).trans (congrArg (val_main_v41 (F := F)) hB3_arg2)
  generalize after opsC V₄ = V₅ at *
  -- stretch D1
  have hD1_arg0 := (keepD1 V₅ main_arg0 (by decide)).trans hC_arg0
  have hD1_arg1 := (keepD1 V₅ main_arg1 (by decide)).trans hC_arg1
  have hD1_arg2 := (keepD1 V₅ main_arg2 (by decide)).trans hC_arg2
  have hD1_v7 := (keepD1 V₅ main_v7 (by decide)).trans hC_v7
  have hD1_v15 := (keepD1 V₅ main_v15 (by decide)).trans hC_v15
  have hD1_v35 := (keepD1 V₅ main_v35 (by decide)).trans hC_v35
  have hD1_v41 := (keepD1 V₅ main_v41 (by decide)).trans hC_v41
  have hD1_call1_v4 := D1_v4 V₅ hC_v25
  generalize after opsD1 V₅ = V₆ at *
  -- stretch D2
  have hD2_arg0 := (keepD2 V₆ main_arg0 (by decide)).trans hD1_arg0
  have hD2_arg1 := (keepD2 V₆ main_arg1 (by decide)).trans hD1_arg1
  have hD2_arg2 := (keepD2 V₆ main_arg2 (by decide)).trans hD1_arg2
  have hD2_v7 := (keepD2 V₆ main_v7 (by decide)).trans hD1_v7
  have hD2_v15 := (keepD2 V₆ main_v15 (by decide)).trans hD1_v15
  have hD2_v35 := (keepD2 V₆ main_v35 (by decide)).trans hD1_v35
  have hD2_v41 := (keepD2 V₆ main_v41 (by decide)).trans hD1_v41
  have hD2_call1_v5 := D2_v5 V₆ hD1_call1_v4
  generalize after opsD2 V₆ = V₇ at *
  -- stretch D3
  have hD3_arg0 := (keepD3 V₇ main_arg0 (by decide)).trans hD2_arg0
  have hD3_arg1 := (keepD3 V₇ main_arg1 (by decide)).trans hD2_arg1
  have hD3_arg2 := (keepD3 V₇ main_arg2 (by decide)).trans hD2_arg2
  have hD3_v7 := (keepD3 V₇ main_v7 (by decide)).trans hD2_v7
  have hD3_v15 := (keepD3 V₇ main_v15 (by decide)).trans hD2_v15
  have hD3_v35 := (keepD3 V₇ main_v35 (by decide)).trans hD2_v35
  have hD3_v41 := (keepD3 V₇ main_v41 (by decide)).trans hD2_v41
  have hD3_v42 := D3_v42 V₇ _ hD2_call1_v5 hD2_v41
  generalize after opsD3 V₇ = V₈ at *
  -- stretch E
  have hE_arg0 := (keepE V₈ main_arg0 (by decide)).trans hD3_arg0
  have hE_arg1 := (keepE V₈ main_arg1 (by decide)).trans hD3_arg1
  have hE_arg2 := (keepE V₈ main_arg2 (by decide)).trans hD3_arg2
  have hE_v35 := (keepE V₈ main_v35 (by decide)).trans hD3_v35
  have hE_v41 := (keepE V₈ main_v41 (by decide)).trans hD3_v41
  have hE_v42 := (keepE V₈ main_v42 (by decide)).trans hD3_v42
  have hE_v51 := E_v51 V₈ _ _ hD3_v7 hD3_v15
  generalize after opsE V₈ = V₉ at *
  -- stretch F
  exact ⟨F_v64 V₉ _ _ _ hE_v41 hE_v51 hE_v42 hE_v35,
    (keepF V₉ main_arg0 (by decide)).trans hE_arg0,
    (keepF V₉ main_arg1 (by decide)).trans hE_arg1,
    (keepF V₉ main_arg2 (by decide)).trans hE_arg2⟩

/-- On every device, for any float values, from any memory with zero counters: every weakly fair execution of
    @main terminates with the result buffer at the last stage of the three argument arrays as launched, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
          = val_main_v64 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v64).trans (after_ops (launchContents m c)).1,
       (h c main_arg0).trans (after_ops (launchContents m c)).2.1,
       (h c main_arg1).trans (after_ops (launchContents m c)).2.2.1,
       (h c main_arg2).trans (after_ops (launchContents m c)).2.2.2⟩)
    (run_seq ValueP.scopedRefs_eq ValueP.scopedSems_eq defs main (fun _ => ValueP.ops) ValueP.main_eq (fun _ => ValueP.ops_sub) m ρ)

end Cert.RefRun

end
-- ==== Proof.FiniteInputs.lean ====
import proofs.«129704_j5781025981007_2_alg».proof.Pre_finite_inputs
import Idealize.ShloMosaic.Lib.ReduceAll
import Idealize.ShloMosaic.Lib.ValueIdx
import Idealize.ShloMosaic.PureOps.Ideal

/-!
  From the finiteness precondition to real entries.

  The precondition is a printed predicate: for each of the two float arrays it compares the absolute
  value of every entry with plus infinity (strictly below), reduces the comparisons by "and" over the
  whole array, and finally takes the "and" of the two results.  Read over the extended reals, the
  predicate being all ones says that every entry of both arrays is a real number: an extended real x
  with max x (-x) < ⊤ is neither ⊤ nor ⊥.
-/

open Idealize.ShloMosaic

noncomputable section

namespace Cert.FiniteInputs

open Cert.Pre_finite_inputs

/-- The rank-zero shape has a single index. -/
instance : Subsingleton S_.Idx := ⟨fun a b => funext fun d => d.elim0⟩

/-- The element fact: an extended real whose absolute value is strictly below the value of the
    plus-infinity pattern is a real number. -/
theorem real_of_abs_lt_inf (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array: if the "and" over all entries of the comparison |x| < +inf is one, every entry is real. -/
theorem real_of_all [Facts] (x : S8192x512.Idx → EReal)
    (h : Host.reduce IntOp.andi
        (cmpf (F := Ideal) CmpFPredicate.olt (Host.absf (F := Ideal) (φ := .f32) x)
          (broadcastInDim S8192x512 ![] Facts.bcast_S_S8192x512 (constant (F := Ideal) S_ .f32 0x7F800000#32)))
        (constantI S_ 1 1#1) Facts.reducesTo_S8192x512_S_d0_1 Facts.h_S_ ValueIdx.ix0 = 1#1) :
    ∀ i, ∃ r : ℝ, x i = (r : EReal) := by
  intro i
  have hi := Host.reduce_andi_all _ _ _ _ _ h i
  exact real_of_abs_lt_inf (x i) hi

/-- The precondition, read over the extended reals, makes every entry of both float arrays real. -/
theorem finite_of_pre [Facts] (x0 x1 : S8192x512.Idx → EReal) (x2 : S8192.Idx → BitVec 32)
    (h : Cert.Pre_finite_inputs.fn (F := Ideal) x0 x1 x2 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨real_of_all x0 ha, real_of_all x1 hb⟩

end Cert.FiniteInputs
-- ==== Proof.lean ====
/-
  The certificate of the streaming supervised-contrastive loss kernel against its jnp reference.

  Both programs normalise the two embedding arrays row by row, x / max(‖x‖, 1e-8). The reference forms the two
  8192-by-8192 cosine-score matrices (data against data, data against label embeddings), drops the diagonal of the
  first by re-indexing its columns, subtracts each row's maximum, divides by the temperature, exponentiates, and takes
  per row the logarithm of (sum of the exponentials at equal labels) / (sum of all exponentials), the two matrices'
  sums added; its result is minus the mean of these logarithms. The kernel streams the key columns in 16 blocks of 512
  per block of 1024 query rows: it scales the scores by the reciprocal of the temperature, masks the diagonal entry, and
  keeps running maxima and rescaled running sums, which after the last block are the reference's sums exactly, since
  exp(m_old - m_new) · exp(s - m_old) = exp(s - m_new) on the reals and scaling by a positive constant commutes with the
  maximum. Two kernel literals are named by the certificate's table: the scale 14.2857141… is the exact reciprocal of
  the reference's temperature word, and the mask fill -1e30 is -∞ (so the masked entry's exponential is 0).

  The three frames: the two kernel programs by the kernel region's run (one array is staged by two windows, at half
  shares), the reference by its host run. The value claim: the kernel's run ends with the result at the streamed
  closed form, the reference's at the whole-matrix closed form, and the two are equal for finite inputs.
-/
import proofs.«129704_j5781025981007_2_alg».proof.Defs
import proofs.«129704_j5781025981007_2_alg».proof.Proof.Gen.Kernel
import proofs.«129704_j5781025981007_2_alg».proof.Proof.Gen.KernelIdeal
import proofs.«129704_j5781025981007_2_alg».proof.Proof.Gen.ReferenceIdeal
import proofs.«129704_j5781025981007_2_alg».proof.Proof.Gen.Pre_finite_inputs
import proofs.«129704_j5781025981007_2_alg».proof.Proof.KbArgs
import proofs.«129704_j5781025981007_2_alg».proof.Proof.KiValue
import proofs.«129704_j5781025981007_2_alg».proof.Proof.RefRun
import proofs.«129704_j5781025981007_2_alg».proof.Proof.RefValue
import proofs.«129704_j5781025981007_2_alg».proof.Proof.Bridge
import proofs.«129704_j5781025981007_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Flash.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Flash.frame m ρ

/-- The reference is host operations only: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run (F := Ideal) m ρ)

/-- The three named literals: the scale (at its two sites) denotes the reciprocal of the reference's temperature word,
    the mask fill denotes -∞. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl,
   IdealRules.named_const.statement Cert.KernelIdeal.κ "neg_big" .f32 0xF149F2CA#32 ⊥ rfl⟩

/-- Both runs end with the result at the streamed closed form of the arguments: the kernel's by its run, the
    reference's by its run, its whole-matrix closed form and the equality of the two for finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Bridge.KerSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Flash.kernel_value m ρ, ?_⟩
  refine (θ_run Cert.ReferenceIdeal.defs _ _).mono (fun _ h c => ⟨?_, (h c).2⟩) (Cert.RefRun.run (F := Ideal) m' ρ')
  rw [(h c).1, (hagree c).1, (hagree c).2.1, (hagree c).2.2]
  obtain ⟨f0, f1⟩ := Cert.FiniteInputs.finite_of_pre _ _ _ (hpre c)
  funext i
  rw [ValueIdx.eq_ix0 i, Cert.RefValue.ref_value]
  exact Cert.Bridge.bridge _ _ _ f0 f1

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
